-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x32x32 : Shape := ⟨4, ![128, 256, 32, 32]⟩
abbrev S1x256x1x1 : Shape := ⟨4, ![1, 256, 1, 1]⟩
abbrev S_ : Shape := ⟨0, ![]⟩

class Facts : Prop where
  bcast_S_S128x256x32x32 : S_.BroadcastsInDim S128x256x32x32 (![] : Fin 0 → Fin S128x256x32x32.rank)
  reducesTo_S128x256x32x32_S_d0_1_2_3 : S128x256x32x32.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S128x256x32x32 .f32) (main_arg1 : FVec F S1x256x1x1 .f32) (main_arg2 : FVec F S1x256x1x1 .f32) : IVec S_ 1 :=
  let main_v0 : FVec F S128x256x32x32 .f32 := Host.absf main_arg0
  let main_cst : FVec F S_ .f32 := constant S_ .f32 0x7F800000#32
  let main_v1 : FVec F S128x256x32x32 .f32 := broadcastInDim S128x256x32x32 ![] bcast_S_S128x256x32x32 main_cst
  let main_v2 : IVec S128x256x32x32 1 := cmpf .olt main_v0 main_v1
  let main_c : IVec S_ 1 := constantI S_ 1 1#1
  let main_v3 : IVec S_ 1 := (fun x v => Host.reduce IntOp.andi x v reducesTo_S128x256x32x32_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S128x256x32x32 : Shape := ⟨4, ![128, 256, 32, 32]⟩
abbrev S1x256x1x1 : Shape := ⟨4, ![1, 256, 1, 1]⟩
abbrev S128x256x1024 : Shape := ⟨3, ![128, 256, 1024]⟩
abbrev S4x64 : Shape := ⟨2, ![4, 64]⟩
abbrev S4x64x64 : Shape := ⟨3, ![4, 64, 64]⟩
abbrev S16x256x1024 : Shape := ⟨3, ![16, 256, 1024]⟩
abbrev S16x64x1024 : Shape := ⟨3, ![16, 64, 1024]⟩
abbrev S1x64 : Shape := ⟨2, ![1, 64]⟩
abbrev S64 : Shape := ⟨1, ![64]⟩
abbrev S16x64x64 : Shape := ⟨3, ![16, 64, 64]⟩
abbrev S1x64x64 : Shape := ⟨3, ![1, 64, 64]⟩
abbrev S64x64 : Shape := ⟨2, ![64, 64]⟩
abbrev S_ : Shape := ⟨0, ![]⟩
abbrev S4x64x1 : Shape := ⟨3, ![4, 64, 1]⟩
abbrev S4x1x64 : Shape := ⟨3, ![4, 1, 64]⟩
abbrev S4 : Shape := ⟨1, ![4]⟩
abbrev S4x1x1 : Shape := ⟨3, ![4, 1, 1]⟩
abbrev S1x256 : Shape := ⟨2, ![1, 256]⟩
abbrev S8x256x1024 : Shape := ⟨3, ![8, 256, 1024]⟩
abbrev S8x64x1024 : Shape := ⟨3, ![8, 64, 1024]⟩
abbrev S1x64x1024 : Shape := ⟨3, ![1, 64, 1024]⟩
abbrev S64x1024 : Shape := ⟨2, ![64, 1024]⟩
abbrev S64x1 : Shape := ⟨2, ![64, 1]⟩

abbrev nBuf : Space → Nat
  | .hbm => 107
  | .vmem => 12
  | .smem => 0
  | _ => 0

abbrev bufTy : (tb : Table) → Fin (tcTables nBuf tb) → BufTy
  | .hbm, ⟨0, _⟩ => ⟨S128x256x32x32, .f32⟩
  | .hbm, ⟨1, _⟩ => ⟨S1x256x1x1, .f32⟩
  | .hbm, ⟨2, _⟩ => ⟨S1x256x1x1, .f32⟩
  | .hbm, ⟨3, _⟩ => ⟨S128x256x1024, .f32⟩
  | .hbm, ⟨4, _⟩ => ⟨S4x64, .f32⟩
  | .hbm, ⟨5, _⟩ => ⟨S4x64x64, .f32⟩
  | .hbm, ⟨6, _⟩ => ⟨S_, .f32⟩
  | .hbm, ⟨7, _⟩ => ⟨S4x64, .f32⟩
  | .hbm, ⟨8, _⟩ => ⟨S4x64, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .f32⟩
  | .hbm, ⟨16, _⟩ => ⟨S1x64x64, .f32⟩
  | .hbm, ⟨17, _⟩ => ⟨S4x64x1, .f32⟩
  | .hbm, ⟨18, _⟩ => ⟨S4x1x64, .f32⟩
  | .hbm, ⟨19, _⟩ => ⟨S4x64x64, .f32⟩
  | .hbm, ⟨20, _⟩ => ⟨S4x64x64, .f32⟩
  | .hbm, ⟨21, _⟩ => ⟨S4x64x64, .f32⟩
  | .hbm, ⟨22, _⟩ => ⟨S_, .f32⟩
  | .hbm, ⟨23, _⟩ => ⟨S1x64x64, .f32⟩
  | .hbm, ⟨24, _⟩ => ⟨S1x64x64, .f32⟩
  | .hbm, ⟨25, _⟩ => ⟨S_, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64, .f32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S_, .f32⟩
  | .hbm, ⟨38, _⟩ => ⟨S4x64x64, .f32⟩
  | .hbm, ⟨39, _⟩ => ⟨S4x64x64, .i1⟩
  | .hbm, ⟨40, _⟩ => ⟨S4x64x64, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1x1, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S4x64x64, .f32⟩
  | .hbm, ⟨51, _⟩ => ⟨S4x64x64, .f32⟩
  | .hbm, ⟨52, _⟩ => ⟨S_, .f32⟩
  | .hbm, ⟨53, _⟩ => ⟨S4x64x64, .f32⟩
  | .hbm, ⟨54, _⟩ => ⟨S4x64x64, .f32⟩
  | .hbm, ⟨55, _⟩ => ⟨S4x64x64, .f32⟩
  | .hbm, ⟨56, _⟩ => ⟨S_, .f32⟩
  | .hbm, ⟨57, _⟩ => ⟨S4x64x64, .f32⟩
  | .hbm, ⟨58, _⟩ => ⟨S4x64x64, .f32⟩
  | .hbm, ⟨59, _⟩ => ⟨S4x64x64, .f32⟩
  | .hbm, ⟨60, _⟩ => ⟨S4x64x64, .f32⟩
  | .hbm, ⟨61, _⟩ => ⟨S4x64x64, .f32⟩
  | .hbm, ⟨62, _⟩ => ⟨S_, .f32⟩
  | .hbm, ⟨63, _⟩ => ⟨S4x64x64, .f32⟩
  | .hbm, ⟨64, _⟩ => ⟨S4x64x64, .f32⟩
  | .hbm, ⟨65, _⟩ => ⟨S4x64x64, .f32⟩
  | .hbm, ⟨66, _⟩ => ⟨S_, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S4x64x64, .f32⟩
  | .hbm, ⟨71, _⟩ => ⟨S4x64x64, .f32⟩
  | .hbm, ⟨72, _⟩ => ⟨S_, .f32⟩
  | .hbm, ⟨73, _⟩ => ⟨S4x64x64, .f32⟩
  | .hbm, ⟨74, _⟩ => ⟨S4x64x64, .f32⟩
  | .hbm, ⟨75, _⟩ => ⟨S4x64x64, .f32⟩
  | .hbm, ⟨76, _⟩ => ⟨S_, .f32⟩
  | .hbm, ⟨77, _⟩ => ⟨S4x64x64, .f32⟩
  | .hbm, ⟨78, _⟩ => ⟨S4x64x64, .f32⟩
  | .hbm, ⟨79, _⟩ => ⟨S4x64x64, .f32⟩
  | .hbm, ⟨80, _⟩ => ⟨S4x64x64, .f32⟩
  | .hbm, ⟨81, _⟩ => ⟨S4x64x64, .f32⟩
  | .hbm, ⟨82, _⟩ => ⟨S_, .f32⟩
  | .hbm, ⟨83, _⟩ => ⟨S4x64x64, .f32⟩
  | .hbm, ⟨84, _⟩ => ⟨S4x64x64, .f32⟩
  | .hbm, ⟨85, _⟩ => ⟨S4x64x64, .f32⟩
  | .hbm, ⟨86, _⟩ => ⟨S_, .f32⟩
  | .hbm, ⟨87, _⟩ => ⟨S4x64x64, .f32⟩
  | .hbm, ⟨88, _⟩ => ⟨S4x64x64, .f32⟩
  | .hbm, ⟨89, _⟩ => ⟨S4x64x64, .f32⟩
  | .hbm, ⟨90, _⟩ => ⟨S4x64x64, .f32⟩
  | .hbm, ⟨91, _⟩ => ⟨S4x64x64, .f32⟩
  | .hbm, ⟨92, _⟩ => ⟨S_, .f32⟩
  | .hbm, ⟨93, _⟩ => ⟨S4x64x64, .f32⟩
  | .hbm, ⟨94, _⟩ => ⟨S4x64x64, .f32⟩
  | .hbm, ⟨95, _⟩ => ⟨S4x64x64, .f32⟩
  | .hbm, ⟨96, _⟩ => ⟨S_, .f32⟩
  | .hbm, ⟨97, _⟩ => ⟨S4x64x64, .f32⟩
  | .hbm, ⟨98, _⟩ => ⟨S4x64x64, .f32⟩
  | .hbm, ⟨99, _⟩ => ⟨S4x64x64, .f32⟩
  | .hbm, ⟨100, _⟩ => ⟨S4x1x1, .f32⟩
  | .hbm, ⟨101, _⟩ => ⟨S4x64x64, .f32⟩
  | .hbm, ⟨102, _⟩ => ⟨S4x64x64, .f32⟩
  | .hbm, ⟨103, _⟩ => ⟨S1x256, .f32⟩
  | .hbm, ⟨104, _⟩ => ⟨S1x256, .f32⟩
  | .hbm, ⟨105, _⟩ => ⟨S128x256x1024, .f32⟩
  | .hbm, ⟨106, _⟩ => ⟨S128x256x32x32, .f32⟩
  | .local _ .vmem, ⟨0, _⟩ => ⟨S16x256x1024, .f32⟩
  | .local _ .vmem, ⟨1, _⟩ => ⟨S16x256x1024, .f32⟩
  | .local _ .vmem, ⟨2, _⟩ => ⟨S4x64, .f32⟩
  | .local _ .vmem, ⟨3, _⟩ => ⟨S4x64x64, .f32⟩
  | .local _ .vmem, ⟨4, _⟩ => ⟨S8x256x1024, .f32⟩
  | .local _ .vmem, ⟨5, _⟩ => ⟨S8x256x1024, .f32⟩
  | .local _ .vmem, ⟨6, _⟩ => ⟨S4x64, .f32⟩
  | .local _ .vmem, ⟨7, _⟩ => ⟨S4x64x64, .f32⟩
  | .local _ .vmem, ⟨8, _⟩ => ⟨S1x256, .f32⟩
  | .local _ .vmem, ⟨9, _⟩ => ⟨S1x256, .f32⟩
  | .local _ .vmem, ⟨10, _⟩ => ⟨S8x256x1024, .f32⟩
  | .local _ .vmem, ⟨11, _⟩ => ⟨S8x256x1024, .f32⟩
  | _, _ => ⟨S128x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_c : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_call0_call0_v0 : Ref sig .tc := ⟨.hbm, 39, rfl⟩
abbrev main_call0_v6 : Ref sig .tc := ⟨.hbm, 40, rfl⟩
abbrev main_call0_cst_0 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x256x32x32_S128x256x1024 : S128x256x32x32.ShapeCasts S128x256x1024
  inb_S4x64_S4x64_0_0 : ∀ a, (![0, 0] : Fin 2 → Nat) a + S4x64.size a ≤ S4x64.size a
  h_S4x64 : 0 < S4x64.numel
  inb_S4x64x64_S4x64x64_0_0_0 : ∀ a, (![0, 0, 0] : Fin 3 → Nat) a + S4x64x64.size a ≤ S4x64x64.size a
  h_S4x64x64 : 0 < S4x64x64.numel
  inb_S16x256x1024_S16x64x1024_0_0_0 : ∀ a, (![0, 0, 0] : Fin 3 → Nat) a + S16x64x1024.size a ≤ S16x256x1024.size a
  h_S16x64x1024 : 0 < S16x64x1024.numel
  shapeCasts_S16x64x1024_S16x64x1024 : S16x64x1024.ShapeCasts S16x64x1024
  inb_S4x64_S1x64_0_0 : ∀ a, (![0, 0] : Fin 2 → Nat) a + S1x64.size a ≤ S4x64.size a
  h_S1x64 : 0 < S1x64.numel
  shapeCasts_S1x64_S64 : S1x64.ShapeCasts S64
  reduces_S16x64x1024_S64 : S16x64x1024.Reduces [0, 2] S64
  shapeCasts_S64_S1x64 : S64.ShapeCasts S1x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  reduces_S16x64x64_S64x64 : S16x64x64.Reduces [0] S64x64
  shapeCasts_S64x64_S1x64x64 : S64x64.ShapeCasts S1x64x64
  inb_S16x256x1024_S16x64x1024_0_64_0 : ∀ a, (![0, 64, 0] : Fin 3 → Nat) a + S16x64x1024.size a ≤ S16x256x1024.size a
  inb_S4x64_S1x64_1_0 : ∀ a, (![1, 0] : Fin 2 → Nat) a + S1x64.size a ≤ S4x64.size a
  inb_S4x64x64_S1x64x64_1_0_0 : ∀ a, (![1, 0, 0] : Fin 3 → Nat) a + S1x64x64.size a ≤ S4x64x64.size a
  inb_S16x256x1024_S16x64x1024_0_128_0 : ∀ a, (![0, 128, 0] : Fin 3 → Nat) a + S16x64x1024.size a ≤ S16x256x1024.size a
  inb_S4x64_S1x64_2_0 : ∀ a, (![2, 0] : Fin 2 → Nat) a + S1x64.size a ≤ S4x64.size a
  inb_S4x64x64_S1x64x64_2_0_0 : ∀ a, (![2, 0, 0] : Fin 3 → Nat) a + S1x64x64.size a ≤ S4x64x64.size a
  inb_S16x256x1024_S16x64x1024_0_192_0 : ∀ a, (![0, 192, 0] : Fin 3 → Nat) a + S16x64x1024.size a ≤ S16x256x1024.size a
  inb_S4x64_S1x64_3_0 : ∀ a, (![3, 0] : Fin 2 → Nat) a + S1x64.size a ≤ S4x64.size a
  inb_S4x64x64_S1x64x64_3_0_0 : ∀ a, (![3, 0, 0] : Fin 3 → Nat) a + S1x64x64.size a ≤ S4x64x64.size a
  bcast_S_S4x64 : S_.BroadcastsInDim S4x64 (![] : Fin 0 → Fin S4x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S4x64_S4x64x1_0_1 : S4x64.BroadcastsInDim S4x64x1 (![0, 1] : Fin 2 → Fin S4x64x1.rank)
  bcast_S4x64_S4x1x64_0_2 : S4x64.BroadcastsInDim S4x1x64 (![0, 2] : Fin 2 → Fin S4x1x64.rank)
  bcast_S4x64x1_S4x64x64_0_1_2 : S4x64x1.BroadcastsInDim S4x64x64 (![0, 1, 2] : Fin 3 → Fin S4x64x64.rank)
  bcast_S4x1x64_S4x64x64_0_1_2 : S4x1x64.BroadcastsInDim S4x64x64 (![0, 1, 2] : Fin 3 → Fin S4x64x64.rank)
  bcast_S_S1x64x64 : S_.BroadcastsInDim S1x64x64 (![] : Fin 0 → Fin S1x64x64.rank)
  bcast_S_S4x64x64 : S_.BroadcastsInDim S4x64x64 (![] : Fin 0 → Fin S4x64x64.rank)
  bcast_S1x64x64_S4x64x64_0_1_2 : S1x64x64.BroadcastsInDim S4x64x64 (![0, 1, 2] : Fin 3 → Fin S4x64x64.rank)
  bcast_S64x64_S4x64x64_1_2 : S64x64.BroadcastsInDim S4x64x64 (![1, 2] : Fin 2 → Fin S4x64x64.rank)
  reducesTo_S4x64x64_S4_d1_2 : S4x64x64.ReducesTo [1, 2] S4
  h_S_ : 0 < S_.numel
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x64x64_0_1_2 : S4x1x1.BroadcastsInDim S4x64x64 (![0, 1, 2] : Fin 3 → Fin S4x64x64.rank)
  shapeCasts_S1x256x1x1_S1x256 : S1x256x1x1.ShapeCasts S1x256
  inb_S8x256x1024_S8x64x1024_0_0_0 : ∀ a, (![0, 0, 0] : Fin 3 → Nat) a + S8x64x1024.size a ≤ S8x256x1024.size a
  h_S8x64x1024 : 0 < S8x64x1024.numel
  shapeCasts_S8x64x1024_S8x64x1024 : S8x64x1024.ShapeCasts S8x64x1024
  inb_S1x256_S1x64_0_0 : ∀ a, (![0, 0] : Fin 2 → Nat) a + S1x64.size a ≤ S1x256.size a
  slices_S8x64x1024_o0_0_0_S1x64x1024 : S8x64x1024.Slices ![0, 0, 0] S1x64x1024
  shapeCasts_S1x64x1024_S64x1024 : S1x64x1024.ShapeCasts S64x1024
  shapeCasts_S64_S64x1 : S64.ShapeCasts S64x1
  broadcasts_S64x1_S64x1024 : S64x1.Broadcasts S64x1024
  inb_S8x256x1024_S1x64x1024_0_0_0 : ∀ a, (![0, 0, 0] : Fin 3 → Nat) a + S1x64x1024.size a ≤ S8x256x1024.size a
  h_S1x64x1024 : 0 < S1x64x1024.numel
  shapeCasts_S64x1024_S1x64x1024 : S64x1024.ShapeCasts S1x64x1024
  slices_S8x64x1024_o1_0_0_S1x64x1024 : S8x64x1024.Slices ![1, 0, 0] S1x64x1024
  inb_S8x256x1024_S1x64x1024_1_0_0 : ∀ a, (![1, 0, 0] : Fin 3 → Nat) a + S1x64x1024.size a ≤ S8x256x1024.size a
  slices_S8x64x1024_o2_0_0_S1x64x1024 : S8x64x1024.Slices ![2, 0, 0] S1x64x1024
  inb_S8x256x1024_S1x64x1024_2_0_0 : ∀ a, (![2, 0, 0] : Fin 3 → Nat) a + S1x64x1024.size a ≤ S8x256x1024.size a
  slices_S8x64x1024_o3_0_0_S1x64x1024 : S8x64x1024.Slices ![3, 0, 0] S1x64x1024
  inb_S8x256x1024_S1x64x1024_3_0_0 : ∀ a, (![3, 0, 0] : Fin 3 → Nat) a + S1x64x1024.size a ≤ S8x256x1024.size a
  slices_S8x64x1024_o4_0_0_S1x64x1024 : S8x64x1024.Slices ![4, 0, 0] S1x64x1024
  inb_S8x256x1024_S1x64x1024_4_0_0 : ∀ a, (![4, 0, 0] : Fin 3 → Nat) a + S1x64x1024.size a ≤ S8x256x1024.size a
  slices_S8x64x1024_o5_0_0_S1x64x1024 : S8x64x1024.Slices ![5, 0, 0] S1x64x1024
  inb_S8x256x1024_S1x64x1024_5_0_0 : ∀ a, (![5, 0, 0] : Fin 3 → Nat) a + S1x64x1024.size a ≤ S8x256x1024.size a
  slices_S8x64x1024_o6_0_0_S1x64x1024 : S8x64x1024.Slices ![6, 0, 0] S1x64x1024
  inb_S8x256x1024_S1x64x1024_6_0_0 : ∀ a, (![6, 0, 0] : Fin 3 → Nat) a + S1x64x1024.size a ≤ S8x256x1024.size a
  slices_S8x64x1024_o7_0_0_S1x64x1024 : S8x64x1024.Slices ![7, 0, 0] S1x64x1024
  inb_S8x256x1024_S1x64x1024_7_0_0 : ∀ a, (![7, 0, 0] : Fin 3 → Nat) a + S1x64x1024.size a ≤ S8x256x1024.size a
  inb_S8x256x1024_S8x64x1024_0_64_0 : ∀ a, (![0, 64, 0] : Fin 3 → Nat) a + S8x64x1024.size a ≤ S8x256x1024.size a
  inb_S1x256_S1x64_0_64 : ∀ a, (![0, 64] : Fin 2 → Nat) a + S1x64.size a ≤ S1x256.size a
  inb_S8x256x1024_S1x64x1024_0_64_0 : ∀ a, (![0, 64, 0] : Fin 3 → Nat) a + S1x64x1024.size a ≤ S8x256x1024.size a
  inb_S8x256x1024_S1x64x1024_1_64_0 : ∀ a, (![1, 64, 0] : Fin 3 → Nat) a + S1x64x1024.size a ≤ S8x256x1024.size a
  inb_S8x256x1024_S1x64x1024_2_64_0 : ∀ a, (![2, 64, 0] : Fin 3 → Nat) a + S1x64x1024.size a ≤ S8x256x1024.size a
  inb_S8x256x1024_S1x64x1024_3_64_0 : ∀ a, (![3, 64, 0] : Fin 3 → Nat) a + S1x64x1024.size a ≤ S8x256x1024.size a
  inb_S8x256x1024_S1x64x1024_4_64_0 : ∀ a, (![4, 64, 0] : Fin 3 → Nat) a + S1x64x1024.size a ≤ S8x256x1024.size a
  inb_S8x256x1024_S1x64x1024_5_64_0 : ∀ a, (![5, 64, 0] : Fin 3 → Nat) a + S1x64x1024.size a ≤ S8x256x1024.size a
  inb_S8x256x1024_S1x64x1024_6_64_0 : ∀ a, (![6, 64, 0] : Fin 3 → Nat) a + S1x64x1024.size a ≤ S8x256x1024.size a
  inb_S8x256x1024_S1x64x1024_7_64_0 : ∀ a, (![7, 64, 0] : Fin 3 → Nat) a + S1x64x1024.size a ≤ S8x256x1024.size a
  inb_S8x256x1024_S8x64x1024_0_128_0 : ∀ a, (![0, 128, 0] : Fin 3 → Nat) a + S8x64x1024.size a ≤ S8x256x1024.size a
  inb_S1x256_S1x64_0_128 : ∀ a, (![0, 128] : Fin 2 → Nat) a + S1x64.size a ≤ S1x256.size a
  inb_S8x256x1024_S1x64x1024_0_128_0 : ∀ a, (![0, 128, 0] : Fin 3 → Nat) a + S1x64x1024.size a ≤ S8x256x1024.size a
  inb_S8x256x1024_S1x64x1024_1_128_0 : ∀ a, (![1, 128, 0] : Fin 3 → Nat) a + S1x64x1024.size a ≤ S8x256x1024.size a
  inb_S8x256x1024_S1x64x1024_2_128_0 : ∀ a, (![2, 128, 0] : Fin 3 → Nat) a + S1x64x1024.size a ≤ S8x256x1024.size a
  inb_S8x256x1024_S1x64x1024_3_128_0 : ∀ a, (![3, 128, 0] : Fin 3 → Nat) a + S1x64x1024.size a ≤ S8x256x1024.size a
  inb_S8x256x1024_S1x64x1024_4_128_0 : ∀ a, (![4, 128, 0] : Fin 3 → Nat) a + S1x64x1024.size a ≤ S8x256x1024.size a
  inb_S8x256x1024_S1x64x1024_5_128_0 : ∀ a, (![5, 128, 0] : Fin 3 → Nat) a + S1x64x1024.size a ≤ S8x256x1024.size a
  inb_S8x256x1024_S1x64x1024_6_128_0 : ∀ a, (![6, 128, 0] : Fin 3 → Nat) a + S1x64x1024.size a ≤ S8x256x1024.size a
  inb_S8x256x1024_S1x64x1024_7_128_0 : ∀ a, (![7, 128, 0] : Fin 3 → Nat) a + S1x64x1024.size a ≤ S8x256x1024.size a
  inb_S8x256x1024_S8x64x1024_0_192_0 : ∀ a, (![0, 192, 0] : Fin 3 → Nat) a + S8x64x1024.size a ≤ S8x256x1024.size a
  inb_S1x256_S1x64_0_192 : ∀ a, (![0, 192] : Fin 2 → Nat) a + S1x64.size a ≤ S1x256.size a
  inb_S8x256x1024_S1x64x1024_0_192_0 : ∀ a, (![0, 192, 0] : Fin 3 → Nat) a + S1x64x1024.size a ≤ S8x256x1024.size a
  inb_S8x256x1024_S1x64x1024_1_192_0 : ∀ a, (![1, 192, 0] : Fin 3 → Nat) a + S1x64x1024.size a ≤ S8x256x1024.size a
  inb_S8x256x1024_S1x64x1024_2_192_0 : ∀ a, (![2, 192, 0] : Fin 3 → Nat) a + S1x64x1024.size a ≤ S8x256x1024.size a
  inb_S8x256x1024_S1x64x1024_3_192_0 : ∀ a, (![3, 192, 0] : Fin 3 → Nat) a + S1x64x1024.size a ≤ S8x256x1024.size a
  inb_S8x256x1024_S1x64x1024_4_192_0 : ∀ a, (![4, 192, 0] : Fin 3 → Nat) a + S1x64x1024.size a ≤ S8x256x1024.size a
  inb_S8x256x1024_S1x64x1024_5_192_0 : ∀ a, (![5, 192, 0] : Fin 3 → Nat) a + S1x64x1024.size a ≤ S8x256x1024.size a
  inb_S8x256x1024_S1x64x1024_6_192_0 : ∀ a, (![6, 192, 0] : Fin 3 → Nat) a + S1x64x1024.size a ≤ S8x256x1024.size a
  inb_S8x256x1024_S1x64x1024_7_192_0 : ∀ a, (![7, 192, 0] : Fin 3 → Nat) a + S1x64x1024.size a ≤ S8x256x1024.size a
  shapeCasts_S128x256x1024_S128x256x32x32 : S128x256x1024.ShapeCasts S128x256x32x32
  dot_S16x64x1024_S16x64x1024_S16x64x64_2_2_1_1_0_0_wf : DotDims.WF S16x64x1024 S16x64x1024 S16x64x64 [2] [2] [1] [1] [0] [0]
  dot_S4x64x64_S4x64x64_S4x64x64_2_1_1_2_0_0_wf : DotDims.WF S4x64x64 S4x64x64 S4x64x64 [2] [1] [1] [2] [0] [0]
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S128x256x1024.size a
  hwx0_0 : ∀ i : grid0.Coords, EltTy.bits .f32 = 32 ∨ (Rect.block (s := S128x256x1024) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S128x256x1024.size a
  hwx1_0 : ∀ i : grid1.Coords, EltTy.bits .f32 = 32 ∨ (Rect.block (s := S128x256x1024) S8x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64x64.size a ≤ S4x64x64.size a
  hwx1_2 : ∀ i : grid1.Coords, EltTy.bits .f32 = 32 ∨ (Rect.block (s := S4x64x64) S4x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256x1024.size a ≤ S128x256x1024.size a
  hwx1_5 : ∀ i : grid1.Coords, EltTy.bits .f32 = 32 ∨ (Rect.block (s := S128x256x1024) S8x256x1024.size (cc1_transform_5 i) (hinb1_5 i)).WholeWords (EltTy.packing .f32)

variable [Facts₀]

def dot_S16x64x1024_S16x64x1024_S16x64x64_2_2_1_1_0_0 : DotDims S16x64x1024 S16x64x1024 S16x64x64 where
  lhsContracting := [2]
  rhsContracting := [2]
  lhsNonContracting := [1]
  rhsNonContracting := [1]
  lhsBatch := [0]
  rhsBatch := [0]
  wf := dot_S16x64x1024_S16x64x1024_S16x64x64_2_2_1_1_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_v0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S4x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S8x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x256x32x32 : Shape := ⟨4, ![128, 256, 32, 32]⟩
abbrev S1x256x1x1 : Shape := ⟨4, ![1, 256, 1, 1]⟩
abbrev S256x128x32x32 : Shape := ⟨4, ![256, 128, 32, 32]⟩
abbrev S4x64x131072 : Shape := ⟨3, ![4, 64, 131072]⟩
abbrev S_ : Shape := ⟨0, ![]⟩
abbrev S4x64 : Shape := ⟨2, ![4, 64]⟩
abbrev S4x64x1 : Shape := ⟨3, ![4, 64, 1]⟩
abbrev S64x64 : Shape := ⟨2, ![64, 64]⟩
abbrev S4x64x64 : Shape := ⟨3, ![4, 64, 64]⟩
abbrev S1x64x64 : Shape := ⟨3, ![1, 64, 64]⟩
abbrev S4 : Shape := ⟨1, ![4]⟩
abbrev S4x1x1 : Shape := ⟨3, ![4, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S128x256x32x32, .f32⟩
  | .hbm, ⟨1, _⟩ => ⟨S1x256x1x1, .f32⟩
  | .hbm, ⟨2, _⟩ => ⟨S1x256x1x1, .f32⟩
  | .hbm, ⟨3, _⟩ => ⟨S256x128x32x32, .f32⟩
  | .hbm, ⟨4, _⟩ => ⟨S4x64x131072, .f32⟩
  | .hbm, ⟨5, _⟩ => ⟨S_, .f32⟩
  | .hbm, ⟨6, _⟩ => ⟨S4x64, .f32⟩
  | .hbm, ⟨7, _⟩ => ⟨S4x64x1, .f32⟩
  | .hbm, ⟨8, _⟩ => ⟨S_, .f32⟩
  | .hbm, ⟨9, _⟩ => ⟨S4x64x1, .f32⟩
  | .hbm, ⟨10, _⟩ => ⟨S4x64x1, .f32⟩
  | .hbm, ⟨11, _⟩ => ⟨S4x64x131072, .f32⟩
  | .hbm, ⟨12, _⟩ => ⟨S4x64x131072, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S4x64x64, .f32⟩
  | .hbm, ⟨24, _⟩ => ⟨S_, .f32⟩
  | .hbm, ⟨25, _⟩ => ⟨S4x64x64, .f32⟩
  | .hbm, ⟨26, _⟩ => ⟨S4x64x64, .f32⟩
  | .hbm, ⟨27, _⟩ => ⟨S1x64x64, .f32⟩
  | .hbm, ⟨28, _⟩ => ⟨S4x64x64, .f32⟩
  | .hbm, ⟨29, _⟩ => ⟨S4x64x64, .f32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S_, .f32⟩
  | .hbm, ⟨37, _⟩ => ⟨S4x64x64, .f32⟩
  | .hbm, ⟨38, _⟩ => ⟨S4x64x64, .i1⟩
  | .hbm, ⟨39, _⟩ => ⟨S4x64x64, .f32⟩
  | .hbm, ⟨40, _⟩ => ⟨S_, .f32⟩
  | .hbm, ⟨41, _⟩ => ⟨S4, .f32⟩
  | .hbm, ⟨42, _⟩ => ⟨S4x1x1, .f32⟩
  | .hbm, ⟨43, _⟩ => ⟨S_, .f32⟩
  | .hbm, ⟨44, _⟩ => ⟨S4x1x1, .f32⟩
  | .hbm, ⟨45, _⟩ => ⟨S4x1x1, .f32⟩
  | .hbm, ⟨46, _⟩ => ⟨S4x64x64, .f32⟩
  | .hbm, ⟨47, _⟩ => ⟨S4x64x64, .f32⟩
  | .hbm, ⟨48, _⟩ => ⟨S4x64x64, .f32⟩
  | .hbm, ⟨49, _⟩ => ⟨S4x64x64, .f32⟩
  | .hbm, ⟨50, _⟩ => ⟨S4x64x64, .f32⟩
  | .hbm, ⟨51, _⟩ => ⟨S_, .f32⟩
  | .hbm, ⟨52, _⟩ => ⟨S4x64x64, .f32⟩
  | .hbm, ⟨53, _⟩ => ⟨S4x64x64, .f32⟩
  | .hbm, ⟨54, _⟩ => ⟨S4x64x64, .f32⟩
  | .hbm, ⟨55, _⟩ => ⟨S_, .f32⟩
  | .hbm, ⟨56, _⟩ => ⟨S4x64x64, .f32⟩
  | .hbm, ⟨57, _⟩ => ⟨S4x64x64, .f32⟩
  | .hbm, ⟨58, _⟩ => ⟨S4x64x64, .f32⟩
  | .hbm, ⟨59, _⟩ => ⟨S4x64x64, .f32⟩
  | .hbm, ⟨60, _⟩ => ⟨S4x64x64, .f32⟩
  | .hbm, ⟨61, _⟩ => ⟨S_, .f32⟩
  | .hbm, ⟨62, _⟩ => ⟨S4x64x64, .f32⟩
  | .hbm, ⟨63, _⟩ => ⟨S4x64x64, .f32⟩
  | .hbm, ⟨64, _⟩ => ⟨S4x64x64, .f32⟩
  | .hbm, ⟨65, _⟩ => ⟨S_, .f32⟩
  | .hbm, ⟨66, _⟩ => ⟨S4x64x64, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S4x64x64, .f32⟩
  | .hbm, ⟨71, _⟩ => ⟨S_, .f32⟩
  | .hbm, ⟨72, _⟩ => ⟨S4x64x64, .f32⟩
  | .hbm, ⟨73, _⟩ => ⟨S4x64x64, .f32⟩
  | .hbm, ⟨74, _⟩ => ⟨S4x64x64, .f32⟩
  | .hbm, ⟨75, _⟩ => ⟨S_, .f32⟩
  | .hbm, ⟨76, _⟩ => ⟨S4x64x64, .f32⟩
  | .hbm, ⟨77, _⟩ => ⟨S4x64x64, .f32⟩
  | .hbm, ⟨78, _⟩ => ⟨S4x64x64, .f32⟩
  | .hbm, ⟨79, _⟩ => ⟨S4x64x64, .f32⟩
  | .hbm, ⟨80, _⟩ => ⟨S4x64x64, .f32⟩
  | .hbm, ⟨81, _⟩ => ⟨S_, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S_, .f32⟩
  | .hbm, ⟨86, _⟩ => ⟨S4x64x64, .f32⟩
  | .hbm, ⟨87, _⟩ => ⟨S4x64x64, .f32⟩
  | .hbm, ⟨88, _⟩ => ⟨S4x64x64, .f32⟩
  | .hbm, ⟨89, _⟩ => ⟨S4x64x64, .f32⟩
  | .hbm, ⟨90, _⟩ => ⟨S4x64x64, .f32⟩
  | .hbm, ⟨91, _⟩ => ⟨S_, .f32⟩
  | .hbm, ⟨92, _⟩ => ⟨S4x64x64, .f32⟩
  | .hbm, ⟨93, _⟩ => ⟨S4x64x64, .f32⟩
  | .hbm, ⟨94, _⟩ => ⟨S4x64x64, .f32⟩
  | .hbm, ⟨95, _⟩ => ⟨S_, .f32⟩
  | .hbm, ⟨96, _⟩ => ⟨S4x64x64, .f32⟩
  | .hbm, ⟨97, _⟩ => ⟨S4x64x64, .f32⟩
  | .hbm, ⟨98, _⟩ => ⟨S4x64x64, .f32⟩
  | .hbm, ⟨99, _⟩ => ⟨S4x1x1, .f32⟩
  | .hbm, ⟨100, _⟩ => ⟨S4x64x64, .f32⟩
  | .hbm, ⟨101, _⟩ => ⟨S4x64x64, .f32⟩
  | .hbm, ⟨102, _⟩ => ⟨S4x64x131072, .f32⟩
  | .hbm, ⟨103, _⟩ => ⟨S256x128x32x32, .f32⟩
  | .hbm, ⟨104, _⟩ => ⟨S128x256x32x32, .f32⟩
  | .hbm, ⟨105, _⟩ => ⟨S128x256x32x32, .f32⟩
  | .hbm, ⟨106, _⟩ => ⟨S128x256x32x32, .f32⟩
  | .hbm, ⟨107, _⟩ => ⟨S128x256x32x32, .f32⟩
  | .hbm, ⟨108, _⟩ => ⟨S128x256x32x32, .f32⟩
  | _, _ => ⟨S128x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_call0_v0 : Ref sig .tc := ⟨.hbm, 38, rfl⟩
abbrev main_call0_v6 : Ref sig .tc := ⟨.hbm, 39, rfl⟩
abbrev main_call0_cst_0 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  transposes_S128x256x32x32_S256x128x32x32_1_0_2_3 : S128x256x32x32.Transposes [1, 0, 2, 3] S256x128x32x32
  shapeCasts_S256x128x32x32_S4x64x131072 : S256x128x32x32.ShapeCasts S4x64x131072
  reducesTo_S4x64x131072_S4x64_d2 : S4x64x131072.ReducesTo [2] S4x64
  h_S_ : 0 < S_.numel
  bcast_S4x64_S4x64x1_0_1 : S4x64.BroadcastsInDim S4x64x1 (![0, 1] : Fin 2 → Fin S4x64x1.rank)
  bcast_S_S4x64x1 : S_.BroadcastsInDim S4x64x1 (![] : Fin 0 → Fin S4x64x1.rank)
  bcast_S4x64x1_S4x64x131072_0_1_2 : S4x64x1.BroadcastsInDim S4x64x131072 (![0, 1, 2] : Fin 3 → Fin S4x64x131072.rank)
  bcast_S_S64x64 : S_.BroadcastsInDim S64x64 (![] : Fin 0 → Fin S64x64.rank)
  bcast_S_S4x64x64 : S_.BroadcastsInDim S4x64x64 (![] : Fin 0 → Fin S4x64x64.rank)
  bcast_S64x64_S1x64x64_1_2 : S64x64.BroadcastsInDim S1x64x64 (![1, 2] : Fin 2 → Fin S1x64x64.rank)
  bcast_S1x64x64_S4x64x64_0_1_2 : S1x64x64.BroadcastsInDim S4x64x64 (![0, 1, 2] : Fin 3 → Fin S4x64x64.rank)
  bcast_S64x64_S4x64x64_1_2 : S64x64.BroadcastsInDim S4x64x64 (![1, 2] : Fin 2 → Fin S4x64x64.rank)
  reducesTo_S4x64x64_S4_d1_2 : S4x64x64.ReducesTo [1, 2] S4
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x64x64_0_1_2 : S4x1x1.BroadcastsInDim S4x64x64 (![0, 1, 2] : Fin 3 → Fin S4x64x64.rank)
  shapeCasts_S4x64x131072_S256x128x32x32 : S4x64x131072.ShapeCasts S256x128x32x32
  transposes_S256x128x32x32_S128x256x32x32_1_0_2_3 : S256x128x32x32.Transposes [1, 0, 2, 3] S128x256x32x32
  bcast_S1x256x1x1_S128x256x32x32_0_1_2_3 : S1x256x1x1.BroadcastsInDim S128x256x32x32 (![0, 1, 2, 3] : Fin 4 → Fin S128x256x32x32.rank)
  dot_S4x64x131072_S4x64x131072_S4x64x64_2_2_1_1_0_0_wf : DotDims.WF S4x64x131072 S4x64x131072 S4x64x64 [2] [2] [1] [1] [0] [0]
  dot_S4x64x64_S4x64x64_S4x64x64_2_1_1_2_0_0_wf : DotDims.WF S4x64x64 S4x64x64 S4x64x64 [2] [1] [1] [2] [0] [0]
  dot_S4x64x64_S4x64x131072_S4x64x131072_2_1_1_2_0_0_wf : DotDims.WF S4x64x64 S4x64x131072 S4x64x131072 [2] [1] [1] [2] [0] [0]

variable [Facts₀]

def dot_S4x64x131072_S4x64x131072_S4x64x64_2_2_1_1_0_0 : DotDims S4x64x131072 S4x64x131072 S4x64x64 where
  lhsContracting := [2]
  rhsContracting := [2]
  lhsNonContracting := [1]
  rhsNonContracting := [1]
  lhsBatch := [0]
  rhsBatch := [0]
  wf := dot_S4x64x131072_S4x64x131072_S4x64x64_2_2_1_1_0_0_wf
def dot_S4x64x64_S4x64x64_S4x64x64_2_1_1_2_0_0 : DotDims S4x64x64 S4x64x64 S4x64x64 where
  lhsContracting := [2]
  rhsContracting := [1]
  lhsNonContracting := [1]
  rhsNonContracting := [2]
  lhsBatch := [0]
  rhsBatch := [0]
  wf := dot_S4x64x64_S4x64x64_S4x64x64_2_1_1_2_0_0_wf
def dot_S4x64x64_S4x64x131072_S4x64x131072_2_1_1_2_0_0 : DotDims S4x64x64 S4x64x131072 S4x64x131072 where
  lhsContracting := [2]
  rhsContracting := [1]
  lhsNonContracting := [1]
  rhsNonContracting := [2]
  lhsBatch := [0]
  rhsBatch := [0]
  wf := dot_S4x64x64_S4x64x131072_S4x64x131072_2_1_1_2_0_0_wf

class Facts : Prop extends Facts₀ where

variable [Facts]
-- ==== Proof.KerRun.lean ====
/-
  The idealized kernel's whole run with its result named: from any memory with zero counters every weakly fair execution
  terminates, nothing faulting, the three argument arrays end as launched, and the result array ends at the contents the
  fold of the program's segments — host operations, the statistics region, host operations, the whitening region, one
  reshape — leaves in it.
-/
import proofs.«125822_j37185826849259_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result array and at the three arguments. -/
theorem run_named : θ_run defs (onTc (τ := τ) (main (F := F))) ⟨m, fun _ => 0, ρ⟩ (fun r => ∀ c : Dev nD,
      r.2.mem ((c.tc : Thread nD τ).loc main_v76) = W7 m ρ c (Proc.devRef .tc main_v76)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.Run

end
-- ==== Proof.RefRun.lean ====
/-
  The reference program as a straight line of host operations, cut where its mathematics turns: the centred activations,
  the identity matrix, the covariance, its trace, the normalised covariance and the start of the iteration, the five
  steps of the iteration, the whitening matrix, and the whitened, scaled and shifted output. Every weakly fair execution
  ends with each buffer at the fold of these operations over the launch contents.
-/
import proofs.«125822_j37185826849259_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of the line. -/
abbrev opsA : List (HloOp τ sig (Elt F)) :=
  [ unary main_arg0 main_v0 ((transpose S256x128x32x32 [1, 0, 2, 3] · transposes_S128x256x32x32_S256x128x32x32_1_0_2_3) : (⟨S128x256x32x32, .f32⟩ : BufTy).Contents (Elt F) → (⟨S256x128x32x32, .f32⟩ : BufTy).Contents (Elt F)),
    reshape main_v0 main_v1 rfl shapeCasts_S256x128x32x32_S4x64x131072,
    nullary main_cst (constant S_ .f32 0x00000000#32),
    binary main_v1 main_cst main_v2 ((fun x v => Host.reduceAdd x v reducesTo_S4x64x131072_S4x64_d2 h_S_) : (⟨S4x64x131072, .f32⟩ : BufTy).Contents (Elt F) → (⟨S_, .f32⟩ : BufTy).Contents (Elt F) → (⟨S4x64, .f32⟩ : BufTy).Contents (Elt F)),
    unary main_v2 main_v3 (broadcastInDim S4x64x1 ![0, 1] bcast_S4x64_S4x64x1_0_1 : (⟨S4x64, .f32⟩ : BufTy).Contents (Elt F) → (⟨S4x64x1, .f32⟩ : BufTy).Contents (Elt F)),
    nullary main_cst_0 (constant S_ .f32 0x48000000#32),
    unary main_cst_0 main_v4 (broadcastInDim S4x64x1 ![] bcast_S_S4x64x1 : (⟨S_, .f32⟩ : BufTy).Contents (Elt F) → (⟨S4x64x1, .f32⟩ : BufTy).Contents (Elt F)),
    binary main_v3 main_v4 main_v5 (Host.divf : (⟨S4x64x1, .f32⟩ : BufTy).Contents (Elt F) → (⟨S4x64x1, .f32⟩ : BufTy).Contents (Elt F) → (⟨S4x64x1, .f32⟩ : BufTy).Contents (Elt F)),
    unary main_v5 main_v6 (broadcastInDim S4x64x131072 ![0, 1, 2] bcast_S4x64x1_S4x64x131072_0_1_2 : (⟨S4x64x1, .f32⟩ : BufTy).Contents (Elt F) → (⟨S4x64x131072, .f32⟩ : BufTy).Contents (Elt F)),
    binary main_v1 main_v6 main_v7 (subf : (⟨S4x64x131072, .f32⟩ : BufTy).Contents (Elt F) → (⟨S4x64x131072, .f32⟩ : BufTy).Contents (Elt F) → (⟨S4x64x131072, .f32⟩ : BufTy).Contents (Elt F)) ]

/-- Operations 11 … 17 of the line. -/
abbrev opsB : List (HloOp τ sig (Elt F)) :=
  [ nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)) ]

/-- Operations 18 … 27 of the line. -/
abbrev opsC : List (HloOp τ sig (Elt F)) :=
  [ nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    binary main_v7 main_v7 main_v16 ((fun l r => Host.dotGeneral dot_S4x64x131072_S4x64x131072_S4x64x64_2_2_1_1_0_0 none l r) : (⟨S4x64x131072, .f32⟩ : BufTy).Contents (Elt F) → (⟨S4x64x131072, .f32⟩ : BufTy).Contents (Elt F) → (⟨S4x64x64, .f32⟩ : BufTy).Contents (Elt F)),
    nullary main_cst_2 (constant S_ .f32 0x48000000#32),
    unary main_cst_2 main_v17 (broadcastInDim S4x64x64 ![] bcast_S_S4x64x64 : (⟨S_, .f32⟩ : BufTy).Contents (Elt F) → (⟨S4x64x64, .f32⟩ : BufTy).Contents (Elt F)),
    binary main_v16 main_v17 main_v18 (Host.divf : (⟨S4x64x64, .f32⟩ : BufTy).Contents (Elt F) → (⟨S4x64x64, .f32⟩ : BufTy).Contents (Elt F) → (⟨S4x64x64, .f32⟩ : BufTy).Contents (Elt F)),
    unary main_v15 main_v19 (broadcastInDim S1x64x64 ![1, 2] bcast_S64x64_S1x64x64_1_2 : (⟨S64x64, .f32⟩ : BufTy).Contents (Elt F) → (⟨S1x64x64, .f32⟩ : BufTy).Contents (Elt F)),
    unary main_v19 main_v20 (broadcastInDim S4x64x64 ![0, 1, 2] bcast_S1x64x64_S4x64x64_0_1_2 : (⟨S1x64x64, .f32⟩ : BufTy).Contents (Elt F) → (⟨S4x64x64, .f32⟩ : BufTy).Contents (Elt F)),
    binary main_v20 main_v18 main_v21 (addf : (⟨S4x64x64, .f32⟩ : BufTy).Contents (Elt F) → (⟨S4x64x64, .f32⟩ : BufTy).Contents (Elt F) → (⟨S4x64x64, .f32⟩ : BufTy).Contents (Elt F)) ]

/-- Operations 28 … 39 of the line. -/
abbrev opsD : List (HloOp τ sig (Elt F)) :=
  [ TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x64x64 ![] bcast_S_S4x64x64),
    TRef.unary main_call0.v4 main_call0.call0.v0 (broadcastInDim S4x64x64 ![1, 2] bcast_S64x64_S4x64x64_1_2),
    TRef.ternary main_call0.call0.v0 (.of main_v21) main_call0.v5 main_call0.call0.v1 select,
    TRef.nullary main_call0.cst_0 (constant S_ .f32 0x00000000#32),
    TRef.binary main_call0.call0.v1 main_call0.cst_0 main_call0.v7 (fun x v => Host.reduceAdd x v reducesTo_S4x64x64_S4_d1_2 h_S_) ]

/-- Operations 40 … 46 of the line. -/
abbrev opsE : List (HloOp τ sig (Elt F)) :=
  [ unary main_v22 main_v23 (broadcastInDim S4x1x1 ![0] bcast_S4_S4x1x1_0 : (⟨S4, .f32⟩ : BufTy).Contents (Elt F) → (⟨S4x1x1, .f32⟩ : BufTy).Contents (Elt F)),
    nullary main_cst_3 (constant S_ .f32 0x3F800000#32),
    unary main_cst_3 main_v24 (broadcastInDim S4x1x1 ![] bcast_S_S4x1x1 : (⟨S_, .f32⟩ : BufTy).Contents (Elt F) → (⟨S4x1x1, .f32⟩ : BufTy).Contents (Elt F)),
    binary main_v24 main_v23 main_v25 (Host.divf : (⟨S4x1x1, .f32⟩ : BufTy).Contents (Elt F) → (⟨S4x1x1, .f32⟩ : BufTy).Contents (Elt F) → (⟨S4x1x1, .f32⟩ : BufTy).Contents (Elt F)),
    unary main_v25 main_v26 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v21 main_v26 main_v27 (mulf : (⟨S4x64x64, .f32⟩ : BufTy).Contents (Elt F) → (⟨S4x64x64, .f32⟩ : BufTy).Contents (Elt F) → (⟨S4x64x64, .f32⟩ : BufTy).Contents (Elt F)),
    unary main_v13 main_v28 (broadcastInDim S4x64x64 ![1, 2] bcast_S64x64_S4x64x64_1_2 : (⟨S64x64, .f32⟩ : BufTy).Contents (Elt F) → (⟨S4x64x64, .f32⟩ : BufTy).Contents (Elt F)) ]

/-- Operations 47 … 56 of the line. -/
abbrev opsN1 : List (HloOp τ sig (Elt F)) :=
  [ binary main_v28 main_v28 main_v29 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v29 main_v28 main_v30 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_4 (constant S_ .f32 0x3FC00000#32),
    unary main_cst_4 main_v31 (broadcastInDim S4x64x64 ![] bcast_S_S4x64x64 : (⟨S_, .f32⟩ : BufTy).Contents (Elt F) → (⟨S4x64x64, .f32⟩ : BufTy).Contents (Elt F)),
    binary main_v31 main_v28 main_v32 (mulf : (⟨S4x64x64, .f32⟩ : BufTy).Contents (Elt F) → (⟨S4x64x64, .f32⟩ : BufTy).Contents (Elt F) → (⟨S4x64x64, .f32⟩ : BufTy).Contents (Elt F)),
    binary main_v30 main_v27 main_v33 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_5 (constant S_ .f32 0x3F000000#32),
    unary main_cst_5 main_v34 (broadcastInDim S4x64x64 ![] bcast_S_S4x64x64 : (⟨S_, .f32⟩ : BufTy).Contents (Elt F) → (⟨S4x64x64, .f32⟩ : BufTy).Contents (Elt F)),
    binary main_v34 main_v33 main_v35 (mulf : (⟨S4x64x64, .f32⟩ : BufTy).Contents (Elt F) → (⟨S4x64x64, .f32⟩ : BufTy).Contents (Elt F) → (⟨S4x64x64, .f32⟩ : BufTy).Contents (Elt F)),
    binary main_v32 main_v35 main_v36 (subf : (⟨S4x64x64, .f32⟩ : BufTy).Contents (Elt F) → (⟨S4x64x64, .f32⟩ : BufTy).Contents (Elt F) → (⟨S4x64x64, .f32⟩ : BufTy).Contents (Elt F)) ]

/-- Operations 57 … 66 of the line. -/
abbrev opsN2 : List (HloOp τ sig (Elt F)) :=
  [ binary main_v36 main_v36 main_v37 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v37 main_v36 main_v38 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_6 (constant S_ .f32 0x3FC00000#32),
    unary main_cst_6 main_v39 (broadcastInDim S4x64x64 ![] bcast_S_S4x64x64 : (⟨S_, .f32⟩ : BufTy).Contents (Elt F) → (⟨S4x64x64, .f32⟩ : BufTy).Contents (Elt F)),
    binary main_v39 main_v36 main_v40 (mulf : (⟨S4x64x64, .f32⟩ : BufTy).Contents (Elt F) → (⟨S4x64x64, .f32⟩ : BufTy).Contents (Elt F) → (⟨S4x64x64, .f32⟩ : BufTy).Contents (Elt F)),
    binary main_v38 main_v27 main_v41 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_7 (constant S_ .f32 0x3F000000#32),
    unary main_cst_7 main_v42 (broadcastInDim S4x64x64 ![] bcast_S_S4x64x64 : (⟨S_, .f32⟩ : BufTy).Contents (Elt F) → (⟨S4x64x64, .f32⟩ : BufTy).Contents (Elt F)),
    binary main_v42 main_v41 main_v43 (mulf : (⟨S4x64x64, .f32⟩ : BufTy).Contents (Elt F) → (⟨S4x64x64, .f32⟩ : BufTy).Contents (Elt F) → (⟨S4x64x64, .f32⟩ : BufTy).Contents (Elt F)),
    binary main_v40 main_v43 main_v44 (subf : (⟨S4x64x64, .f32⟩ : BufTy).Contents (Elt F) → (⟨S4x64x64, .f32⟩ : BufTy).Contents (Elt F) → (⟨S4x64x64, .f32⟩ : BufTy).Contents (Elt F)) ]

/-- Operations 67 … 76 of the line. -/
abbrev opsN3 : List (HloOp τ sig (Elt F)) :=
  [ binary main_v44 main_v44 main_v45 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v45 main_v44 main_v46 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_8 (constant S_ .f32 0x3FC00000#32),
    unary main_cst_8 main_v47 (broadcastInDim S4x64x64 ![] bcast_S_S4x64x64 : (⟨S_, .f32⟩ : BufTy).Contents (Elt F) → (⟨S4x64x64, .f32⟩ : BufTy).Contents (Elt F)),
    binary main_v47 main_v44 main_v48 (mulf : (⟨S4x64x64, .f32⟩ : BufTy).Contents (Elt F) → (⟨S4x64x64, .f32⟩ : BufTy).Contents (Elt F) → (⟨S4x64x64, .f32⟩ : BufTy).Contents (Elt F)),
    binary main_v46 main_v27 main_v49 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_9 (constant S_ .f32 0x3F000000#32),
    unary main_cst_9 main_v50 (broadcastInDim S4x64x64 ![] bcast_S_S4x64x64 : (⟨S_, .f32⟩ : BufTy).Contents (Elt F) → (⟨S4x64x64, .f32⟩ : BufTy).Contents (Elt F)),
    binary main_v50 main_v49 main_v51 (mulf : (⟨S4x64x64, .f32⟩ : BufTy).Contents (Elt F) → (⟨S4x64x64, .f32⟩ : BufTy).Contents (Elt F) → (⟨S4x64x64, .f32⟩ : BufTy).Contents (Elt F)),
    binary main_v48 main_v51 main_v52 (subf : (⟨S4x64x64, .f32⟩ : BufTy).Contents (Elt F) → (⟨S4x64x64, .f32⟩ : BufTy).Contents (Elt F) → (⟨S4x64x64, .f32⟩ : BufTy).Contents (Elt F)) ]

/-- Operations 77 … 86 of the line. -/
abbrev opsN4 : List (HloOp τ sig (Elt F)) :=
  [ binary main_v52 main_v52 main_v53 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v53 main_v52 main_v54 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_10 (constant S_ .f32 0x3FC00000#32),
    unary main_cst_10 main_v55 (broadcastInDim S4x64x64 ![] bcast_S_S4x64x64 : (⟨S_, .f32⟩ : BufTy).Contents (Elt F) → (⟨S4x64x64, .f32⟩ : BufTy).Contents (Elt F)),
    binary main_v55 main_v52 main_v56 (mulf : (⟨S4x64x64, .f32⟩ : BufTy).Contents (Elt F) → (⟨S4x64x64, .f32⟩ : BufTy).Contents (Elt F) → (⟨S4x64x64, .f32⟩ : BufTy).Contents (Elt F)),
    binary main_v54 main_v27 main_v57 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_11 (constant S_ .f32 0x3F000000#32),
    unary main_cst_11 main_v58 (broadcastInDim S4x64x64 ![] bcast_S_S4x64x64 : (⟨S_, .f32⟩ : BufTy).Contents (Elt F) → (⟨S4x64x64, .f32⟩ : BufTy).Contents (Elt F)),
    binary main_v58 main_v57 main_v59 (mulf : (⟨S4x64x64, .f32⟩ : BufTy).Contents (Elt F) → (⟨S4x64x64, .f32⟩ : BufTy).Contents (Elt F) → (⟨S4x64x64, .f32⟩ : BufTy).Contents (Elt F)),
    binary main_v56 main_v59 main_v60 (subf : (⟨S4x64x64, .f32⟩ : BufTy).Contents (Elt F) → (⟨S4x64x64, .f32⟩ : BufTy).Contents (Elt F) → (⟨S4x64x64, .f32⟩ : BufTy).Contents (Elt F)) ]

/-- Operations 87 … 96 of the line. -/
abbrev opsN5 : List (HloOp τ sig (Elt F)) :=
  [ binary main_v60 main_v60 main_v61 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v61 main_v60 main_v62 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_12 (constant S_ .f32 0x3FC00000#32),
    unary main_cst_12 main_v63 (broadcastInDim S4x64x64 ![] bcast_S_S4x64x64 : (⟨S_, .f32⟩ : BufTy).Contents (Elt F) → (⟨S4x64x64, .f32⟩ : BufTy).Contents (Elt F)),
    binary main_v63 main_v60 main_v64 (mulf : (⟨S4x64x64, .f32⟩ : BufTy).Contents (Elt F) → (⟨S4x64x64, .f32⟩ : BufTy).Contents (Elt F) → (⟨S4x64x64, .f32⟩ : BufTy).Contents (Elt F)),
    binary main_v62 main_v27 main_v65 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_13 (constant S_ .f32 0x3F000000#32),
    unary main_cst_13 main_v66 (broadcastInDim S4x64x64 ![] bcast_S_S4x64x64 : (⟨S_, .f32⟩ : BufTy).Contents (Elt F) → (⟨S4x64x64, .f32⟩ : BufTy).Contents (Elt F)),
    binary main_v66 main_v65 main_v67 (mulf : (⟨S4x64x64, .f32⟩ : BufTy).Contents (Elt F) → (⟨S4x64x64, .f32⟩ : BufTy).Contents (Elt F) → (⟨S4x64x64, .f32⟩ : BufTy).Contents (Elt F)),
    binary main_v64 main_v67 main_v68 (subf : (⟨S4x64x64, .f32⟩ : BufTy).Contents (Elt F) → (⟨S4x64x64, .f32⟩ : BufTy).Contents (Elt F) → (⟨S4x64x64, .f32⟩ : BufTy).Contents (Elt F)) ]

/-- Operations 97 … 99 of the line. -/
abbrev opsG : List (HloOp τ sig (Elt F)) :=
  [ unary main_v25 main_v69 (Host.sqrt : (⟨S4x1x1, .f32⟩ : BufTy).Contents (Elt F) → (⟨S4x1x1, .f32⟩ : BufTy).Contents (Elt F)),
    unary main_v69 main_v70 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v68 main_v70 main_v71 (mulf : (⟨S4x64x64, .f32⟩ : BufTy).Contents (Elt F) → (⟨S4x64x64, .f32⟩ : BufTy).Contents (Elt F) → (⟨S4x64x64, .f32⟩ : BufTy).Contents (Elt F)) ]

/-- Operations 100 … 106 of the line. -/
abbrev opsH : List (HloOp τ sig (Elt F)) :=
  [ binary main_v71 main_v7 main_v72 ((fun l r => Host.dotGeneral dot_S4x64x64_S4x64x131072_S4x64x131072_2_1_1_2_0_0 none l r) : (⟨S4x64x64, .f32⟩ : BufTy).Contents (Elt F) → (⟨S4x64x131072, .f32⟩ : BufTy).Contents (Elt F) → (⟨S4x64x131072, .f32⟩ : BufTy).Contents (Elt F)),
    reshape main_v72 main_v73 rfl shapeCasts_S4x64x131072_S256x128x32x32,
    unary main_v73 main_v74 ((transpose S128x256x32x32 [1, 0, 2, 3] · transposes_S256x128x32x32_S128x256x32x32_1_0_2_3) : (⟨S256x128x32x32, .f32⟩ : BufTy).Contents (Elt F) → (⟨S128x256x32x32, .f32⟩ : BufTy).Contents (Elt F)),
    unary main_arg1 main_v75 (broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)),
    binary main_v74 main_v75 main_v76 (mulf : (⟨S128x256x32x32, .f32⟩ : BufTy).Contents (Elt F) → (⟨S128x256x32x32, .f32⟩ : BufTy).Contents (Elt F) → (⟨S128x256x32x32, .f32⟩ : BufTy).Contents (Elt F)),
    unary main_arg2 main_v77 (broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)),
    binary main_v76 main_v77 main_v78 (addf : (⟨S128x256x32x32, .f32⟩ : BufTy).Contents (Elt F) → (⟨S128x256x32x32, .f32⟩ : BufTy).Contents (Elt F) → (⟨S128x256x32x32, .f32⟩ : BufTy).Contents (Elt F)) ]

/-- The whole line, in order. -/
abbrev ops : List (HloOp τ sig (Elt F)) :=
  [ unary main_arg0 main_v0 ((transpose S256x128x32x32 [1, 0, 2, 3] · transposes_S128x256x32x32_S256x128x32x32_1_0_2_3) : (⟨S128x256x32x32, .f32⟩ : BufTy).Contents (Elt F) → (⟨S256x128x32x32, .f32⟩ : BufTy).Contents (Elt F)),
    reshape main_v0 main_v1 rfl shapeCasts_S256x128x32x32_S4x64x131072,
    nullary main_cst (constant S_ .f32 0x00000000#32),
    binary main_v1 main_cst main_v2 ((fun x v => Host.reduceAdd x v reducesTo_S4x64x131072_S4x64_d2 h_S_) : (⟨S4x64x131072, .f32⟩ : BufTy).Contents (Elt F) → (⟨S_, .f32⟩ : BufTy).Contents (Elt F) → (⟨S4x64, .f32⟩ : BufTy).Contents (Elt F)),
    unary main_v2 main_v3 (broadcastInDim S4x64x1 ![0, 1] bcast_S4x64_S4x64x1_0_1 : (⟨S4x64, .f32⟩ : BufTy).Contents (Elt F) → (⟨S4x64x1, .f32⟩ : BufTy).Contents (Elt F)),
    nullary main_cst_0 (constant S_ .f32 0x48000000#32),
    unary main_cst_0 main_v4 (broadcastInDim S4x64x1 ![] bcast_S_S4x64x1 : (⟨S_, .f32⟩ : BufTy).Contents (Elt F) → (⟨S4x64x1, .f32⟩ : BufTy).Contents (Elt F)),
    binary main_v3 main_v4 main_v5 (Host.divf : (⟨S4x64x1, .f32⟩ : BufTy).Contents (Elt F) → (⟨S4x64x1, .f32⟩ : BufTy).Contents (Elt F) → (⟨S4x64x1, .f32⟩ : BufTy).Contents (Elt F)),
    unary main_v5 main_v6 (broadcastInDim S4x64x131072 ![0, 1, 2] bcast_S4x64x1_S4x64x131072_0_1_2 : (⟨S4x64x1, .f32⟩ : BufTy).Contents (Elt F) → (⟨S4x64x131072, .f32⟩ : BufTy).Contents (Elt F)),
    binary main_v1 main_v6 main_v7 (subf : (⟨S4x64x131072, .f32⟩ : BufTy).Contents (Elt F) → (⟨S4x64x131072, .f32⟩ : BufTy).Contents (Elt F) → (⟨S4x64x131072, .f32⟩ : BufTy).Contents (Elt F)),
    nullary main_v8 (iotaInDim S64x64 32 0),
    nullary main_v9 (iotaInDim S64x64 32 1),
    nullary main_c (constantI S_ 32 0#32),
    unary main_c main_v10 (broadcastInDim S64x64 ![] bcast_S_S64x64 : (⟨S_, .i32⟩ : BufTy).Contents (Elt F) → (⟨S64x64, .i32⟩ : BufTy).Contents (Elt F)),
    binary main_v8 main_v10 main_v11 (addi : (⟨S64x64, .i32⟩ : BufTy).Contents (Elt F) → (⟨S64x64, .i32⟩ : BufTy).Contents (Elt F) → (⟨S64x64, .i32⟩ : BufTy).Contents (Elt F)),
    binary main_v11 main_v9 main_v12 (cmpi .eq : (⟨S64x64, .i32⟩ : BufTy).Contents (Elt F) → (⟨S64x64, .i32⟩ : BufTy).Contents (Elt F) → (⟨S64x64, .i1⟩ : BufTy).Contents (Elt F)),
    unary main_v12 main_v13 (uitofp .f32 : (⟨S64x64, .i1⟩ : BufTy).Contents (Elt F) → (⟨S64x64, .f32⟩ : BufTy).Contents (Elt F)),
    nullary main_cst_1 (constant S_ .f32 0x3727C5AC#32),
    unary main_cst_1 main_v14 (broadcastInDim S64x64 ![] bcast_S_S64x64 : (⟨S_, .f32⟩ : BufTy).Contents (Elt F) → (⟨S64x64, .f32⟩ : BufTy).Contents (Elt F)),
    binary main_v14 main_v13 main_v15 (mulf : (⟨S64x64, .f32⟩ : BufTy).Contents (Elt F) → (⟨S64x64, .f32⟩ : BufTy).Contents (Elt F) → (⟨S64x64, .f32⟩ : BufTy).Contents (Elt F)),
    binary main_v7 main_v7 main_v16 ((fun l r => Host.dotGeneral dot_S4x64x131072_S4x64x131072_S4x64x64_2_2_1_1_0_0 none l r) : (⟨S4x64x131072, .f32⟩ : BufTy).Contents (Elt F) → (⟨S4x64x131072, .f32⟩ : BufTy).Contents (Elt F) → (⟨S4x64x64, .f32⟩ : BufTy).Contents (Elt F)),
    nullary main_cst_2 (constant S_ .f32 0x48000000#32),
    unary main_cst_2 main_v17 (broadcastInDim S4x64x64 ![] bcast_S_S4x64x64 : (⟨S_, .f32⟩ : BufTy).Contents (Elt F) → (⟨S4x64x64, .f32⟩ : BufTy).Contents (Elt F)),
    binary main_v16 main_v17 main_v18 (Host.divf : (⟨S4x64x64, .f32⟩ : BufTy).Contents (Elt F) → (⟨S4x64x64, .f32⟩ : BufTy).Contents (Elt F) → (⟨S4x64x64, .f32⟩ : BufTy).Contents (Elt F)),
    unary main_v15 main_v19 (broadcastInDim S1x64x64 ![1, 2] bcast_S64x64_S1x64x64_1_2 : (⟨S64x64, .f32⟩ : BufTy).Contents (Elt F) → (⟨S1x64x64, .f32⟩ : BufTy).Contents (Elt F)),
    unary main_v19 main_v20 (broadcastInDim S4x64x64 ![0, 1, 2] bcast_S1x64x64_S4x64x64_0_1_2 : (⟨S1x64x64, .f32⟩ : BufTy).Contents (Elt F) → (⟨S4x64x64, .f32⟩ : BufTy).Contents (Elt F)),
    binary main_v20 main_v18 main_v21 (addf : (⟨S4x64x64, .f32⟩ : BufTy).Contents (Elt F) → (⟨S4x64x64, .f32⟩ : BufTy).Contents (Elt F) → (⟨S4x64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S4x64x64 ![] bcast_S_S4x64x64),
    TRef.unary main_call0.v4 main_call0.call0.v0 (broadcastInDim S4x64x64 ![1, 2] bcast_S64x64_S4x64x64_1_2),
    TRef.ternary main_call0.call0.v0 (.of main_v21) main_call0.v5 main_call0.call0.v1 select,
    TRef.nullary main_call0.cst_0 (constant S_ .f32 0x00000000#32),
    TRef.binary main_call0.call0.v1 main_call0.cst_0 main_call0.v7 (fun x v => Host.reduceAdd x v reducesTo_S4x64x64_S4_d1_2 h_S_),
    unary main_v22 main_v23 (broadcastInDim S4x1x1 ![0] bcast_S4_S4x1x1_0 : (⟨S4, .f32⟩ : BufTy).Contents (Elt F) → (⟨S4x1x1, .f32⟩ : BufTy).Contents (Elt F)),
    nullary main_cst_3 (constant S_ .f32 0x3F800000#32),
    unary main_cst_3 main_v24 (broadcastInDim S4x1x1 ![] bcast_S_S4x1x1 : (⟨S_, .f32⟩ : BufTy).Contents (Elt F) → (⟨S4x1x1, .f32⟩ : BufTy).Contents (Elt F)),
    binary main_v24 main_v23 main_v25 (Host.divf : (⟨S4x1x1, .f32⟩ : BufTy).Contents (Elt F) → (⟨S4x1x1, .f32⟩ : BufTy).Contents (Elt F) → (⟨S4x1x1, .f32⟩ : BufTy).Contents (Elt F)),
    unary main_v25 main_v26 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v21 main_v26 main_v27 (mulf : (⟨S4x64x64, .f32⟩ : BufTy).Contents (Elt F) → (⟨S4x64x64, .f32⟩ : BufTy).Contents (Elt F) → (⟨S4x64x64, .f32⟩ : BufTy).Contents (Elt F)),
    unary main_v13 main_v28 (broadcastInDim S4x64x64 ![1, 2] bcast_S64x64_S4x64x64_1_2 : (⟨S64x64, .f32⟩ : BufTy).Contents (Elt F) → (⟨S4x64x64, .f32⟩ : BufTy).Contents (Elt F)),
    binary main_v28 main_v28 main_v29 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v29 main_v28 main_v30 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_4 (constant S_ .f32 0x3FC00000#32),
    unary main_cst_4 main_v31 (broadcastInDim S4x64x64 ![] bcast_S_S4x64x64 : (⟨S_, .f32⟩ : BufTy).Contents (Elt F) → (⟨S4x64x64, .f32⟩ : BufTy).Contents (Elt F)),
    binary main_v31 main_v28 main_v32 (mulf : (⟨S4x64x64, .f32⟩ : BufTy).Contents (Elt F) → (⟨S4x64x64, .f32⟩ : BufTy).Contents (Elt F) → (⟨S4x64x64, .f32⟩ : BufTy).Contents (Elt F)),
    binary main_v30 main_v27 main_v33 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_5 (constant S_ .f32 0x3F000000#32),
    unary main_cst_5 main_v34 (broadcastInDim S4x64x64 ![] bcast_S_S4x64x64 : (⟨S_, .f32⟩ : BufTy).Contents (Elt F) → (⟨S4x64x64, .f32⟩ : BufTy).Contents (Elt F)),
    binary main_v34 main_v33 main_v35 (mulf : (⟨S4x64x64, .f32⟩ : BufTy).Contents (Elt F) → (⟨S4x64x64, .f32⟩ : BufTy).Contents (Elt F) → (⟨S4x64x64, .f32⟩ : BufTy).Contents (Elt F)),
    binary main_v32 main_v35 main_v36 (subf : (⟨S4x64x64, .f32⟩ : BufTy).Contents (Elt F) → (⟨S4x64x64, .f32⟩ : BufTy).Contents (Elt F) → (⟨S4x64x64, .f32⟩ : BufTy).Contents (Elt F)),
    binary main_v36 main_v36 main_v37 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v37 main_v36 main_v38 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_6 (constant S_ .f32 0x3FC00000#32),
    unary main_cst_6 main_v39 (broadcastInDim S4x64x64 ![] bcast_S_S4x64x64 : (⟨S_, .f32⟩ : BufTy).Contents (Elt F) → (⟨S4x64x64, .f32⟩ : BufTy).Contents (Elt F)),
    binary main_v39 main_v36 main_v40 (mulf : (⟨S4x64x64, .f32⟩ : BufTy).Contents (Elt F) → (⟨S4x64x64, .f32⟩ : BufTy).Contents (Elt F) → (⟨S4x64x64, .f32⟩ : BufTy).Contents (Elt F)),
    binary main_v38 main_v27 main_v41 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_7 (constant S_ .f32 0x3F000000#32),
    unary main_cst_7 main_v42 (broadcastInDim S4x64x64 ![] bcast_S_S4x64x64 : (⟨S_, .f32⟩ : BufTy).Contents (Elt F) → (⟨S4x64x64, .f32⟩ : BufTy).Contents (Elt F)),
    binary main_v42 main_v41 main_v43 (mulf : (⟨S4x64x64, .f32⟩ : BufTy).Contents (Elt F) → (⟨S4x64x64, .f32⟩ : BufTy).Contents (Elt F) → (⟨S4x64x64, .f32⟩ : BufTy).Contents (Elt F)),
    binary main_v40 main_v43 main_v44 (subf : (⟨S4x64x64, .f32⟩ : BufTy).Contents (Elt F) → (⟨S4x64x64, .f32⟩ : BufTy).Contents (Elt F) → (⟨S4x64x64, .f32⟩ : BufTy).Contents (Elt F)),
    binary main_v44 main_v44 main_v45 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v45 main_v44 main_v46 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_8 (constant S_ .f32 0x3FC00000#32),
    unary main_cst_8 main_v47 (broadcastInDim S4x64x64 ![] bcast_S_S4x64x64 : (⟨S_, .f32⟩ : BufTy).Contents (Elt F) → (⟨S4x64x64, .f32⟩ : BufTy).Contents (Elt F)),
    binary main_v47 main_v44 main_v48 (mulf : (⟨S4x64x64, .f32⟩ : BufTy).Contents (Elt F) → (⟨S4x64x64, .f32⟩ : BufTy).Contents (Elt F) → (⟨S4x64x64, .f32⟩ : BufTy).Contents (Elt F)),
    binary main_v46 main_v27 main_v49 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_9 (constant S_ .f32 0x3F000000#32),
    unary main_cst_9 main_v50 (broadcastInDim S4x64x64 ![] bcast_S_S4x64x64 : (⟨S_, .f32⟩ : BufTy).Contents (Elt F) → (⟨S4x64x64, .f32⟩ : BufTy).Contents (Elt F)),
    binary main_v50 main_v49 main_v51 (mulf : (⟨S4x64x64, .f32⟩ : BufTy).Contents (Elt F) → (⟨S4x64x64, .f32⟩ : BufTy).Contents (Elt F) → (⟨S4x64x64, .f32⟩ : BufTy).Contents (Elt F)),
    binary main_v48 main_v51 main_v52 (subf : (⟨S4x64x64, .f32⟩ : BufTy).Contents (Elt F) → (⟨S4x64x64, .f32⟩ : BufTy).Contents (Elt F) → (⟨S4x64x64, .f32⟩ : BufTy).Contents (Elt F)),
    binary main_v52 main_v52 main_v53 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v53 main_v52 main_v54 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_10 (constant S_ .f32 0x3FC00000#32),
    unary main_cst_10 main_v55 (broadcastInDim S4x64x64 ![] bcast_S_S4x64x64 : (⟨S_, .f32⟩ : BufTy).Contents (Elt F) → (⟨S4x64x64, .f32⟩ : BufTy).Contents (Elt F)),
    binary main_v55 main_v52 main_v56 (mulf : (⟨S4x64x64, .f32⟩ : BufTy).Contents (Elt F) → (⟨S4x64x64, .f32⟩ : BufTy).Contents (Elt F) → (⟨S4x64x64, .f32⟩ : BufTy).Contents (Elt F)),
    binary main_v54 main_v27 main_v57 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_11 (constant S_ .f32 0x3F000000#32),
    unary main_cst_11 main_v58 (broadcastInDim S4x64x64 ![] bcast_S_S4x64x64 : (⟨S_, .f32⟩ : BufTy).Contents (Elt F) → (⟨S4x64x64, .f32⟩ : BufTy).Contents (Elt F)),
    binary main_v58 main_v57 main_v59 (mulf : (⟨S4x64x64, .f32⟩ : BufTy).Contents (Elt F) → (⟨S4x64x64, .f32⟩ : BufTy).Contents (Elt F) → (⟨S4x64x64, .f32⟩ : BufTy).Contents (Elt F)),
    binary main_v56 main_v59 main_v60 (subf : (⟨S4x64x64, .f32⟩ : BufTy).Contents (Elt F) → (⟨S4x64x64, .f32⟩ : BufTy).Contents (Elt F) → (⟨S4x64x64, .f32⟩ : BufTy).Contents (Elt F)),
    binary main_v60 main_v60 main_v61 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    binary main_v61 main_v60 main_v62 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_12 (constant S_ .f32 0x3FC00000#32),
    unary main_cst_12 main_v63 (broadcastInDim S4x64x64 ![] bcast_S_S4x64x64 : (⟨S_, .f32⟩ : BufTy).Contents (Elt F) → (⟨S4x64x64, .f32⟩ : BufTy).Contents (Elt F)),
    binary main_v63 main_v60 main_v64 (mulf : (⟨S4x64x64, .f32⟩ : BufTy).Contents (Elt F) → (⟨S4x64x64, .f32⟩ : BufTy).Contents (Elt F) → (⟨S4x64x64, .f32⟩ : BufTy).Contents (Elt F)),
    binary main_v62 main_v27 main_v65 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    nullary main_cst_13 (constant S_ .f32 0x3F000000#32),
    unary main_cst_13 main_v66 (broadcastInDim S4x64x64 ![] bcast_S_S4x64x64 : (⟨S_, .f32⟩ : BufTy).Contents (Elt F) → (⟨S4x64x64, .f32⟩ : BufTy).Contents (Elt F)),
    binary main_v66 main_v65 main_v67 (mulf : (⟨S4x64x64, .f32⟩ : BufTy).Contents (Elt F) → (⟨S4x64x64, .f32⟩ : BufTy).Contents (Elt F) → (⟨S4x64x64, .f32⟩ : BufTy).Contents (Elt F)),
    binary main_v64 main_v67 main_v68 (subf : (⟨S4x64x64, .f32⟩ : BufTy).Contents (Elt F) → (⟨S4x64x64, .f32⟩ : BufTy).Contents (Elt F) → (⟨S4x64x64, .f32⟩ : BufTy).Contents (Elt F)),
    unary main_v25 main_v69 (Host.sqrt : (⟨S4x1x1, .f32⟩ : BufTy).Contents (Elt F) → (⟨S4x1x1, .f32⟩ : BufTy).Contents (Elt F)),
    unary main_v69 main_v70 (broadcastInDim S4x64x64 ![0, 1, 2] bcast_S4x1x1_S4x64x64_0_1_2 : (⟨S4x1x1, .f32⟩ : BufTy).Contents (Elt F) → (⟨S4x64x64, .f32⟩ : BufTy).Contents (Elt F)),
    binary main_v68 main_v70 main_v71 (mulf : (⟨S4x64x64, .f32⟩ : BufTy).Contents (Elt F) → (⟨S4x64x64, .f32⟩ : BufTy).Contents (Elt F) → (⟨S4x64x64, .f32⟩ : BufTy).Contents (Elt F)),
    binary main_v71 main_v7 main_v72 ((fun l r => Host.dotGeneral dot_S4x64x64_S4x64x131072_S4x64x131072_2_1_1_2_0_0 none l r) : (⟨S4x64x64, .f32⟩ : BufTy).Contents (Elt F) → (⟨S4x64x131072, .f32⟩ : BufTy).Contents (Elt F) → (⟨S4x64x131072, .f32⟩ : BufTy).Contents (Elt F)),
    reshape main_v72 main_v73 rfl shapeCasts_S4x64x131072_S256x128x32x32,
    unary main_v73 main_v74 ((transpose S128x256x32x32 [1, 0, 2, 3] · transposes_S256x128x32x32_S128x256x32x32_1_0_2_3) : (⟨S256x128x32x32, .f32⟩ : BufTy).Contents (Elt F) → (⟨S128x256x32x32, .f32⟩ : BufTy).Contents (Elt F)),
    unary main_arg1 main_v75 (broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)),
    binary main_v74 main_v75 main_v76 (mulf : (⟨S128x256x32x32, .f32⟩ : BufTy).Contents (Elt F) → (⟨S128x256x32x32, .f32⟩ : BufTy).Contents (Elt F) → (⟨S128x256x32x32, .f32⟩ : BufTy).Contents (Elt F)),
    unary main_arg2 main_v77 (broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)),
    binary main_v76 main_v77 main_v78 (addf : (⟨S128x256x32x32, .f32⟩ : BufTy).Contents (Elt F) → (⟨S128x256x32x32, .f32⟩ : BufTy).Contents (Elt F) → (⟨S128x256x32x32, .f32⟩ : BufTy).Contents (Elt F)) ]

/-- The line is its pieces one after the other. -/
theorem ops_eq : (ops : List (HloOp τ sig (Elt F))) = opsA ++ opsB ++ opsC ++ opsD ++ opsE ++ opsN1 ++ opsN2 ++ opsN3 ++ opsN4 ++ opsN5 ++ opsG ++ opsH := rfl

set_option maxRecDepth 16384 in
set_option maxHeartbeats 4000000 in
/-- The printed program is that line: the two functions it calls unfold at their calls, and sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub .., reshape_bufs_sub .., unary_bufs_sub .., unary_bufs_sub .., binary_bufs_sub .., unary_bufs_sub .., binary_bufs_sub ..⟩

/-- From any memory with zero counters every weakly fair execution terminates, and every buffer ends at the fold of the
    line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's line read piece by piece: what each piece leaves in the buffers the later pieces read, as a pure
  function of what it found in the buffers it reads, and which buffers it leaves alone.
-/
import proofs.«125822_j37185826849259_1_alg».proof.Proof.Gen.ReferenceIdeal
import Idealize.ShloMosaic.Lib.StableHlo.Run
import Idealize.ShloMosaic.Lib.Pipeline.Frame
import proofs.«125822_j37185826849259_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The activations with the channel axis first, cut into 4 groups of 64 channels over 131072 = 128 · 32 · 32 positions. -/
def rX (a0 : (⟨S128x256x32x32, .f32⟩ : BufTy).Contents (Elt F)) : (⟨S4x64x131072, .f32⟩ : BufTy).Contents (Elt F) :=
  (shapeCast S4x64x131072 (((transpose S256x128x32x32 [1, 0, 2, 3] · transposes_S128x256x32x32_S256x128x32x32_1_0_2_3) : (⟨S128x256x32x32, .f32⟩ : BufTy).Contents (Elt F) → (⟨S256x128x32x32, .f32⟩ : BufTy).Contents (Elt F)) a0) shapeCasts_S256x128x32x32_S4x64x131072)

/-- The sum of each channel over its positions. -/
def rS1 (x : (⟨S4x64x131072, .f32⟩ : BufTy).Contents (Elt F)) : (⟨S4x64, .f32⟩ : BufTy).Contents (Elt F) :=
  (((fun x v => Host.reduceAdd x v reducesTo_S4x64x131072_S4x64_d2 h_S_) : (⟨S4x64x131072, .f32⟩ : BufTy).Contents (Elt F) → (⟨S_, .f32⟩ : BufTy).Contents (Elt F) → (⟨S4x64, .f32⟩ : BufTy).Contents (Elt F)) x ((constant S_ .f32 0x00000000#32)))

/-- The channel means, the sums divided by the number of positions, as a column. -/
def rMean3 (s : (⟨S4x64, .f32⟩ : BufTy).Contents (Elt F)) : (⟨S4x64x1, .f32⟩ : BufTy).Contents (Elt F) :=
  ((Host.divf : (⟨S4x64x1, .f32⟩ : BufTy).Contents (Elt F) → (⟨S4x64x1, .f32⟩ : BufTy).Contents (Elt F) → (⟨S4x64x1, .f32⟩ : BufTy).Contents (Elt F)) ((broadcastInDim S4x64x1 ![0, 1] bcast_S4x64_S4x64x1_0_1 : (⟨S4x64, .f32⟩ : BufTy).Contents (Elt F) → (⟨S4x64x1, .f32⟩ : BufTy).Contents (Elt F)) s) ((broadcastInDim S4x64x1 ![] bcast_S_S4x64x1 : (⟨S_, .f32⟩ : BufTy).Contents (Elt F) → (⟨S4x64x1, .f32⟩ : BufTy).Contents (Elt F)) ((constant S_ .f32 0x48000000#32))))

/-- The centred activations. -/
def rXc (x : (⟨S4x64x131072, .f32⟩ : BufTy).Contents (Elt F)) (mu : (⟨S4x64x1, .f32⟩ : BufTy).Contents (Elt F)) : (⟨S4x64x131072, .f32⟩ : BufTy).Contents (Elt F) :=
  ((subf : (⟨S4x64x131072, .f32⟩ : BufTy).Contents (Elt F) → (⟨S4x64x131072, .f32⟩ : BufTy).Contents (Elt F) → (⟨S4x64x131072, .f32⟩ : BufTy).Contents (Elt F)) x ((broadcastInDim S4x64x131072 ![0, 1, 2] bcast_S4x64x1_S4x64x131072_0_1_2 : (⟨S4x64x1, .f32⟩ : BufTy).Contents (Elt F) → (⟨S4x64x131072, .f32⟩ : BufTy).Contents (Elt F)) mu))

/-- The 64 × 64 identity matrix, from two index grids compared. -/
def rEye : (⟨S64x64, .f32⟩ : BufTy).Contents (Elt F) :=
  ((uitofp .f32 : (⟨S64x64, .i1⟩ : BufTy).Contents (Elt F) → (⟨S64x64, .f32⟩ : BufTy).Contents (Elt F)) ((cmpi .eq : (⟨S64x64, .i32⟩ : BufTy).Contents (Elt F) → (⟨S64x64, .i32⟩ : BufTy).Contents (Elt F) → (⟨S64x64, .i1⟩ : BufTy).Contents (Elt F)) ((addi : (⟨S64x64, .i32⟩ : BufTy).Contents (Elt F) → (⟨S64x64, .i32⟩ : BufTy).Contents (Elt F) → (⟨S64x64, .i32⟩ : BufTy).Contents (Elt F)) ((iotaInDim S64x64 32 0)) ((broadcastInDim S64x64 ![] bcast_S_S64x64 : (⟨S_, .i32⟩ : BufTy).Contents (Elt F) → (⟨S64x64, .i32⟩ : BufTy).Contents (Elt F)) ((constantI S_ 32 0#32)))) ((iotaInDim S64x64 32 1))))

/-- The regularised covariance of each group: ε times the identity plus the Gram matrix of the centred activations over the number of positions. -/
def rSigma (xc : (⟨S4x64x131072, .f32⟩ : BufTy).Contents (Elt F)) (eye : (⟨S64x64, .f32⟩ : BufTy).Contents (Elt F)) : (⟨S4x64x64, .f32⟩ : BufTy).Contents (Elt F) :=
  ((addf : (⟨S4x64x64, .f32⟩ : BufTy).Contents (Elt F) → (⟨S4x64x64, .f32⟩ : BufTy).Contents (Elt F) → (⟨S4x64x64, .f32⟩ : BufTy).Contents (Elt F)) ((broadcastInDim S4x64x64 ![0, 1, 2] bcast_S1x64x64_S4x64x64_0_1_2 : (⟨S1x64x64, .f32⟩ : BufTy).Contents (Elt F) → (⟨S4x64x64, .f32⟩ : BufTy).Contents (Elt F)) ((broadcastInDim S1x64x64 ![1, 2] bcast_S64x64_S1x64x64_1_2 : (⟨S64x64, .f32⟩ : BufTy).Contents (Elt F) → (⟨S1x64x64, .f32⟩ : BufTy).Contents (Elt F)) ((mulf : (⟨S64x64, .f32⟩ : BufTy).Contents (Elt F) → (⟨S64x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) ((constant S_ .f32 0x3727C5AC#32))) eye))) ((Host.divf : (⟨S4x64x64, .f32⟩ : BufTy).Contents (Elt F) → (⟨S4x64x64, .f32⟩ : BufTy).Contents (Elt F) → (⟨S4x64x64, .f32⟩ : BufTy).Contents (Elt F)) (((fun l r => Host.dotGeneral dot_S4x64x131072_S4x64x131072_S4x64x64_2_2_1_1_0_0 none l r) : (⟨S4x64x131072, .f32⟩ : BufTy).Contents (Elt F) → (⟨S4x64x131072, .f32⟩ : BufTy).Contents (Elt F) → (⟨S4x64x64, .f32⟩ : BufTy).Contents (Elt F)) xc xc) ((broadcastInDim S4x64x64 ![] bcast_S_S4x64x64 : (⟨S_, .f32⟩ : BufTy).Contents (Elt F) → (⟨S4x64x64, .f32⟩ : BufTy).Contents (Elt F)) ((constant S_ .f32 0x48000000#32)))))

/-- The trace of each group's matrix: the diagonal selected by the compared index grids, summed. -/
def rTrace (S : (⟨S4x64x64, .f32⟩ : BufTy).Contents (Elt F)) : (⟨S4, .f32⟩ : BufTy).Contents (Elt F) :=
  ((fun x v => Host.reduceAdd x v reducesTo_S4x64x64_S4_d1_2 h_S_) (select ((broadcastInDim S4x64x64 ![1, 2] bcast_S64x64_S4x64x64_1_2) ((cmpi .eq) (addi ((iotaInDim S64x64 32 0)) ((broadcastInDim S64x64 ![] bcast_S_S64x64) ((constantI S_ 32 0#32)))) ((iotaInDim S64x64 32 1)))) S ((broadcastInDim S4x64x64 ![] bcast_S_S4x64x64) ((constant S_ .f32 0x00000000#32)))) ((constant S_ .f32 0x00000000#32)))

/-- The reciprocal of each trace. -/
def rR (tr : (⟨S4, .f32⟩ : BufTy).Contents (Elt F)) : (⟨S4x1x1, .f32⟩ : BufTy).Contents (Elt F) :=
  ((Host.divf : (⟨S4x1x1, .f32⟩ : BufTy).Contents (Elt F) → (⟨S4x1x1, .f32⟩ : BufTy).Contents (Elt F) → (⟨S4x1x1, .f32⟩ : BufTy).Contents (Elt F)) ((broadcastInDim S4x1x1 ![] bcast_S_S4x1x1 : (⟨S_, .f32⟩ : BufTy).Contents (Elt F) → (⟨S4x1x1, .f32⟩ : BufTy).Contents (Elt F)) ((constant S_ .f32 0x3F800000#32))) ((broadcastInDim S4x1x1 ![0] bcast_S4_S4x1x1_0 : (⟨S4, .f32⟩ : BufTy).Contents (Elt F) → (⟨S4x1x1, .f32⟩ : BufTy).Contents (Elt F)) tr))

/-- The covariance scaled to unit trace. -/
def rSn (S : (⟨S4x64x64, .f32⟩ : BufTy).Contents (Elt F)) (r : (⟨S4x1x1, .f32⟩ : BufTy).Contents (Elt F)) : (⟨S4x64x64, .f32⟩ : BufTy).Contents (Elt F) :=
  ((mulf : (⟨S4x64x64, .f32⟩ : BufTy).Contents (Elt F) → (⟨S4x64x64, .f32⟩ : BufTy).Contents (Elt F) → (⟨S4x64x64, .f32⟩ : BufTy).Contents (Elt F)) S ((broadcastInDim S4x64x64 ![0, 1, 2] bcast_S4x1x1_S4x64x64_0_1_2 : (⟨S4x1x1, .f32⟩ : BufTy).Contents (Elt F) → (⟨S4x64x64, .f32⟩ : BufTy).Contents (Elt F)) r))

/-- The iteration's start: the identity in every group. -/
def rP0 (eye : (⟨S64x64, .f32⟩ : BufTy).Contents (Elt F)) : (⟨S4x64x64, .f32⟩ : BufTy).Contents (Elt F) :=
  ((broadcastInDim S4x64x64 ![1, 2] bcast_S64x64_S4x64x64_1_2 : (⟨S64x64, .f32⟩ : BufTy).Contents (Elt F) → (⟨S4x64x64, .f32⟩ : BufTy).Contents (Elt F)) eye)

/-- One step of the iteration: 3/2 · P − 1/2 · P³ · Sn. -/
def rNs (P : (⟨S4x64x64, .f32⟩ : BufTy).Contents (Elt F)) (Sn : (⟨S4x64x64, .f32⟩ : BufTy).Contents (Elt F)) : (⟨S4x64x64, .f32⟩ : BufTy).Contents (Elt F) :=
  ((subf : (⟨S4x64x64, .f32⟩ : BufTy).Contents (Elt F) → (⟨S4x64x64, .f32⟩ : BufTy).Contents (Elt F) → (⟨S4x64x64, .f32⟩ : BufTy).Contents (Elt F)) ((mulf : (⟨S4x64x64, .f32⟩ : BufTy).Contents (Elt F) → (⟨S4x64x64, .f32⟩ : BufTy).Contents (Elt F) → (⟨S4x64x64, .f32⟩ : BufTy).Contents (Elt F)) ((broadcastInDim S4x64x64 ![] bcast_S_S4x64x64 : (⟨S_, .f32⟩ : BufTy).Contents (Elt F) → (⟨S4x64x64, .f32⟩ : BufTy).Contents (Elt F)) ((constant S_ .f32 0x3FC00000#32))) P) ((mulf : (⟨S4x64x64, .f32⟩ : BufTy).Contents (Elt F) → (⟨S4x64x64, .f32⟩ : BufTy).Contents (Elt F) → (⟨S4x64x64, .f32⟩ : BufTy).Contents (Elt F)) ((broadcastInDim S4x64x64 ![] bcast_S_S4x64x64 : (⟨S_, .f32⟩ : BufTy).Contents (Elt F) → (⟨S4x64x64, .f32⟩ : BufTy).Contents (Elt F)) ((constant S_ .f32 0x3F000000#32))) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) P P) P) Sn)))

/-- The whitening matrix: the iterate times the square root of the reciprocal trace. -/
def rWm (P : (⟨S4x64x64, .f32⟩ : BufTy).Contents (Elt F)) (r : (⟨S4x1x1, .f32⟩ : BufTy).Contents (Elt F)) : (⟨S4x64x64, .f32⟩ : BufTy).Contents (Elt F) :=
  ((mulf : (⟨S4x64x64, .f32⟩ : BufTy).Contents (Elt F) → (⟨S4x64x64, .f32⟩ : BufTy).Contents (Elt F) → (⟨S4x64x64, .f32⟩ : BufTy).Contents (Elt F)) P ((broadcastInDim S4x64x64 ![0, 1, 2] bcast_S4x1x1_S4x64x64_0_1_2 : (⟨S4x1x1, .f32⟩ : BufTy).Contents (Elt F) → (⟨S4x64x64, .f32⟩ : BufTy).Contents (Elt F)) ((Host.sqrt : (⟨S4x1x1, .f32⟩ : BufTy).Contents (Elt F) → (⟨S4x1x1, .f32⟩ : BufTy).Contents (Elt F)) r)))

/-- The whitened activations back in the input's layout, scaled by the weight and shifted by the bias. -/
def rOut (wm : (⟨S4x64x64, .f32⟩ : BufTy).Contents (Elt F)) (xc : (⟨S4x64x131072, .f32⟩ : BufTy).Contents (Elt F)) (a1 : (⟨S1x256x1x1, .f32⟩ : BufTy).Contents (Elt F)) (a2 : (⟨S1x256x1x1, .f32⟩ : BufTy).Contents (Elt F)) : (⟨S128x256x32x32, .f32⟩ : BufTy).Contents (Elt F) :=
  ((addf : (⟨S128x256x32x32, .f32⟩ : BufTy).Contents (Elt F) → (⟨S128x256x32x32, .f32⟩ : BufTy).Contents (Elt F) → (⟨S128x256x32x32, .f32⟩ : BufTy).Contents (Elt F)) ((mulf : (⟨S128x256x32x32, .f32⟩ : BufTy).Contents (Elt F) → (⟨S128x256x32x32, .f32⟩ : BufTy).Contents (Elt F) → (⟨S128x256x32x32, .f32⟩ : BufTy).Contents (Elt F)) (((transpose S128x256x32x32 [1, 0, 2, 3] · transposes_S256x128x32x32_S128x256x32x32_1_0_2_3) : (⟨S256x128x32x32, .f32⟩ : BufTy).Contents (Elt F) → (⟨S128x256x32x32, .f32⟩ : BufTy).Contents (Elt F)) (shapeCast S256x128x32x32 (((fun l r => Host.dotGeneral dot_S4x64x64_S4x64x131072_S4x64x131072_2_1_1_2_0_0 none l r) : (⟨S4x64x64, .f32⟩ : BufTy).Contents (Elt F) → (⟨S4x64x131072, .f32⟩ : BufTy).Contents (Elt F) → (⟨S4x64x131072, .f32⟩ : BufTy).Contents (Elt F)) wm xc) shapeCasts_S4x64x131072_S256x128x32x32)) ((broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)) a1)) ((broadcastInDim S128x256x32x32 ![0, 1, 2, 3] bcast_S1x256x1x1_S128x256x32x32_0_1_2_3 : (⟨S1x256x1x1, .f32⟩ : BufTy).Contents (Elt F) → (⟨S128x256x32x32, .f32⟩ : BufTy).Contents (Elt F)) a2))

theorem A_v7 (W : Valuation τ sig (Elt F)) :
    after opsA W (main_v7 : DevRef τ sig) = rXc (rX (W (main_arg0 : DevRef τ sig))) (rMean3 (rS1 (rX (W (main_arg0 : DevRef τ sig))))) := by
  after_results <;> rfl

theorem A_keeps_arg0 (W : Valuation τ sig (Elt F)) :
    after opsA W (main_arg0 : DevRef τ sig) = W (main_arg0 : DevRef τ sig) := by
  after_results <;> rfl

theorem A_keeps_arg1 (W : Valuation τ sig (Elt F)) :
    after opsA W (main_arg1 : DevRef τ sig) = W (main_arg1 : DevRef τ sig) := by
  after_results <;> rfl

theorem A_keeps_arg2 (W : Valuation τ sig (Elt F)) :
    after opsA W (main_arg2 : DevRef τ sig) = W (main_arg2 : DevRef τ sig) := by
  after_results <;> rfl

theorem B_v13 (W : Valuation τ sig (Elt F)) :
    after opsB W (main_v13 : DevRef τ sig) = rEye := by
  after_results <;> rfl

theorem B_keeps_v7 (W : Valuation τ sig (Elt F)) :
    after opsB W (main_v7 : DevRef τ sig) = W (main_v7 : DevRef τ sig) := by
  after_results <;> rfl

theorem B_keeps_arg0 (W : Valuation τ sig (Elt F)) :
    after opsB W (main_arg0 : DevRef τ sig) = W (main_arg0 : DevRef τ sig) := by
  after_results <;> rfl

theorem B_keeps_arg1 (W : Valuation τ sig (Elt F)) :
    after opsB W (main_arg1 : DevRef τ sig) = W (main_arg1 : DevRef τ sig) := by
  after_results <;> rfl

theorem B_keeps_arg2 (W : Valuation τ sig (Elt F)) :
    after opsB W (main_arg2 : DevRef τ sig) = W (main_arg2 : DevRef τ sig) := by
  after_results <;> rfl

theorem C_v21 (W : Valuation τ sig (Elt F)) :
    after opsC W (main_v21 : DevRef τ sig) = rSigma (W (main_v7 : DevRef τ sig)) (W (main_v13 : DevRef τ sig)) := by
  after_results <;> rfl

theorem C_keeps_v7 (W : Valuation τ sig (Elt F)) :
    after opsC W (main_v7 : DevRef τ sig) = W (main_v7 : DevRef τ sig) := by
  after_results <;> rfl

theorem C_keeps_v13 (W : Valuation τ sig (Elt F)) :
    after opsC W (main_v13 : DevRef τ sig) = W (main_v13 : DevRef τ sig) := by
  after_results <;> rfl

theorem C_keeps_arg0 (W : Valuation τ sig (Elt F)) :
    after opsC W (main_arg0 : DevRef τ sig) = W (main_arg0 : DevRef τ sig) := by
  after_results <;> rfl

theorem C_keeps_arg1 (W : Valuation τ sig (Elt F)) :
    after opsC W (main_arg1 : DevRef τ sig) = W (main_arg1 : DevRef τ sig) := by
  after_results <;> rfl

theorem C_keeps_arg2 (W : Valuation τ sig (Elt F)) :
    after opsC W (main_arg2 : DevRef τ sig) = W (main_arg2 : DevRef τ sig) := by
  after_results <;> rfl

theorem D_v22 (W : Valuation τ sig (Elt F)) :
    after opsD W (main_v22 : DevRef τ sig) = rTrace (W (main_v21 : DevRef τ sig)) := by
  after_results <;> rfl

theorem D_keeps_v21 (W : Valuation τ sig (Elt F)) :
    after opsD W (main_v21 : DevRef τ sig) = W (main_v21 : DevRef τ sig) := by
  after_results <;> rfl

theorem D_keeps_v7 (W : Valuation τ sig (Elt F)) :
    after opsD W (main_v7 : DevRef τ sig) = W (main_v7 : DevRef τ sig) := by
  after_results <;> rfl

theorem D_keeps_v13 (W : Valuation τ sig (Elt F)) :
    after opsD W (main_v13 : DevRef τ sig) = W (main_v13 : DevRef τ sig) := by
  after_results <;> rfl

theorem D_keeps_arg0 (W : Valuation τ sig (Elt F)) :
    after opsD W (main_arg0 : DevRef τ sig) = W (main_arg0 : DevRef τ sig) := by
  after_results <;> rfl

theorem D_keeps_arg1 (W : Valuation τ sig (Elt F)) :
    after opsD W (main_arg1 : DevRef τ sig) = W (main_arg1 : DevRef τ sig) := by
  after_results <;> rfl

theorem D_keeps_arg2 (W : Valuation τ sig (Elt F)) :
    after opsD W (main_arg2 : DevRef τ sig) = W (main_arg2 : DevRef τ sig) := by
  after_results <;> rfl

theorem E_v25 (W : Valuation τ sig (Elt F)) :
    after opsE W (main_v25 : DevRef τ sig) = rR (W (main_v22 : DevRef τ sig)) := by
  after_results <;> rfl

theorem E_v27 (W : Valuation τ sig (Elt F)) :
    after opsE W (main_v27 : DevRef τ sig) = rSn (W (main_v21 : DevRef τ sig)) (rR (W (main_v22 : DevRef τ sig))) := by
  after_results <;> rfl

theorem E_v28 (W : Valuation τ sig (Elt F)) :
    after opsE W (main_v28 : DevRef τ sig) = rP0 (W (main_v13 : DevRef τ sig)) := by
  after_results <;> rfl

theorem E_keeps_v7 (W : Valuation τ sig (Elt F)) :
    after opsE W (main_v7 : DevRef τ sig) = W (main_v7 : DevRef τ sig) := by
  after_results <;> rfl

theorem E_keeps_arg0 (W : Valuation τ sig (Elt F)) :
    after opsE W (main_arg0 : DevRef τ sig) = W (main_arg0 : DevRef τ sig) := by
  after_results <;> rfl

theorem E_keeps_arg1 (W : Valuation τ sig (Elt F)) :
    after opsE W (main_arg1 : DevRef τ sig) = W (main_arg1 : DevRef τ sig) := by
  after_results <;> rfl

theorem E_keeps_arg2 (W : Valuation τ sig (Elt F)) :
    after opsE W (main_arg2 : DevRef τ sig) = W (main_arg2 : DevRef τ sig) := by
  after_results <;> rfl

theorem N1_v36 (W : Valuation τ sig (Elt F)) :
    after opsN1 W (main_v36 : DevRef τ sig) = rNs (W (main_v28 : DevRef τ sig)) (W (main_v27 : DevRef τ sig)) := by
  after_results <;> rfl

theorem N1_keeps_v27 (W : Valuation τ sig (Elt F)) :
    after opsN1 W (main_v27 : DevRef τ sig) = W (main_v27 : DevRef τ sig) := by
  after_results <;> rfl

theorem N1_keeps_v25 (W : Valuation τ sig (Elt F)) :
    after opsN1 W (main_v25 : DevRef τ sig) = W (main_v25 : DevRef τ sig) := by
  after_results <;> rfl

theorem N1_keeps_v7 (W : Valuation τ sig (Elt F)) :
    after opsN1 W (main_v7 : DevRef τ sig) = W (main_v7 : DevRef τ sig) := by
  after_results <;> rfl

theorem N1_keeps_arg0 (W : Valuation τ sig (Elt F)) :
    after opsN1 W (main_arg0 : DevRef τ sig) = W (main_arg0 : DevRef τ sig) := by
  after_results <;> rfl

theorem N1_keeps_arg1 (W : Valuation τ sig (Elt F)) :
    after opsN1 W (main_arg1 : DevRef τ sig) = W (main_arg1 : DevRef τ sig) := by
  after_results <;> rfl

theorem N1_keeps_arg2 (W : Valuation τ sig (Elt F)) :
    after opsN1 W (main_arg2 : DevRef τ sig) = W (main_arg2 : DevRef τ sig) := by
  after_results <;> rfl

theorem N2_v44 (W : Valuation τ sig (Elt F)) :
    after opsN2 W (main_v44 : DevRef τ sig) = rNs (W (main_v36 : DevRef τ sig)) (W (main_v27 : DevRef τ sig)) := by
  after_results <;> rfl

theorem N2_keeps_v27 (W : Valuation τ sig (Elt F)) :
    after opsN2 W (main_v27 : DevRef τ sig) = W (main_v27 : DevRef τ sig) := by
  after_results <;> rfl

theorem N2_keeps_v25 (W : Valuation τ sig (Elt F)) :
    after opsN2 W (main_v25 : DevRef τ sig) = W (main_v25 : DevRef τ sig) := by
  after_results <;> rfl

theorem N2_keeps_v7 (W : Valuation τ sig (Elt F)) :
    after opsN2 W (main_v7 : DevRef τ sig) = W (main_v7 : DevRef τ sig) := by
  after_results <;> rfl

theorem N2_keeps_arg0 (W : Valuation τ sig (Elt F)) :
    after opsN2 W (main_arg0 : DevRef τ sig) = W (main_arg0 : DevRef τ sig) := by
  after_results <;> rfl

theorem N2_keeps_arg1 (W : Valuation τ sig (Elt F)) :
    after opsN2 W (main_arg1 : DevRef τ sig) = W (main_arg1 : DevRef τ sig) := by
  after_results <;> rfl

theorem N2_keeps_arg2 (W : Valuation τ sig (Elt F)) :
    after opsN2 W (main_arg2 : DevRef τ sig) = W (main_arg2 : DevRef τ sig) := by
  after_results <;> rfl

theorem N3_v52 (W : Valuation τ sig (Elt F)) :
    after opsN3 W (main_v52 : DevRef τ sig) = rNs (W (main_v44 : DevRef τ sig)) (W (main_v27 : DevRef τ sig)) := by
  after_results <;> rfl

theorem N3_keeps_v27 (W : Valuation τ sig (Elt F)) :
    after opsN3 W (main_v27 : DevRef τ sig) = W (main_v27 : DevRef τ sig) := by
  after_results <;> rfl

theorem N3_keeps_v25 (W : Valuation τ sig (Elt F)) :
    after opsN3 W (main_v25 : DevRef τ sig) = W (main_v25 : DevRef τ sig) := by
  after_results <;> rfl

theorem N3_keeps_v7 (W : Valuation τ sig (Elt F)) :
    after opsN3 W (main_v7 : DevRef τ sig) = W (main_v7 : DevRef τ sig) := by
  after_results <;> rfl

theorem N3_keeps_arg0 (W : Valuation τ sig (Elt F)) :
    after opsN3 W (main_arg0 : DevRef τ sig) = W (main_arg0 : DevRef τ sig) := by
  after_results <;> rfl

theorem N3_keeps_arg1 (W : Valuation τ sig (Elt F)) :
    after opsN3 W (main_arg1 : DevRef τ sig) = W (main_arg1 : DevRef τ sig) := by
  after_results <;> rfl

theorem N3_keeps_arg2 (W : Valuation τ sig (Elt F)) :
    after opsN3 W (main_arg2 : DevRef τ sig) = W (main_arg2 : DevRef τ sig) := by
  after_results <;> rfl

theorem N4_v60 (W : Valuation τ sig (Elt F)) :
    after opsN4 W (main_v60 : DevRef τ sig) = rNs (W (main_v52 : DevRef τ sig)) (W (main_v27 : DevRef τ sig)) := by
  after_results <;> rfl

theorem N4_keeps_v27 (W : Valuation τ sig (Elt F)) :
    after opsN4 W (main_v27 : DevRef τ sig) = W (main_v27 : DevRef τ sig) := by
  after_results <;> rfl

theorem N4_keeps_v25 (W : Valuation τ sig (Elt F)) :
    after opsN4 W (main_v25 : DevRef τ sig) = W (main_v25 : DevRef τ sig) := by
  after_results <;> rfl

theorem N4_keeps_v7 (W : Valuation τ sig (Elt F)) :
    after opsN4 W (main_v7 : DevRef τ sig) = W (main_v7 : DevRef τ sig) := by
  after_results <;> rfl

theorem N4_keeps_arg0 (W : Valuation τ sig (Elt F)) :
    after opsN4 W (main_arg0 : DevRef τ sig) = W (main_arg0 : DevRef τ sig) := by
  after_results <;> rfl

theorem N4_keeps_arg1 (W : Valuation τ sig (Elt F)) :
    after opsN4 W (main_arg1 : DevRef τ sig) = W (main_arg1 : DevRef τ sig) := by
  after_results <;> rfl

theorem N4_keeps_arg2 (W : Valuation τ sig (Elt F)) :
    after opsN4 W (main_arg2 : DevRef τ sig) = W (main_arg2 : DevRef τ sig) := by
  after_results <;> rfl

theorem N5_v68 (W : Valuation τ sig (Elt F)) :
    after opsN5 W (main_v68 : DevRef τ sig) = rNs (W (main_v60 : DevRef τ sig)) (W (main_v27 : DevRef τ sig)) := by
  after_results <;> rfl

theorem N5_keeps_v25 (W : Valuation τ sig (Elt F)) :
    after opsN5 W (main_v25 : DevRef τ sig) = W (main_v25 : DevRef τ sig) := by
  after_results <;> rfl

theorem N5_keeps_v7 (W : Valuation τ sig (Elt F)) :
    after opsN5 W (main_v7 : DevRef τ sig) = W (main_v7 : DevRef τ sig) := by
  after_results <;> rfl

theorem N5_keeps_arg0 (W : Valuation τ sig (Elt F)) :
    after opsN5 W (main_arg0 : DevRef τ sig) = W (main_arg0 : DevRef τ sig) := by
  after_results <;> rfl

theorem N5_keeps_arg1 (W : Valuation τ sig (Elt F)) :
    after opsN5 W (main_arg1 : DevRef τ sig) = W (main_arg1 : DevRef τ sig) := by
  after_results <;> rfl

theorem N5_keeps_arg2 (W : Valuation τ sig (Elt F)) :
    after opsN5 W (main_arg2 : DevRef τ sig) = W (main_arg2 : DevRef τ sig) := by
  after_results <;> rfl

theorem G_v71 (W : Valuation τ sig (Elt F)) :
    after opsG W (main_v71 : DevRef τ sig) = rWm (W (main_v68 : DevRef τ sig)) (W (main_v25 : DevRef τ sig)) := by
  after_results <;> rfl

theorem G_keeps_v7 (W : Valuation τ sig (Elt F)) :
    after opsG W (main_v7 : DevRef τ sig) = W (main_v7 : DevRef τ sig) := by
  after_results <;> rfl

theorem G_keeps_arg0 (W : Valuation τ sig (Elt F)) :
    after opsG W (main_arg0 : DevRef τ sig) = W (main_arg0 : DevRef τ sig) := by
  after_results <;> rfl

theorem G_keeps_arg1 (W : Valuation τ sig (Elt F)) :
    after opsG W (main_arg1 : DevRef τ sig) = W (main_arg1 : DevRef τ sig) := by
  after_results <;> rfl

theorem G_keeps_arg2 (W : Valuation τ sig (Elt F)) :
    after opsG W (main_arg2 : DevRef τ sig) = W (main_arg2 : DevRef τ sig) := by
  after_results <;> rfl

theorem H_v78 (W : Valuation τ sig (Elt F)) :
    after opsH W (main_v78 : DevRef τ sig) = rOut (W (main_v71 : DevRef τ sig)) (W (main_v7 : DevRef τ sig)) (W (main_arg1 : DevRef τ sig)) (W (main_arg2 : DevRef τ sig)) := by
  after_results <;> rfl

theorem H_keeps_arg0 (W : Valuation τ sig (Elt F)) :
    after opsH W (main_arg0 : DevRef τ sig) = W (main_arg0 : DevRef τ sig) := by
  after_results <;> rfl

theorem H_keeps_arg1 (W : Valuation τ sig (Elt F)) :
    after opsH W (main_arg1 : DevRef τ sig) = W (main_arg1 : DevRef τ sig) := by
  after_results <;> rfl

theorem H_keeps_arg2 (W : Valuation τ sig (Elt F)) :
    after opsH W (main_arg2 : DevRef τ sig) = W (main_arg2 : DevRef τ sig) := by
  after_results <;> rfl

end Cert.ReferenceIdeal.RefRun

end
-- ==== Proof.RefValue.lean ====
/-
  The reference's result as one function of its three arguments: the pieces of its line composed. The covariance is
  computed once and read by its trace, by the normalisation and — through the normalised matrix — by each of the five
  steps of the iteration.
-/
import proofs.«125822_j37185826849259_1_alg».proof.Proof.Gen.ReferenceIdeal
import Idealize.ShloMosaic.Lib.StableHlo.Run
import Idealize.ShloMosaic.Lib.Pipeline.Frame
import proofs.«125822_j37185826849259_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The centred activations of the argument. -/
def refXc (a0 : (⟨S128x256x32x32, .f32⟩ : BufTy).Contents (Elt F)) : (⟨S4x64x131072, .f32⟩ : BufTy).Contents (Elt F) := rXc (rX a0) (rMean3 (rS1 (rX a0)))
/-- The whitening matrix computed from a covariance `S`: normalise by the trace, iterate five times from the identity,
    scale back by the square root of the reciprocal trace. -/
def refTail (S : (⟨S4x64x64, .f32⟩ : BufTy).Contents (Elt F)) : (⟨S4x64x64, .f32⟩ : BufTy).Contents (Elt F) :=
  rWm (rNs (rNs (rNs (rNs (rNs (rP0 rEye) (rSn S (rR (rTrace S)))) (rSn S (rR (rTrace S)))) (rSn S (rR (rTrace S)))) (rSn S (rR (rTrace S)))) (rSn S (rR (rTrace S)))) (rR (rTrace S))
/-- The reference's result. -/
def refResult (a0 : (⟨S128x256x32x32, .f32⟩ : BufTy).Contents (Elt F)) (a1 a2 : (⟨S1x256x1x1, .f32⟩ : BufTy).Contents (Elt F)) : (⟨S128x256x32x32, .f32⟩ : BufTy).Contents (Elt F) :=
  rOut (refTail (rSigma (refXc a0) rEye)) (refXc a0) a1 a2

/-- The fold of the whole line at the result buffer is `refResult` of the arguments' contents. -/
theorem result_eq (V : Valuation τ sig (Elt F)) :
    after ops V (main_v78 : DevRef τ sig) = refResult (V (main_arg0 : DevRef τ sig)) (V (main_arg1 : DevRef τ sig)) (V (main_arg2 : DevRef τ sig)) := by
  rw [ops_eq]
  simp only [StableHlo.after_append]
  rw [H_v78]
  rw [G_v71, G_keeps_v7, G_keeps_arg1, G_keeps_arg2]
  rw [N5_v68, N5_keeps_v25, N5_keeps_v7, N5_keeps_arg1, N5_keeps_arg2]
  rw [N4_v60, N4_keeps_v27, N4_keeps_v25, N4_keeps_v7, N4_keeps_arg1, N4_keeps_arg2]
  rw [N3_v52, N3_keeps_v27, N3_keeps_v25, N3_keeps_v7, N3_keeps_arg1, N3_keeps_arg2]
  rw [N2_v44, N2_keeps_v27, N2_keeps_v25, N2_keeps_v7, N2_keeps_arg1, N2_keeps_arg2]
  rw [N1_v36, N1_keeps_v27, N1_keeps_v25, N1_keeps_v7, N1_keeps_arg1, N1_keeps_arg2]
  rw [E_v28, E_v27, E_v25, E_keeps_v7, E_keeps_arg1, E_keeps_arg2]
  rw [D_keeps_v13, D_keeps_v21, D_v22, D_keeps_v7, D_keeps_arg1, D_keeps_arg2]
  rw [C_keeps_v13, C_v21, C_keeps_v7, C_keeps_arg1, C_keeps_arg2]
  rw [B_v13, B_keeps_v7, B_keeps_arg1, B_keeps_arg2]
  rw [A_v7, A_keeps_arg1, A_keeps_arg2]
  rfl

/-- Argument 0 is never written. -/
theorem arg0_eq (V : Valuation τ sig (Elt F)) : after ops V (main_arg0 : DevRef τ sig) = V (main_arg0 : DevRef τ sig) := by
  rw [ops_eq]
  simp only [StableHlo.after_append]
  rw [H_keeps_arg0]
  rw [G_keeps_arg0]
  rw [N5_keeps_arg0]
  rw [N4_keeps_arg0]
  rw [N3_keeps_arg0]
  rw [N2_keeps_arg0]
  rw [N1_keeps_arg0]
  rw [E_keeps_arg0]
  rw [D_keeps_arg0]
  rw [C_keeps_arg0]
  rw [B_keeps_arg0]
  rw [A_keeps_arg0]

/-- Argument 1 is never written. -/
theorem arg1_eq (V : Valuation τ sig (Elt F)) : after ops V (main_arg1 : DevRef τ sig) = V (main_arg1 : DevRef τ sig) := by
  rw [ops_eq]
  simp only [StableHlo.after_append]
  rw [H_keeps_arg1]
  rw [G_keeps_arg1]
  rw [N5_keeps_arg1]
  rw [N4_keeps_arg1]
  rw [N3_keeps_arg1]
  rw [N2_keeps_arg1]
  rw [N1_keeps_arg1]
  rw [E_keeps_arg1]
  rw [D_keeps_arg1]
  rw [C_keeps_arg1]
  rw [B_keeps_arg1]
  rw [A_keeps_arg1]

/-- Argument 2 is never written. -/
theorem arg2_eq (V : Valuation τ sig (Elt F)) : after ops V (main_arg2 : DevRef τ sig) = V (main_arg2 : DevRef τ sig) := by
  rw [ops_eq]
  simp only [StableHlo.after_append]
  rw [H_keeps_arg2]
  rw [G_keeps_arg2]
  rw [N5_keeps_arg2]
  rw [N4_keeps_arg2]
  rw [N3_keeps_arg2]
  rw [N2_keeps_arg2]
  rw [N1_keeps_arg2]
  rw [E_keeps_arg2]
  rw [D_keeps_arg2]
  rw [C_keeps_arg2]
  rw [B_keeps_arg2]
  rw [A_keeps_arg2]

/-- The reference's run with its result named: every weakly fair execution terminates with the result at `refResult` of
    the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = refResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v78).trans (result_eq _), (h c main_arg0).trans (arg0_eq _),
      (h c main_arg1).trans (arg1_eq _), (h c main_arg2).trans (arg2_eq _)⟩) (run_main m ρ)

end Cert.ReferenceIdeal.RefRun

end
-- ==== Proof.Consts.lean ====
/-
  The two float constants whose values the proof needs: the pattern of +∞, against which the precondition compares, and
  131072.0, the number of places of a channel, by which both programs divide.
-/
import Idealize.ShloMosaic.PureOps.Ideal

noncomputable section

namespace Cert.Whiten

open Idealize.ShloMosaic

/-- The pattern 0x7F800000 denotes +∞. -/
theorem ofBits_inf : Ideal.ofBits .f32 0x7F800000#32 = ⊤ := by
  simp [Ideal.ofBits, Ideal.ieee]

/-- The pattern 0x48000000 denotes the real number 131072 = 2¹⁷. -/
theorem ofBits_places : Ideal.ofBits .f32 0x48000000#32 = ((131072 : ℝ) : EReal) := by
  simp [Ideal.ofBits, Ideal.ieee, -EReal.coe_mul]; norm_num

end Cert.Whiten

end
-- ==== Proof.Finite.lean ====
/-
  The precondition read off: it is the conjunction of three tests "every entry is below +∞ in absolute value", one per
  argument. An extended real whose absolute value is below +∞ is a real number, so under the precondition every entry
  of the activations is a real number.
-/
import proofs.«125822_j37185826849259_1_alg».proof.Pre_finite_inputs
import proofs.«125822_j37185826849259_1_alg».proof.Proof.Consts
import Idealize.ShloMosaic.Lib.ReduceAll
import Idealize.ShloMosaic.Lib.Affine
import Idealize.ShloMosaic.Lib.ValueIdx

noncomputable section

namespace Cert.Whiten

open Idealize.ShloMosaic

instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the first argument is a real number. -/
theorem real_of_pre [Cert.Pre_finite_inputs.Facts] (a0 : FVec Ideal Cert.Pre_finite_inputs.S128x256x32x32 .f32)
    (a1 a2 : FVec Ideal Cert.Pre_finite_inputs.S1x256x1x1 .f32)
    (h : Cert.Pre_finite_inputs.fn (F := Ideal) a0 a1 a2 = fun _ => 1#1) (j : Cert.Pre_finite_inputs.S128x256x32x32.Idx) :
    ∃ r : ℝ, a0 j = (r : EReal) := by
  have h0 := congrFun h ValueIdx.ix0
  dsimp only [Cert.Pre_finite_inputs.fn] at h0
  have h1 := (IntOp.andi_eq_one.mp h0).1
  have h2 := (IntOp.andi_eq_one.mp h1).1
  have h3 := Host.reduce_andi_all _ _ _ _ _ h2 j
  exact real_of_abs_lt (a0 j) h3

end Cert.Whiten

end
-- ==== Proof.KerStages.lean ====
/-
  The kernel program's host operations between its two regions, read piece by piece: what each piece leaves in the
  buffers the later pieces and the second region read, as a pure function of what it found, and which buffers it leaves
  alone. The long third stretch is cut where its mathematics turns: the reciprocal trace and the start of the iteration,
  the five steps, the whitening matrix, the two parameter rows.
-/
import proofs.«125822_j37185826849259_1_alg».proof.Proof.Gen.KernelIdeal.Launch
import Idealize.ShloMosaic.Lib.StableHlo.Run
import Idealize.ShloMosaic.Lib.Pipeline.Frame

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- Operations 1 … 7 of the third stretch. -/
abbrev kOpsE : List (HloOp τ sig (Elt F)) :=
  [ StableHlo.nullary main_cst_2 (constant S_ .f32 0x3F800000#32),
    StableHlo.unary main_cst_2 main_v24 (broadcastInDim S4 ![] bcast_S_S4 : (⟨S_, .f32⟩ : BufTy).Contents (Elt F) → (⟨S4, .f32⟩ : BufTy).Contents (Elt F)),
    StableHlo.binary main_v24 main_v23 main_v25 (Host.divf : (⟨S4, .f32⟩ : BufTy).Contents (Elt F) → (⟨S4, .f32⟩ : BufTy).Contents (Elt F) → (⟨S4, .f32⟩ : BufTy).Contents (Elt F)),
    StableHlo.unary main_v25 main_v26 (broadcastInDim S4x1x1 ![0] bcast_S4_S4x1x1_0 : (⟨S4, .f32⟩ : BufTy).Contents (Elt F) → (⟨S4x1x1, .f32⟩ : BufTy).Contents (Elt F)),
    StableHlo.unary main_v26 main_v27 (broadcastInDim S4x64x64 ![0, 1, 2] bcast_S4x1x1_S4x64x64_0_1_2 : (⟨S4x1x1, .f32⟩ : BufTy).Contents (Elt F) → (⟨S4x64x64, .f32⟩ : BufTy).Contents (Elt F)),
    StableHlo.binary main_v22 main_v27 main_v28 (mulf : (⟨S4x64x64, .f32⟩ : BufTy).Contents (Elt F) → (⟨S4x64x64, .f32⟩ : BufTy).Contents (Elt F) → (⟨S4x64x64, .f32⟩ : BufTy).Contents (Elt F)),
    StableHlo.unary main_v10 main_v29 (broadcastInDim S4x64x64 ![0, 1, 2] bcast_S1x64x64_S4x64x64_0_1_2 : (⟨S1x64x64, .f32⟩ : BufTy).Contents (Elt F) → (⟨S4x64x64, .f32⟩ : BufTy).Contents (Elt F)) ]

/-- Operations 8 … 17 of the third stretch. -/
abbrev kOpsN1 : List (HloOp τ sig (Elt F)) :=
  [ StableHlo.binary main_v29 main_v29 main_v30 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.binary main_v30 main_v29 main_v31 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_3 (constant S_ .f32 0x3FC00000#32),
    StableHlo.unary main_cst_3 main_v32 (broadcastInDim S4x64x64 ![] bcast_S_S4x64x64 : (⟨S_, .f32⟩ : BufTy).Contents (Elt F) → (⟨S4x64x64, .f32⟩ : BufTy).Contents (Elt F)),
    StableHlo.binary main_v32 main_v29 main_v33 (mulf : (⟨S4x64x64, .f32⟩ : BufTy).Contents (Elt F) → (⟨S4x64x64, .f32⟩ : BufTy).Contents (Elt F) → (⟨S4x64x64, .f32⟩ : BufTy).Contents (Elt F)),
    StableHlo.binary main_v31 main_v28 main_v34 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_4 (constant S_ .f32 0x3F000000#32),
    StableHlo.unary main_cst_4 main_v35 (broadcastInDim S4x64x64 ![] bcast_S_S4x64x64 : (⟨S_, .f32⟩ : BufTy).Contents (Elt F) → (⟨S4x64x64, .f32⟩ : BufTy).Contents (Elt F)),
    StableHlo.binary main_v35 main_v34 main_v36 (mulf : (⟨S4x64x64, .f32⟩ : BufTy).Contents (Elt F) → (⟨S4x64x64, .f32⟩ : BufTy).Contents (Elt F) → (⟨S4x64x64, .f32⟩ : BufTy).Contents (Elt F)),
    StableHlo.binary main_v33 main_v36 main_v37 (subf : (⟨S4x64x64, .f32⟩ : BufTy).Contents (Elt F) → (⟨S4x64x64, .f32⟩ : BufTy).Contents (Elt F) → (⟨S4x64x64, .f32⟩ : BufTy).Contents (Elt F)) ]

/-- Operations 18 … 27 of the third stretch. -/
abbrev kOpsN2 : List (HloOp τ sig (Elt F)) :=
  [ StableHlo.binary main_v37 main_v37 main_v38 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.binary main_v38 main_v37 main_v39 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_5 (constant S_ .f32 0x3FC00000#32),
    StableHlo.unary main_cst_5 main_v40 (broadcastInDim S4x64x64 ![] bcast_S_S4x64x64 : (⟨S_, .f32⟩ : BufTy).Contents (Elt F) → (⟨S4x64x64, .f32⟩ : BufTy).Contents (Elt F)),
    StableHlo.binary main_v40 main_v37 main_v41 (mulf : (⟨S4x64x64, .f32⟩ : BufTy).Contents (Elt F) → (⟨S4x64x64, .f32⟩ : BufTy).Contents (Elt F) → (⟨S4x64x64, .f32⟩ : BufTy).Contents (Elt F)),
    StableHlo.binary main_v39 main_v28 main_v42 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_6 (constant S_ .f32 0x3F000000#32),
    StableHlo.unary main_cst_6 main_v43 (broadcastInDim S4x64x64 ![] bcast_S_S4x64x64 : (⟨S_, .f32⟩ : BufTy).Contents (Elt F) → (⟨S4x64x64, .f32⟩ : BufTy).Contents (Elt F)),
    StableHlo.binary main_v43 main_v42 main_v44 (mulf : (⟨S4x64x64, .f32⟩ : BufTy).Contents (Elt F) → (⟨S4x64x64, .f32⟩ : BufTy).Contents (Elt F) → (⟨S4x64x64, .f32⟩ : BufTy).Contents (Elt F)),
    StableHlo.binary main_v41 main_v44 main_v45 (subf : (⟨S4x64x64, .f32⟩ : BufTy).Contents (Elt F) → (⟨S4x64x64, .f32⟩ : BufTy).Contents (Elt F) → (⟨S4x64x64, .f32⟩ : BufTy).Contents (Elt F)) ]

/-- Operations 28 … 37 of the third stretch. -/
abbrev kOpsN3 : List (HloOp τ sig (Elt F)) :=
  [ StableHlo.binary main_v45 main_v45 main_v46 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.binary main_v46 main_v45 main_v47 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_7 (constant S_ .f32 0x3FC00000#32),
    StableHlo.unary main_cst_7 main_v48 (broadcastInDim S4x64x64 ![] bcast_S_S4x64x64 : (⟨S_, .f32⟩ : BufTy).Contents (Elt F) → (⟨S4x64x64, .f32⟩ : BufTy).Contents (Elt F)),
    StableHlo.binary main_v48 main_v45 main_v49 (mulf : (⟨S4x64x64, .f32⟩ : BufTy).Contents (Elt F) → (⟨S4x64x64, .f32⟩ : BufTy).Contents (Elt F) → (⟨S4x64x64, .f32⟩ : BufTy).Contents (Elt F)),
    StableHlo.binary main_v47 main_v28 main_v50 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_8 (constant S_ .f32 0x3F000000#32),
    StableHlo.unary main_cst_8 main_v51 (broadcastInDim S4x64x64 ![] bcast_S_S4x64x64 : (⟨S_, .f32⟩ : BufTy).Contents (Elt F) → (⟨S4x64x64, .f32⟩ : BufTy).Contents (Elt F)),
    StableHlo.binary main_v51 main_v50 main_v52 (mulf : (⟨S4x64x64, .f32⟩ : BufTy).Contents (Elt F) → (⟨S4x64x64, .f32⟩ : BufTy).Contents (Elt F) → (⟨S4x64x64, .f32⟩ : BufTy).Contents (Elt F)),
    StableHlo.binary main_v49 main_v52 main_v53 (subf : (⟨S4x64x64, .f32⟩ : BufTy).Contents (Elt F) → (⟨S4x64x64, .f32⟩ : BufTy).Contents (Elt F) → (⟨S4x64x64, .f32⟩ : BufTy).Contents (Elt F)) ]

/-- Operations 38 … 47 of the third stretch. -/
abbrev kOpsN4 : List (HloOp τ sig (Elt F)) :=
  [ StableHlo.binary main_v53 main_v53 main_v54 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.binary main_v54 main_v53 main_v55 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_9 (constant S_ .f32 0x3FC00000#32),
    StableHlo.unary main_cst_9 main_v56 (broadcastInDim S4x64x64 ![] bcast_S_S4x64x64 : (⟨S_, .f32⟩ : BufTy).Contents (Elt F) → (⟨S4x64x64, .f32⟩ : BufTy).Contents (Elt F)),
    StableHlo.binary main_v56 main_v53 main_v57 (mulf : (⟨S4x64x64, .f32⟩ : BufTy).Contents (Elt F) → (⟨S4x64x64, .f32⟩ : BufTy).Contents (Elt F) → (⟨S4x64x64, .f32⟩ : BufTy).Contents (Elt F)),
    StableHlo.binary main_v55 main_v28 main_v58 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_10 (constant S_ .f32 0x3F000000#32),
    StableHlo.unary main_cst_10 main_v59 (broadcastInDim S4x64x64 ![] bcast_S_S4x64x64 : (⟨S_, .f32⟩ : BufTy).Contents (Elt F) → (⟨S4x64x64, .f32⟩ : BufTy).Contents (Elt F)),
    StableHlo.binary main_v59 main_v58 main_v60 (mulf : (⟨S4x64x64, .f32⟩ : BufTy).Contents (Elt F) → (⟨S4x64x64, .f32⟩ : BufTy).Contents (Elt F) → (⟨S4x64x64, .f32⟩ : BufTy).Contents (Elt F)),
    StableHlo.binary main_v57 main_v60 main_v61 (subf : (⟨S4x64x64, .f32⟩ : BufTy).Contents (Elt F) → (⟨S4x64x64, .f32⟩ : BufTy).Contents (Elt F) → (⟨S4x64x64, .f32⟩ : BufTy).Contents (Elt F)) ]

/-- Operations 48 … 57 of the third stretch. -/
abbrev kOpsN5 : List (HloOp τ sig (Elt F)) :=
  [ StableHlo.binary main_v61 main_v61 main_v62 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.binary main_v62 main_v61 main_v63 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_11 (constant S_ .f32 0x3FC00000#32),
    StableHlo.unary main_cst_11 main_v64 (broadcastInDim S4x64x64 ![] bcast_S_S4x64x64 : (⟨S_, .f32⟩ : BufTy).Contents (Elt F) → (⟨S4x64x64, .f32⟩ : BufTy).Contents (Elt F)),
    StableHlo.binary main_v64 main_v61 main_v65 (mulf : (⟨S4x64x64, .f32⟩ : BufTy).Contents (Elt F) → (⟨S4x64x64, .f32⟩ : BufTy).Contents (Elt F) → (⟨S4x64x64, .f32⟩ : BufTy).Contents (Elt F)),
    StableHlo.binary main_v63 main_v28 main_v66 ((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)),
    StableHlo.nullary main_cst_12 (constant S_ .f32 0x3F000000#32),
    StableHlo.unary main_cst_12 main_v67 (broadcastInDim S4x64x64 ![] bcast_S_S4x64x64 : (⟨S_, .f32⟩ : BufTy).Contents (Elt F) → (⟨S4x64x64, .f32⟩ : BufTy).Contents (Elt F)),
    StableHlo.binary main_v67 main_v66 main_v68 (mulf : (⟨S4x64x64, .f32⟩ : BufTy).Contents (Elt F) → (⟨S4x64x64, .f32⟩ : BufTy).Contents (Elt F) → (⟨S4x64x64, .f32⟩ : BufTy).Contents (Elt F)),
    StableHlo.binary main_v65 main_v68 main_v69 (subf : (⟨S4x64x64, .f32⟩ : BufTy).Contents (Elt F) → (⟨S4x64x64, .f32⟩ : BufTy).Contents (Elt F) → (⟨S4x64x64, .f32⟩ : BufTy).Contents (Elt F)) ]

/-- Operations 58 … 60 of the third stretch. -/
abbrev kOpsG : List (HloOp τ sig (Elt F)) :=
  [ StableHlo.unary main_v26 main_v70 (Host.sqrt : (⟨S4x1x1, .f32⟩ : BufTy).Contents (Elt F) → (⟨S4x1x1, .f32⟩ : BufTy).Contents (Elt F)),
    StableHlo.unary main_v70 main_v71 (broadcastInDim S4x64x64 ![0, 1, 2] bcast_S4x1x1_S4x64x64_0_1_2 : (⟨S4x1x1, .f32⟩ : BufTy).Contents (Elt F) → (⟨S4x64x64, .f32⟩ : BufTy).Contents (Elt F)),
    StableHlo.binary main_v69 main_v71 main_v72 (mulf : (⟨S4x64x64, .f32⟩ : BufTy).Contents (Elt F) → (⟨S4x64x64, .f32⟩ : BufTy).Contents (Elt F) → (⟨S4x64x64, .f32⟩ : BufTy).Contents (Elt F)) ]

/-- Operations 61 … 62 of the third stretch. -/
abbrev kOpsH : List (HloOp τ sig (Elt F)) :=
  [ StableHlo.reshape main_arg1 main_v73 rfl shapeCasts_S1x256x1x1_S1x256,
    StableHlo.reshape main_arg2 main_v74 rfl shapeCasts_S1x256x1x1_S1x256 ]

/-- The third stretch is its pieces one after the other. -/
theorem hostOps1_2_eq : (hostOps1_2 : List (HloOp τ sig (Elt F))) = kOpsE ++ kOpsN1 ++ kOpsN2 ++ kOpsN3 ++ kOpsN4 ++ kOpsN5 ++ kOpsG ++ kOpsH := rfl

/-- The channel means: the sums divided by the number of positions. -/
def kMean (s : (⟨S4x64, .f32⟩ : BufTy).Contents (Elt F)) : (⟨S4x64, .f32⟩ : BufTy).Contents (Elt F) :=
  ((Host.divf : (⟨S4x64, .f32⟩ : BufTy).Contents (Elt F) → (⟨S4x64, .f32⟩ : BufTy).Contents (Elt F) → (⟨S4x64, .f32⟩ : BufTy).Contents (Elt F)) s ((broadcastInDim S4x64 ![] bcast_S_S4x64 : (⟨S_, .f32⟩ : BufTy).Contents (Elt F) → (⟨S4x64, .f32⟩ : BufTy).Contents (Elt F)) ((constant S_ .f32 0x48000000#32))))

/-- The 64 × 64 identity matrix, from two index grids compared. -/
def kEye : (⟨S64x64, .f32⟩ : BufTy).Contents (Elt F) :=
  ((uitofp .f32 : (⟨S64x64, .i1⟩ : BufTy).Contents (Elt F) → (⟨S64x64, .f32⟩ : BufTy).Contents (Elt F)) ((cmpi .eq : (⟨S64x64, .i32⟩ : BufTy).Contents (Elt F) → (⟨S64x64, .i32⟩ : BufTy).Contents (Elt F) → (⟨S64x64, .i1⟩ : BufTy).Contents (Elt F)) ((addi : (⟨S64x64, .i32⟩ : BufTy).Contents (Elt F) → (⟨S64x64, .i32⟩ : BufTy).Contents (Elt F) → (⟨S64x64, .i32⟩ : BufTy).Contents (Elt F)) ((iotaInDim S64x64 32 0)) ((broadcastInDim S64x64 ![] bcast_S_S64x64 : (⟨S_, .i32⟩ : BufTy).Contents (Elt F) → (⟨S64x64, .i32⟩ : BufTy).Contents (Elt F)) ((constantI S_ 32 0#32)))) ((iotaInDim S64x64 32 1))))

/-- The identity with a leading unit axis. -/
def kEye1 (eye : (⟨S64x64, .f32⟩ : BufTy).Contents (Elt F)) : (⟨S1x64x64, .f32⟩ : BufTy).Contents (Elt F) :=
  ((broadcastInDim S1x64x64 ![1, 2] bcast_S64x64_S1x64x64_1_2 : (⟨S64x64, .f32⟩ : BufTy).Contents (Elt F) → (⟨S1x64x64, .f32⟩ : BufTy).Contents (Elt F)) eye)

/-- The regularised covariance of each group: ε times the identity plus the second moments over the number of positions, less the product of the means. -/
def kSigma (mu : (⟨S4x64, .f32⟩ : BufTy).Contents (Elt F)) (eye1 : (⟨S1x64x64, .f32⟩ : BufTy).Contents (Elt F)) (s2 : (⟨S4x64x64, .f32⟩ : BufTy).Contents (Elt F)) : (⟨S4x64x64, .f32⟩ : BufTy).Contents (Elt F) :=
  ((subf : (⟨S4x64x64, .f32⟩ : BufTy).Contents (Elt F) → (⟨S4x64x64, .f32⟩ : BufTy).Contents (Elt F) → (⟨S4x64x64, .f32⟩ : BufTy).Contents (Elt F)) ((addf : (⟨S4x64x64, .f32⟩ : BufTy).Contents (Elt F) → (⟨S4x64x64, .f32⟩ : BufTy).Contents (Elt F) → (⟨S4x64x64, .f32⟩ : BufTy).Contents (Elt F)) ((broadcastInDim S4x64x64 ![0, 1, 2] bcast_S1x64x64_S4x64x64_0_1_2 : (⟨S1x64x64, .f32⟩ : BufTy).Contents (Elt F) → (⟨S4x64x64, .f32⟩ : BufTy).Contents (Elt F)) ((mulf : (⟨S1x64x64, .f32⟩ : BufTy).Contents (Elt F) → (⟨S1x64x64, .f32⟩ : BufTy).Contents (Elt F) → (⟨S1x64x64, .f32⟩ : BufTy).Contents (Elt F)) ((broadcastInDim S1x64x64 ![] bcast_S_S1x64x64 : (⟨S_, .f32⟩ : BufTy).Contents (Elt F) → (⟨S1x64x64, .f32⟩ : BufTy).Contents (Elt F)) ((constant S_ .f32 0x3727C5AC#32))) eye1)) ((Host.divf : (⟨S4x64x64, .f32⟩ : BufTy).Contents (Elt F) → (⟨S4x64x64, .f32⟩ : BufTy).Contents (Elt F) → (⟨S4x64x64, .f32⟩ : BufTy).Contents (Elt F)) s2 ((broadcastInDim S4x64x64 ![] bcast_S_S4x64x64 : (⟨S_, .f32⟩ : BufTy).Contents (Elt F) → (⟨S4x64x64, .f32⟩ : BufTy).Contents (Elt F)) ((constant S_ .f32 0x48000000#32))))) ((mulf : (⟨S4x64x64, .f32⟩ : BufTy).Contents (Elt F) → (⟨S4x64x64, .f32⟩ : BufTy).Contents (Elt F) → (⟨S4x64x64, .f32⟩ : BufTy).Contents (Elt F)) ((broadcastInDim S4x64x64 ![0, 1, 2] bcast_S4x64x1_S4x64x64_0_1_2 : (⟨S4x64x1, .f32⟩ : BufTy).Contents (Elt F) → (⟨S4x64x64, .f32⟩ : BufTy).Contents (Elt F)) ((broadcastInDim S4x64x1 ![0, 1] bcast_S4x64_S4x64x1_0_1 : (⟨S4x64, .f32⟩ : BufTy).Contents (Elt F) → (⟨S4x64x1, .f32⟩ : BufTy).Contents (Elt F)) mu)) ((broadcastInDim S4x64x64 ![0, 1, 2] bcast_S4x1x64_S4x64x64_0_1_2 : (⟨S4x1x64, .f32⟩ : BufTy).Contents (Elt F) → (⟨S4x64x64, .f32⟩ : BufTy).Contents (Elt F)) ((broadcastInDim S4x1x64 ![0, 2] bcast_S4x64_S4x1x64_0_2 : (⟨S4x64, .f32⟩ : BufTy).Contents (Elt F) → (⟨S4x1x64, .f32⟩ : BufTy).Contents (Elt F)) mu))))

/-- The trace of each group's matrix: the diagonal selected by the compared index grids, summed. -/
def kTrace (S : (⟨S4x64x64, .f32⟩ : BufTy).Contents (Elt F)) : (⟨S4, .f32⟩ : BufTy).Contents (Elt F) :=
  ((fun x v => Host.reduceAdd x v reducesTo_S4x64x64_S4_d1_2 h_S_) (select ((broadcastInDim S4x64x64 ![1, 2] bcast_S64x64_S4x64x64_1_2) ((cmpi .eq) (addi ((iotaInDim S64x64 32 0)) ((broadcastInDim S64x64 ![] bcast_S_S64x64) ((constantI S_ 32 0#32)))) ((iotaInDim S64x64 32 1)))) S ((broadcastInDim S4x64x64 ![] bcast_S_S4x64x64) ((constant S_ .f32 0x00000000#32)))) ((constant S_ .f32 0x00000000#32)))

/-- The reciprocal of each trace. -/
def kR (tr : (⟨S4, .f32⟩ : BufTy).Contents (Elt F)) : (⟨S4x1x1, .f32⟩ : BufTy).Contents (Elt F) :=
  ((broadcastInDim S4x1x1 ![0] bcast_S4_S4x1x1_0 : (⟨S4, .f32⟩ : BufTy).Contents (Elt F) → (⟨S4x1x1, .f32⟩ : BufTy).Contents (Elt F)) ((Host.divf : (⟨S4, .f32⟩ : BufTy).Contents (Elt F) → (⟨S4, .f32⟩ : BufTy).Contents (Elt F) → (⟨S4, .f32⟩ : BufTy).Contents (Elt F)) ((broadcastInDim S4 ![] bcast_S_S4 : (⟨S_, .f32⟩ : BufTy).Contents (Elt F) → (⟨S4, .f32⟩ : BufTy).Contents (Elt F)) ((constant S_ .f32 0x3F800000#32))) tr))

/-- The covariance scaled to unit trace. -/
def kSn (S : (⟨S4x64x64, .f32⟩ : BufTy).Contents (Elt F)) (r : (⟨S4x1x1, .f32⟩ : BufTy).Contents (Elt F)) : (⟨S4x64x64, .f32⟩ : BufTy).Contents (Elt F) :=
  ((mulf : (⟨S4x64x64, .f32⟩ : BufTy).Contents (Elt F) → (⟨S4x64x64, .f32⟩ : BufTy).Contents (Elt F) → (⟨S4x64x64, .f32⟩ : BufTy).Contents (Elt F)) S ((broadcastInDim S4x64x64 ![0, 1, 2] bcast_S4x1x1_S4x64x64_0_1_2 : (⟨S4x1x1, .f32⟩ : BufTy).Contents (Elt F) → (⟨S4x64x64, .f32⟩ : BufTy).Contents (Elt F)) r))

/-- The iteration's start: the identity in every group. -/
def kP0 (eye1 : (⟨S1x64x64, .f32⟩ : BufTy).Contents (Elt F)) : (⟨S4x64x64, .f32⟩ : BufTy).Contents (Elt F) :=
  ((broadcastInDim S4x64x64 ![0, 1, 2] bcast_S1x64x64_S4x64x64_0_1_2 : (⟨S1x64x64, .f32⟩ : BufTy).Contents (Elt F) → (⟨S4x64x64, .f32⟩ : BufTy).Contents (Elt F)) eye1)

/-- One step of the iteration: 3/2 · P − 1/2 · P³ · Sn. -/
def kNs (P : (⟨S4x64x64, .f32⟩ : BufTy).Contents (Elt F)) (Sn : (⟨S4x64x64, .f32⟩ : BufTy).Contents (Elt F)) : (⟨S4x64x64, .f32⟩ : BufTy).Contents (Elt F) :=
  ((subf : (⟨S4x64x64, .f32⟩ : BufTy).Contents (Elt F) → (⟨S4x64x64, .f32⟩ : BufTy).Contents (Elt F) → (⟨S4x64x64, .f32⟩ : BufTy).Contents (Elt F)) ((mulf : (⟨S4x64x64, .f32⟩ : BufTy).Contents (Elt F) → (⟨S4x64x64, .f32⟩ : BufTy).Contents (Elt F) → (⟨S4x64x64, .f32⟩ : BufTy).Contents (Elt F)) ((broadcastInDim S4x64x64 ![] bcast_S_S4x64x64 : (⟨S_, .f32⟩ : BufTy).Contents (Elt F) → (⟨S4x64x64, .f32⟩ : BufTy).Contents (Elt F)) ((constant S_ .f32 0x3FC00000#32))) P) ((mulf : (⟨S4x64x64, .f32⟩ : BufTy).Contents (Elt F) → (⟨S4x64x64, .f32⟩ : BufTy).Contents (Elt F) → (⟨S4x64x64, .f32⟩ : BufTy).Contents (Elt F)) ((broadcastInDim S4x64x64 ![] bcast_S_S4x64x64 : (⟨S_, .f32⟩ : BufTy).Contents (Elt F) → (⟨S4x64x64, .f32⟩ : BufTy).Contents (Elt F)) ((constant S_ .f32 0x3F000000#32))) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) (((fun l r => Host.dotGeneral dot_S4x64x64_S4x64x64_S4x64x64_2_1_1_2_0_0 none l r) : (⟨S4x64x64, .f32⟩ : BufTy).Contents (Elt F) → (⟨S4x64x64, .f32⟩ : BufTy).Contents (Elt F) → (⟨S4x64x64, .f32⟩ : BufTy).Contents (Elt F)) P P) P) Sn)))

/-- The whitening matrix: the iterate times the square root of the reciprocal trace. -/
def kWm (P : (⟨S4x64x64, .f32⟩ : BufTy).Contents (Elt F)) (r : (⟨S4x1x1, .f32⟩ : BufTy).Contents (Elt F)) : (⟨S4x64x64, .f32⟩ : BufTy).Contents (Elt F) :=
  ((mulf : (⟨S4x64x64, .f32⟩ : BufTy).Contents (Elt F) → (⟨S4x64x64, .f32⟩ : BufTy).Contents (Elt F) → (⟨S4x64x64, .f32⟩ : BufTy).Contents (Elt F)) P ((broadcastInDim S4x64x64 ![0, 1, 2] bcast_S4x1x1_S4x64x64_0_1_2 : (⟨S4x1x1, .f32⟩ : BufTy).Contents (Elt F) → (⟨S4x64x64, .f32⟩ : BufTy).Contents (Elt F)) ((Host.sqrt : (⟨S4x1x1, .f32⟩ : BufTy).Contents (Elt F) → (⟨S4x1x1, .f32⟩ : BufTy).Contents (Elt F)) r)))

/-- A per-channel parameter as one row. -/
def kRow (a : (⟨S1x256x1x1, .f32⟩ : BufTy).Contents (Elt F)) : (⟨S1x256, .f32⟩ : BufTy).Contents (Elt F) :=
  (shapeCast S1x256 a shapeCasts_S1x256x1x1_S1x256)

set_option maxHeartbeats 4000000 in
theorem K1_v3 (W : Valuation τ sig (Elt F)) :
    after hostOps1 W (main_v3 : DevRef τ sig) = kMean (W (main_v1_0 : DevRef τ sig)) := by
  after_results_simp <;> rfl

set_option maxHeartbeats 4000000 in
theorem K1_v10 (W : Valuation τ sig (Elt F)) :
    after hostOps1 W (main_v10 : DevRef τ sig) = kEye1 kEye := by
  after_results_simp <;> rfl

set_option maxHeartbeats 4000000 in
theorem K1_v22 (W : Valuation τ sig (Elt F)) :
    after hostOps1 W (main_v22 : DevRef τ sig) = kSigma (kMean (W (main_v1_0 : DevRef τ sig))) (kEye1 kEye) (W (main_v1_1 : DevRef τ sig)) := by
  after_results_simp <;> rfl

set_option maxHeartbeats 4000000 in
theorem K1_keeps_v0 (W : Valuation τ sig (Elt F)) :
    after hostOps1 W (main_v0 : DevRef τ sig) = W (main_v0 : DevRef τ sig) := by
  after_results_simp <;> rfl

set_option maxHeartbeats 4000000 in
theorem K1_keeps_arg1 (W : Valuation τ sig (Elt F)) :
    after hostOps1 W (main_arg1 : DevRef τ sig) = W (main_arg1 : DevRef τ sig) := by
  after_results_simp <;> rfl

set_option maxHeartbeats 4000000 in
theorem K1_keeps_arg2 (W : Valuation τ sig (Elt F)) :
    after hostOps1 W (main_arg2 : DevRef τ sig) = W (main_arg2 : DevRef τ sig) := by
  after_results_simp <;> rfl

theorem K2_v23 (W : Valuation τ sig (Elt F)) :
    after hostOps1_1 W (main_v23 : DevRef τ sig) = kTrace (W (main_v22 : DevRef τ sig)) := by
  after_results_simp <;> rfl

theorem K2_keeps_v22 (W : Valuation τ sig (Elt F)) :
    after hostOps1_1 W (main_v22 : DevRef τ sig) = W (main_v22 : DevRef τ sig) := by
  after_results_simp <;> rfl

theorem K2_keeps_v10 (W : Valuation τ sig (Elt F)) :
    after hostOps1_1 W (main_v10 : DevRef τ sig) = W (main_v10 : DevRef τ sig) := by
  after_results_simp <;> rfl

theorem K2_keeps_v0 (W : Valuation τ sig (Elt F)) :
    after hostOps1_1 W (main_v0 : DevRef τ sig) = W (main_v0 : DevRef τ sig) := by
  after_results_simp <;> rfl

theorem K2_keeps_v3 (W : Valuation τ sig (Elt F)) :
    after hostOps1_1 W (main_v3 : DevRef τ sig) = W (main_v3 : DevRef τ sig) := by
  after_results_simp <;> rfl

theorem K2_keeps_arg1 (W : Valuation τ sig (Elt F)) :
    after hostOps1_1 W (main_arg1 : DevRef τ sig) = W (main_arg1 : DevRef τ sig) := by
  after_results_simp <;> rfl

theorem K2_keeps_arg2 (W : Valuation τ sig (Elt F)) :
    after hostOps1_1 W (main_arg2 : DevRef τ sig) = W (main_arg2 : DevRef τ sig) := by
  after_results_simp <;> rfl

theorem E_v26 (W : Valuation τ sig (Elt F)) :
    after kOpsE W (main_v26 : DevRef τ sig) = kR (W (main_v23 : DevRef τ sig)) := by
  after_results <;> rfl

theorem E_v28 (W : Valuation τ sig (Elt F)) :
    after kOpsE W (main_v28 : DevRef τ sig) = kSn (W (main_v22 : DevRef τ sig)) (kR (W (main_v23 : DevRef τ sig))) := by
  after_results <;> rfl

theorem E_v29 (W : Valuation τ sig (Elt F)) :
    after kOpsE W (main_v29 : DevRef τ sig) = kP0 (W (main_v10 : DevRef τ sig)) := by
  after_results <;> rfl

theorem E_keeps_v0 (W : Valuation τ sig (Elt F)) :
    after kOpsE W (main_v0 : DevRef τ sig) = W (main_v0 : DevRef τ sig) := by
  after_results <;> rfl

theorem E_keeps_v3 (W : Valuation τ sig (Elt F)) :
    after kOpsE W (main_v3 : DevRef τ sig) = W (main_v3 : DevRef τ sig) := by
  after_results <;> rfl

theorem E_keeps_arg1 (W : Valuation τ sig (Elt F)) :
    after kOpsE W (main_arg1 : DevRef τ sig) = W (main_arg1 : DevRef τ sig) := by
  after_results <;> rfl

theorem E_keeps_arg2 (W : Valuation τ sig (Elt F)) :
    after kOpsE W (main_arg2 : DevRef τ sig) = W (main_arg2 : DevRef τ sig) := by
  after_results <;> rfl

theorem N1_v37 (W : Valuation τ sig (Elt F)) :
    after kOpsN1 W (main_v37 : DevRef τ sig) = kNs (W (main_v29 : DevRef τ sig)) (W (main_v28 : DevRef τ sig)) := by
  after_results <;> rfl

theorem N1_keeps_v28 (W : Valuation τ sig (Elt F)) :
    after kOpsN1 W (main_v28 : DevRef τ sig) = W (main_v28 : DevRef τ sig) := by
  after_results <;> rfl

theorem N1_keeps_v26 (W : Valuation τ sig (Elt F)) :
    after kOpsN1 W (main_v26 : DevRef τ sig) = W (main_v26 : DevRef τ sig) := by
  after_results <;> rfl

theorem N1_keeps_v0 (W : Valuation τ sig (Elt F)) :
    after kOpsN1 W (main_v0 : DevRef τ sig) = W (main_v0 : DevRef τ sig) := by
  after_results <;> rfl

theorem N1_keeps_v3 (W : Valuation τ sig (Elt F)) :
    after kOpsN1 W (main_v3 : DevRef τ sig) = W (main_v3 : DevRef τ sig) := by
  after_results <;> rfl

theorem N1_keeps_arg1 (W : Valuation τ sig (Elt F)) :
    after kOpsN1 W (main_arg1 : DevRef τ sig) = W (main_arg1 : DevRef τ sig) := by
  after_results <;> rfl

theorem N1_keeps_arg2 (W : Valuation τ sig (Elt F)) :
    after kOpsN1 W (main_arg2 : DevRef τ sig) = W (main_arg2 : DevRef τ sig) := by
  after_results <;> rfl

theorem N2_v45 (W : Valuation τ sig (Elt F)) :
    after kOpsN2 W (main_v45 : DevRef τ sig) = kNs (W (main_v37 : DevRef τ sig)) (W (main_v28 : DevRef τ sig)) := by
  after_results <;> rfl

theorem N2_keeps_v28 (W : Valuation τ sig (Elt F)) :
    after kOpsN2 W (main_v28 : DevRef τ sig) = W (main_v28 : DevRef τ sig) := by
  after_results <;> rfl

theorem N2_keeps_v26 (W : Valuation τ sig (Elt F)) :
    after kOpsN2 W (main_v26 : DevRef τ sig) = W (main_v26 : DevRef τ sig) := by
  after_results <;> rfl

theorem N2_keeps_v0 (W : Valuation τ sig (Elt F)) :
    after kOpsN2 W (main_v0 : DevRef τ sig) = W (main_v0 : DevRef τ sig) := by
  after_results <;> rfl

theorem N2_keeps_v3 (W : Valuation τ sig (Elt F)) :
    after kOpsN2 W (main_v3 : DevRef τ sig) = W (main_v3 : DevRef τ sig) := by
  after_results <;> rfl

theorem N2_keeps_arg1 (W : Valuation τ sig (Elt F)) :
    after kOpsN2 W (main_arg1 : DevRef τ sig) = W (main_arg1 : DevRef τ sig) := by
  after_results <;> rfl

theorem N2_keeps_arg2 (W : Valuation τ sig (Elt F)) :
    after kOpsN2 W (main_arg2 : DevRef τ sig) = W (main_arg2 : DevRef τ sig) := by
  after_results <;> rfl

theorem N3_v53 (W : Valuation τ sig (Elt F)) :
    after kOpsN3 W (main_v53 : DevRef τ sig) = kNs (W (main_v45 : DevRef τ sig)) (W (main_v28 : DevRef τ sig)) := by
  after_results <;> rfl

theorem N3_keeps_v28 (W : Valuation τ sig (Elt F)) :
    after kOpsN3 W (main_v28 : DevRef τ sig) = W (main_v28 : DevRef τ sig) := by
  after_results <;> rfl

theorem N3_keeps_v26 (W : Valuation τ sig (Elt F)) :
    after kOpsN3 W (main_v26 : DevRef τ sig) = W (main_v26 : DevRef τ sig) := by
  after_results <;> rfl

theorem N3_keeps_v0 (W : Valuation τ sig (Elt F)) :
    after kOpsN3 W (main_v0 : DevRef τ sig) = W (main_v0 : DevRef τ sig) := by
  after_results <;> rfl

theorem N3_keeps_v3 (W : Valuation τ sig (Elt F)) :
    after kOpsN3 W (main_v3 : DevRef τ sig) = W (main_v3 : DevRef τ sig) := by
  after_results <;> rfl

theorem N3_keeps_arg1 (W : Valuation τ sig (Elt F)) :
    after kOpsN3 W (main_arg1 : DevRef τ sig) = W (main_arg1 : DevRef τ sig) := by
  after_results <;> rfl

theorem N3_keeps_arg2 (W : Valuation τ sig (Elt F)) :
    after kOpsN3 W (main_arg2 : DevRef τ sig) = W (main_arg2 : DevRef τ sig) := by
  after_results <;> rfl

theorem N4_v61 (W : Valuation τ sig (Elt F)) :
    after kOpsN4 W (main_v61 : DevRef τ sig) = kNs (W (main_v53 : DevRef τ sig)) (W (main_v28 : DevRef τ sig)) := by
  after_results <;> rfl

theorem N4_keeps_v28 (W : Valuation τ sig (Elt F)) :
    after kOpsN4 W (main_v28 : DevRef τ sig) = W (main_v28 : DevRef τ sig) := by
  after_results <;> rfl

theorem N4_keeps_v26 (W : Valuation τ sig (Elt F)) :
    after kOpsN4 W (main_v26 : DevRef τ sig) = W (main_v26 : DevRef τ sig) := by
  after_results <;> rfl

theorem N4_keeps_v0 (W : Valuation τ sig (Elt F)) :
    after kOpsN4 W (main_v0 : DevRef τ sig) = W (main_v0 : DevRef τ sig) := by
  after_results <;> rfl

theorem N4_keeps_v3 (W : Valuation τ sig (Elt F)) :
    after kOpsN4 W (main_v3 : DevRef τ sig) = W (main_v3 : DevRef τ sig) := by
  after_results <;> rfl

theorem N4_keeps_arg1 (W : Valuation τ sig (Elt F)) :
    after kOpsN4 W (main_arg1 : DevRef τ sig) = W (main_arg1 : DevRef τ sig) := by
  after_results <;> rfl

theorem N4_keeps_arg2 (W : Valuation τ sig (Elt F)) :
    after kOpsN4 W (main_arg2 : DevRef τ sig) = W (main_arg2 : DevRef τ sig) := by
  after_results <;> rfl

theorem N5_v69 (W : Valuation τ sig (Elt F)) :
    after kOpsN5 W (main_v69 : DevRef τ sig) = kNs (W (main_v61 : DevRef τ sig)) (W (main_v28 : DevRef τ sig)) := by
  after_results <;> rfl

theorem N5_keeps_v26 (W : Valuation τ sig (Elt F)) :
    after kOpsN5 W (main_v26 : DevRef τ sig) = W (main_v26 : DevRef τ sig) := by
  after_results <;> rfl

theorem N5_keeps_v0 (W : Valuation τ sig (Elt F)) :
    after kOpsN5 W (main_v0 : DevRef τ sig) = W (main_v0 : DevRef τ sig) := by
  after_results <;> rfl

theorem N5_keeps_v3 (W : Valuation τ sig (Elt F)) :
    after kOpsN5 W (main_v3 : DevRef τ sig) = W (main_v3 : DevRef τ sig) := by
  after_results <;> rfl

theorem N5_keeps_arg1 (W : Valuation τ sig (Elt F)) :
    after kOpsN5 W (main_arg1 : DevRef τ sig) = W (main_arg1 : DevRef τ sig) := by
  after_results <;> rfl

theorem N5_keeps_arg2 (W : Valuation τ sig (Elt F)) :
    after kOpsN5 W (main_arg2 : DevRef τ sig) = W (main_arg2 : DevRef τ sig) := by
  after_results <;> rfl

theorem G_v72 (W : Valuation τ sig (Elt F)) :
    after kOpsG W (main_v72 : DevRef τ sig) = kWm (W (main_v69 : DevRef τ sig)) (W (main_v26 : DevRef τ sig)) := by
  after_results <;> rfl

theorem G_keeps_v0 (W : Valuation τ sig (Elt F)) :
    after kOpsG W (main_v0 : DevRef τ sig) = W (main_v0 : DevRef τ sig) := by
  after_results <;> rfl

theorem G_keeps_v3 (W : Valuation τ sig (Elt F)) :
    after kOpsG W (main_v3 : DevRef τ sig) = W (main_v3 : DevRef τ sig) := by
  after_results <;> rfl

theorem G_keeps_arg1 (W : Valuation τ sig (Elt F)) :
    after kOpsG W (main_arg1 : DevRef τ sig) = W (main_arg1 : DevRef τ sig) := by
  after_results <;> rfl

theorem G_keeps_arg2 (W : Valuation τ sig (Elt F)) :
    after kOpsG W (main_arg2 : DevRef τ sig) = W (main_arg2 : DevRef τ sig) := by
  after_results <;> rfl

theorem H_v73 (W : Valuation τ sig (Elt F)) :
    after kOpsH W (main_v73 : DevRef τ sig) = kRow (W (main_arg1 : DevRef τ sig)) := by
  after_results <;> rfl

theorem H_v74 (W : Valuation τ sig (Elt F)) :
    after kOpsH W (main_v74 : DevRef τ sig) = kRow (W (main_arg2 : DevRef τ sig)) := by
  after_results <;> rfl

theorem H_keeps_v0 (W : Valuation τ sig (Elt F)) :
    after kOpsH W (main_v0 : DevRef τ sig) = W (main_v0 : DevRef τ sig) := by
  after_results <;> rfl

theorem H_keeps_v3 (W : Valuation τ sig (Elt F)) :
    after kOpsH W (main_v3 : DevRef τ sig) = W (main_v3 : DevRef τ sig) := by
  after_results <;> rfl

theorem H_keeps_v72 (W : Valuation τ sig (Elt F)) :
    after kOpsH W (main_v72 : DevRef τ sig) = W (main_v72 : DevRef τ sig) := by
  after_results <;> rfl

end Cert.KernelIdeal.Stages

end
-- ==== Proof.KerValue.lean ====
/-
  What the second region finds in its five input arrays, as functions of what the first region left and of the launch
  contents: the activations as launched (one reshape), the channel means, the whitening matrix — the covariance
  normalised by its trace, five steps of the iteration from the identity, scaled back —, and the weight and the bias as
  rows.
-/
import proofs.«125822_j37185826849259_1_alg».proof.Proof.KerStages
import proofs.«125822_j37185826849259_1_alg».proof.Proof.Gen.KernelIdeal.Frame
import Idealize.ShloMosaic.Lib.Pipeline.Value

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The whitening matrix computed from a covariance `S`: normalise by the trace, iterate five times from the identity,
    scale back by the square root of the reciprocal trace. -/
def kerTail (S : (⟨S4x64x64, .f32⟩ : BufTy).Contents (Elt F)) : (⟨S4x64x64, .f32⟩ : BufTy).Contents (Elt F) :=
  kWm (kNs (kNs (kNs (kNs (kNs (kP0 (kEye1 kEye)) (kSn S (kR (kTrace S)))) (kSn S (kR (kTrace S)))) (kSn S (kR (kTrace S)))) (kSn S (kR (kTrace S)))) (kSn S (kR (kTrace S)))) (kR (kTrace S))

variable (m : (ℓ : Loc nD τ sig) → Buf (Elt F) ℓ) (ρ : Dev nD → PrngReg)

/-- The three stretches between the regions, read at the second region's arrays. -/
theorem W5_v0 (c : Dev nD) : W5 m ρ c (main_v0 : DevRef τ sig) = W2 m ρ c (main_v0 : DevRef τ sig) := by
  show after hostOps1_2 (after hostOps1_1 (after hostOps1 (W2 m ρ c))) _ = _
  rw [hostOps1_2_eq]
  simp only [StableHlo.after_append]
  rw [H_keeps_v0]
  rw [G_keeps_v0]
  rw [N5_keeps_v0]
  rw [N4_keeps_v0]
  rw [N3_keeps_v0]
  rw [N2_keeps_v0]
  rw [N1_keeps_v0]
  rw [E_keeps_v0]
  rw [K2_keeps_v0]
  rw [K1_keeps_v0]
theorem W5_v3 (c : Dev nD) : W5 m ρ c (main_v3 : DevRef τ sig) = kMean (W2 m ρ c (main_v1_0 : DevRef τ sig)) := by
  show after hostOps1_2 (after hostOps1_1 (after hostOps1 (W2 m ρ c))) _ = _
  rw [hostOps1_2_eq]
  simp only [StableHlo.after_append]
  rw [H_keeps_v3]
  rw [G_keeps_v3]
  rw [N5_keeps_v3]
  rw [N4_keeps_v3]
  rw [N3_keeps_v3]
  rw [N2_keeps_v3]
  rw [N1_keeps_v3]
  rw [E_keeps_v3]
  rw [K2_keeps_v3]
  rw [K1_v3]
theorem W5_v72 (c : Dev nD) : W5 m ρ c (main_v72 : DevRef τ sig)
    = kerTail (kSigma (kMean (W2 m ρ c (main_v1_0 : DevRef τ sig))) (kEye1 kEye) (W2 m ρ c (main_v1_1 : DevRef τ sig))) := by
  show after hostOps1_2 (after hostOps1_1 (after hostOps1 (W2 m ρ c))) _ = _
  rw [hostOps1_2_eq]
  simp only [StableHlo.after_append]
  rw [H_keeps_v72]
  rw [G_v72]
  rw [N5_v69, N5_keeps_v26]
  rw [N4_v61, N4_keeps_v28, N4_keeps_v26]
  rw [N3_v53, N3_keeps_v28, N3_keeps_v26]
  rw [N2_v45, N2_keeps_v28, N2_keeps_v26]
  rw [N1_v37, N1_keeps_v28, N1_keeps_v26]
  rw [E_v29, E_v28, E_v26]
  rw [K2_keeps_v10, K2_keeps_v22, K2_v23]
  rw [K1_v10, K1_v22]
  rfl
theorem W5_v73 (c : Dev nD) : W5 m ρ c (main_v73 : DevRef τ sig) = kRow (W2 m ρ c (main_arg1 : DevRef τ sig)) := by
  show after hostOps1_2 (after hostOps1_1 (after hostOps1 (W2 m ρ c))) _ = _
  rw [hostOps1_2_eq]
  simp only [StableHlo.after_append]
  rw [H_v73]
  rw [G_keeps_arg1]
  rw [N5_keeps_arg1]
  rw [N4_keeps_arg1]
  rw [N3_keeps_arg1]
  rw [N2_keeps_arg1]
  rw [N1_keeps_arg1]
  rw [E_keeps_arg1]
  rw [K2_keeps_arg1]
  rw [K1_keeps_arg1]
theorem W5_v74 (c : Dev nD) : W5 m ρ c (main_v74 : DevRef τ sig) = kRow (W2 m ρ c (main_arg2 : DevRef τ sig)) := by
  show after hostOps1_2 (after hostOps1_1 (after hostOps1 (W2 m ρ c))) _ = _
  rw [hostOps1_2_eq]
  simp only [StableHlo.after_append]
  rw [H_v74]
  rw [G_keeps_arg2]
  rw [N5_keeps_arg2]
  rw [N4_keeps_arg2]
  rw [N3_keeps_arg2]
  rw [N2_keeps_arg2]
  rw [N1_keeps_arg2]
  rw [E_keeps_arg2]
  rw [K2_keeps_arg2]
  rw [K1_keeps_arg2]

/-- What the first region leaves: its two outputs at the folded write-backs, its input and the other buffers as entered. -/
theorem W2_s1 (c : Dev nD) : W2 m ρ c (main_v1_0 : DevRef τ sig) = (dat0 (V1 m ρ) c).arrAt 1 cfg0.N := W2_arr m ρ c 1
theorem W2_s2 (c : Dev nD) : W2 m ρ c (main_v1_1 : DevRef τ sig) = (dat0 (V1 m ρ) c).arrAt 2 cfg0.N := W2_arr m ρ c 2
theorem W2_x (c : Dev nD) : W2 m ρ c (main_v0 : DevRef τ sig) = W1 m ρ c (main_v0 : DevRef τ sig) :=
  (W2_arr m ρ c 0).trans ((Pipeline.Dat.arrAt_in (dat := dat0 (V1 m ρ) c) 0 rfl cfg0.N).trans (A_eq0 (V1 m ρ) c 0))
theorem W2_arg1 (c : Dev nD) : W2 m ρ c (main_arg1 : DevRef τ sig) = m ((c : Thread nD τ).loc main_arg1) :=
  (W2_of_ne m ρ c main_arg1 (by decide)).trans (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
theorem W2_arg2 (c : Dev nD) : W2 m ρ c (main_arg2 : DevRef τ sig) = m ((c : Thread nD τ).loc main_arg2) :=
  (W2_of_ne m ρ c main_arg2 (by decide)).trans (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
/-- The activations as the regions read them: the argument with its two spatial axes merged. -/
theorem W1_x (c : Dev nD) : W1 m ρ c (main_v0 : DevRef τ sig)
    = shapeCast S128x256x1024 (m ((c : Thread nD τ).loc main_arg0)) Facts₀.shapeCasts_S128x256x32x32_S128x256x1024 := by
  show after hostOps0 (W0 m ρ c) _ = _
  after_results <;> rfl
/-- The result: the second region's output with the spatial axis split again. -/
theorem W7_result (c : Dev nD) : W7 m ρ c (main_v76 : DevRef τ sig)
    = shapeCast S128x256x32x32 ((dat1 (V5 m ρ) c).arrAt 5 cfg1.N) Facts₀.shapeCasts_S128x256x1024_S128x256x32x32 := by
  show after hostOps2 (W6 m ρ c) _ = _
  after_results
  rw [W6_arr m ρ c 5] <;> rfl

end Cert.KernelIdeal.Stages

end
-- ==== Proof.Chan.lean ====
/-
  The channel axis of the activations has 256 entries, read as 4 groups of 64: channel `g · 64 + d` is entry `d` of group `g`.
-/
import Idealize.ShloMosaic.Lib.ValueIdx

namespace Cert.Whiten

/-- Entry `d` of group `g` on the channel axis. -/
def ch (g : Fin 4) (d : Fin 64) : Fin 256 := ⟨g.val * 64 + d.val, by have := g.isLt; have := d.isLt; omega⟩

theorem ch_val (g : Fin 4) (d : Fin 64) : (ch g d).val = g.val * 64 + d.val := rfl

end Cert.Whiten
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Layout.lean ====
/-
  Two layouts of one array. The activations are a [128, 256, 32, 32] array (batch, channel, row, column). One program
  merges the two spatial axes into 1024 positions and keeps the batch first; the other puts the channel first, cuts the
  256 channels into 4 groups of 64 and merges batch and space into 131072 = 128 · 1024 places, batch-major. Entry
  (batch b, channel g·64+d, position k) of the first is entry (group g, channel d, place b·1024+k) of the second, and
  both are entry (b, g·64+d, k / 32, k % 32) of the array itself. The per-channel parameters are a [1, 256, 1, 1] array,
  read as a row or broadcast over the whole shape.
-/
import proofs.«125822_j37185826849259_1_alg».proof.Proof.Chan
import proofs.«125822_j37185826849259_1_alg».proof.Proof.LibSumSplit
import Idealize.ShloMosaic.Lib.Pipeline.Value
import Idealize.ShloMosaic.Lib.ValueIdx

noncomputable section

namespace Cert.Whiten

open Idealize.ShloMosaic Idealize.ShloMosaic.ValueIdx Cert.PointDist

abbrev T4 : Shape := ⟨4, ![128, 256, 32, 32]⟩
abbrev T4c : Shape := ⟨4, ![256, 128, 32, 32]⟩
abbrev T3 : Shape := ⟨3, ![128, 256, 1024]⟩
abbrev G3 : Shape := ⟨3, ![4, 64, 131072]⟩
abbrev P4 : Shape := ⟨4, ![1, 256, 1, 1]⟩
abbrev P2 : Shape := ⟨2, ![1, 256]⟩

/-- The row of position `k` in the 32 × 32 image. -/
def hh (k : Fin 1024) : Fin 32 := ⟨k.val / 32, by have := k.isLt; omega⟩
/-- The column of position `k`. -/
def ww (k : Fin 1024) : Fin 32 := ⟨k.val % 32, Nat.mod_lt _ (by norm_num)⟩
/-- Batch `b`, channel `c`, position `k` as an index of the activations. -/
def jx (b : Fin 128) (c : Fin 256) (k : Fin 1024) : T4.Idx := ix4 b c (hh k) (ww k)
/-- The same with the channel first. -/
def jc (b : Fin 128) (c : Fin 256) (k : Fin 1024) : T4c.Idx := ix4 c b (hh k) (ww k)
/-- Position `k` of batch `b` among the 131072 places of a channel. -/
def pos (b : Fin 128) (k : Fin 1024) : Fin 131072 := tileIdx (by norm_num : 128 * 1024 = 131072) b k

theorem pos_val (b : Fin 128) (k : Fin 1024) : (pos b k).val = b.val * 1024 + k.val := rfl

/-- Every index of the activations is batch, group, channel in the group, position. -/
theorem exists_jx (j : T4.Idx) : ∃ (b : Fin 128) (g : Fin 4) (d : Fin 64) (k : Fin 1024), j = jx b (ch g d) k := by
  have h1 : (j 1).val < 256 := (j 1).isLt
  have h2 : (j 2).val < 32 := (j 2).isLt
  have h3 : (j 3).val < 32 := (j 3).isLt
  refine ⟨j 0, ⟨(j 1).val / 64, by omega⟩, ⟨(j 1).val % 64, by omega⟩, ⟨(j 2).val * 32 + (j 3).val, by omega⟩, ?_⟩
  funext a; apply Fin.ext
  match a with
  | ⟨0, _⟩ => rfl
  | ⟨1, _⟩ => show (j 1).val = (j 1).val / 64 * 64 + (j 1).val % 64; omega
  | ⟨2, _⟩ => show (j 2).val = ((j 2).val * 32 + (j 3).val) / 32; omega
  | ⟨3, _⟩ => show (j 3).val = ((j 2).val * 32 + (j 3).val) % 32; omega

variable {α : Type}

/-- The activations with the spatial axes merged, read at (b, c, k). -/
theorem merged_apply (a0 : T4.Idx → α) (h : T4.ShapeCasts T3) (b : Fin 128) (c : Fin 256) (k : Fin 1024) :
    shapeCast T3 a0 h (ix3 b c k) = a0 (jx b c k) := by
  refine shapeCast_apply a0 h (ix3 b c k) (jx b c k) ?_
  rw [Shape.rowMajor_val_four, Shape.rowMajor_val_three]
  show ((b.val * 256 + c.val) * 32 + k.val / 32) * 32 + k.val % 32 = (b.val * 256 + c.val) * 1024 + k.val
  omega

/-- The spatial axis split again, read at (b, c, k). -/
theorem split_apply (o : T3.Idx → α) (h : T3.ShapeCasts T4) (b : Fin 128) (c : Fin 256) (k : Fin 1024) :
    shapeCast T4 o h (jx b c k) = o (ix3 b c k) := by
  refine shapeCast_apply o h (jx b c k) (ix3 b c k) ?_
  rw [Shape.rowMajor_val_four, Shape.rowMajor_val_three]
  show (b.val * 256 + c.val) * 1024 + k.val = ((b.val * 256 + c.val) * 32 + k.val / 32) * 32 + k.val % 32
  omega

/-- Channel first, then groups of channels over all places: entry (g, d, place of (b, k)). -/
theorem grouped_apply (a0 : T4.Idx → α) (ht : T4.Transposes [1, 0, 2, 3] T4c) (h : T4c.ShapeCasts G3)
    (b : Fin 128) (g : Fin 4) (d : Fin 64) (k : Fin 1024) :
    shapeCast G3 (transpose T4c [1, 0, 2, 3] a0 ht) h (ix3 g d (pos b k)) = a0 (jx b (ch g d) k) := by
  rw [shapeCast_apply _ h (ix3 g d (pos b k)) (jc b (ch g d) k) (by
    rw [Shape.rowMajor_val_four, Shape.rowMajor_val_three]
    show (((g.val * 64 + d.val) * 128 + b.val) * 32 + k.val / 32) * 32 + k.val % 32 = (g.val * 64 + d.val) * 131072 + (b.val * 1024 + k.val)
    omega)]
  exact transpose_apply [1, 0, 2, 3] a0 ht (jc b (ch g d) k) (jx b (ch g d) k) (fun a => by
    match a with
    | ⟨0, _⟩ => rfl
    | ⟨1, _⟩ => rfl
    | ⟨2, _⟩ => rfl
    | ⟨3, _⟩ => rfl)

/-- The way back: groups over all places, to channel first, to batch first. -/
theorem ungrouped_apply (D : G3.Idx → α) (h : G3.ShapeCasts T4c) (ht : T4c.Transposes [1, 0, 2, 3] T4)
    (b : Fin 128) (g : Fin 4) (d : Fin 64) (k : Fin 1024) :
    transpose T4 [1, 0, 2, 3] (shapeCast T4c D h) ht (jx b (ch g d) k) = D (ix3 g d (pos b k)) := by
  rw [transpose_apply [1, 0, 2, 3] (shapeCast T4c D h) ht (jx b (ch g d) k) (jc b (ch g d) k) (fun a => by
    match a with
    | ⟨0, _⟩ => rfl
    | ⟨1, _⟩ => rfl
    | ⟨2, _⟩ => rfl
    | ⟨3, _⟩ => rfl)]
  refine shapeCast_apply D h (jc b (ch g d) k) (ix3 g d (pos b k)) ?_
  rw [Shape.rowMajor_val_four, Shape.rowMajor_val_three]
  show (g.val * 64 + d.val) * 131072 + (b.val * 1024 + k.val) = (((g.val * 64 + d.val) * 128 + b.val) * 32 + k.val / 32) * 32 + k.val % 32
  omega

/-- A per-channel parameter broadcast over the activations' shape reads the channel's entry. -/
theorem param_bcast_apply (a : P4.Idx → α) (h : P4.BroadcastsInDim T4 ![0, 1, 2, 3]) (b : Fin 128) (c : Fin 256) (k : Fin 1024) :
    broadcastInDim T4 ![0, 1, 2, 3] h a (jx b c k) = a (ix4 (0 : Fin 1) c (0 : Fin 1) (0 : Fin 1)) :=
  broadcastInDim_apply _ h a (jx b c k) _ (fun i => by
    match i with
    | ⟨0, _⟩ => rfl
    | ⟨1, _⟩ => rfl
    | ⟨2, _⟩ => rfl
    | ⟨3, _⟩ => rfl)

/-- A per-channel parameter as a row reads the channel's entry. -/
theorem param_row_apply (a : P4.Idx → α) (h : P4.ShapeCasts P2) (c : Fin 256) :
    shapeCast P2 a h (ix2 (0 : Fin 1) c) = a (ix4 (0 : Fin 1) c (0 : Fin 1) (0 : Fin 1)) := by
  refine shapeCast_apply a h _ _ ?_
  rw [Shape.rowMajor_val_four, Shape.rowMajor_val_two]
  show ((0 * 256 + c.val) * 1 + 0) * 1 + 0 = 0 * 256 + c.val
  omega

end Cert.Whiten

end
-- ==== Proof.LibReduceLast.lean ====
/-
  A host sum over the last axis of a rank-3 array.

  A host sum of an `[a, n, m]` array of extended reals over its last axis, read at `(j, i)`, is the initial value plus the
  sum over the reduced coordinate (`hostReduceAdd_last`): the indices that reduce to `(j, i)` are exactly the `(j, i, l)`.
-/
import Idealize.ShloMosaic.Lib.ValueIdx
import Idealize.ShloMosaic.PureOps.Ideal.Laws
import Idealize.ShloMosaic.PureOps.Reduce

noncomputable section

namespace Cert.Whiten

open Idealize.ShloMosaic Idealize.ShloMosaic.ValueIdx

/-- The host's sum of an `[a, n, m]` array of extended reals over its last axis, at `(j, i)`: the initial value plus the
    sum over the reduced coordinate. -/
theorem hostReduceAdd_last {a n m : ℕ} (h : (⟨3, ![a, n, m]⟩ : Shape).ReducesTo [2] (⟨2, ![a, n]⟩ : Shape))
    (x : (⟨3, ![a, n, m]⟩ : Shape).Idx → EReal) (init : EReal) (j : Fin a) (i : Fin n) :
    Ideal.hostReduceAdd h x init (ix2 j i) = init + ∑ l : Fin m, x (ix3 j i l) := by
  unfold Ideal.hostReduceAdd
  refine congrArg (init + ·) ?_
  have hdrop0 : ∀ q : (⟨3, ![a, n, m]⟩ : Shape).Idx, ((h.drop q) 0).val = (q 0).val := fun q => rfl
  have hdrop1 : ∀ q : (⟨3, ![a, n, m]⟩ : Shape).Idx, ((h.drop q) 1).val = (q 1).val := fun q => rfl
  have hleft : ∀ q ∈ Finset.univ.filter (fun q => h.drop q = ix2 j i), ix3 j i (q 2) = q := by
    intro q hq
    have hj := (Finset.mem_filter.1 hq).2
    have h0 : (q 0).val = j.val :=
      (hdrop0 q).symm.trans (congrArg (fun y : (⟨2, ![a, n]⟩ : Shape).Idx => (y 0).val) hj)
    have h1 : (q 1).val = i.val :=
      (hdrop1 q).symm.trans (congrArg (fun y : (⟨2, ![a, n]⟩ : Shape).Idx => (y 1).val) hj)
    funext c; apply Fin.ext
    match c with
    | ⟨0, _⟩ => exact h0.symm
    | ⟨1, _⟩ => exact h1.symm
    | ⟨2, _⟩ => rfl
  refine Finset.sum_nbij' (fun q => q 2) (fun l => ix3 j i l) ?_ ?_ ?_ ?_ ?_
  · intro q _; exact Finset.mem_univ _
  · intro l _
    refine Finset.mem_filter.2 ⟨Finset.mem_univ _, ?_⟩
    funext b; apply Fin.ext
    match b with
    | ⟨0, _⟩ => exact hdrop0 _
    | ⟨1, _⟩ => exact hdrop1 _
  · intro q hq; exact hleft q hq
  · intro l _; rfl
  · intro q hq; exact congrArg x (hleft q hq).symm

end Cert.Whiten

end
-- ==== Proof.Read.lean ====
/-
  The pieces of both programs read at an index, on the extended reals: means as sums over all places divided by their
  number, the centred activations, the two covariances, and the two output formulas. A sum over the last axis of a
  rank-3 array and the two batched contractions of the reference are read as plain sums first.
-/
import proofs.«125822_j37185826849259_1_alg».proof.Proof.KerValue
import proofs.«125822_j37185826849259_1_alg».proof.Proof.RefValue
import proofs.«125822_j37185826849259_1_alg».proof.Proof.Layout
import proofs.«125822_j37185826849259_1_alg».proof.Proof.LibReduceLast
import Idealize.ShloMosaic.Lib.IdealHost
import Idealize.ShloMosaic.PureOps.Ideal.Laws

noncomputable section

namespace Cert.Whiten

open Idealize.ShloMosaic Idealize.ShloMosaic.ValueIdx Cert.PointDist
open Cert.KernelIdeal.Stages Cert.ReferenceIdeal.RefRun

/-- The number of places of a channel, 131072.0, as the programs spell it. -/
abbrev M32 : EReal := Ideal.ofBits .f32 0x48000000#32
/-- The regulariser, as the programs spell it. -/
abbrev E32 : EReal := Ideal.ofBits .f32 0x3727C5AC#32

/-! ## The reference's two batched contractions -/

/-- The Gram matrix of a group: channel `d` against channel `e`, summed over the places. -/
theorem gram_apply (l r : FVec Ideal Cert.ReferenceIdeal.S4x64x131072 .f32) (g : Fin 4) (d e : Fin 64) :
    Host.dotGeneral (F := Ideal) Cert.ReferenceIdeal.dot_S4x64x131072_S4x64x131072_S4x64x64_2_2_1_1_0_0 none l r (ix3 g d e)
      = ∑ p : Fin 131072, l (ix3 g d p) * r (ix3 g e p) := by
  show FloatOps.dotGeneral _ none .single l r (ix3 g d e) = _
  rw [Ideal.dotGeneral_apply]
  have l0 : ∀ c, ((Cert.ReferenceIdeal.dot_S4x64x131072_S4x64x131072_S4x64x64_2_2_1_1_0_0.lhsIdx (ix3 g d e) c) 0).val = g.val := fun c => by
    unfold DotDims.lhsIdx
    rw [dif_pos (show (0 : Fin Cert.ReferenceIdeal.S4x64x131072.rank) ∈ Cert.ReferenceIdeal.dot_S4x64x131072_S4x64x131072_S4x64x64_2_2_1_1_0_0.lhsBatch by decide)]
    rfl
  have l1 : ∀ c, ((Cert.ReferenceIdeal.dot_S4x64x131072_S4x64x131072_S4x64x64_2_2_1_1_0_0.lhsIdx (ix3 g d e) c) 1).val = d.val := fun c => by
    unfold DotDims.lhsIdx
    rw [dif_neg (show ¬(1 : Fin Cert.ReferenceIdeal.S4x64x131072.rank) ∈ Cert.ReferenceIdeal.dot_S4x64x131072_S4x64x131072_S4x64x64_2_2_1_1_0_0.lhsBatch by decide),
      dif_pos (show (1 : Fin Cert.ReferenceIdeal.S4x64x131072.rank) ∈ Cert.ReferenceIdeal.dot_S4x64x131072_S4x64x131072_S4x64x64_2_2_1_1_0_0.lhsNonContracting by decide)]
    rfl
  have l2 : ∀ c, ((Cert.ReferenceIdeal.dot_S4x64x131072_S4x64x131072_S4x64x64_2_2_1_1_0_0.lhsIdx (ix3 g d e) c) 2).val = (c ⟨0, by decide⟩).val := fun c =>
    Cert.ReferenceIdeal.dot_S4x64x131072_S4x64x131072_S4x64x64_2_2_1_1_0_0.lhsIdx_val_of_single rfl (ix3 g d e) c
  have r0 : ∀ c, ((Cert.ReferenceIdeal.dot_S4x64x131072_S4x64x131072_S4x64x64_2_2_1_1_0_0.rhsIdx (ix3 g d e) c) 0).val = g.val := fun c => by
    unfold DotDims.rhsIdx
    rw [dif_pos (show (0 : Fin Cert.ReferenceIdeal.S4x64x131072.rank) ∈ Cert.ReferenceIdeal.dot_S4x64x131072_S4x64x131072_S4x64x64_2_2_1_1_0_0.rhsBatch by decide)]
    rfl
  have r1 : ∀ c, ((Cert.ReferenceIdeal.dot_S4x64x131072_S4x64x131072_S4x64x64_2_2_1_1_0_0.rhsIdx (ix3 g d e) c) 1).val = e.val := fun c => by
    unfold DotDims.rhsIdx
    rw [dif_neg (show ¬(1 : Fin Cert.ReferenceIdeal.S4x64x131072.rank) ∈ Cert.ReferenceIdeal.dot_S4x64x131072_S4x64x131072_S4x64x64_2_2_1_1_0_0.rhsBatch by decide),
      dif_pos (show (1 : Fin Cert.ReferenceIdeal.S4x64x131072.rank) ∈ Cert.ReferenceIdeal.dot_S4x64x131072_S4x64x131072_S4x64x64_2_2_1_1_0_0.rhsNonContracting by decide)]
    rfl
  have r2 : ∀ c, ((Cert.ReferenceIdeal.dot_S4x64x131072_S4x64x131072_S4x64x64_2_2_1_1_0_0.rhsIdx (ix3 g d e) c) 2).val = (c ⟨0, by decide⟩).val := fun c =>
    Cert.ReferenceIdeal.dot_S4x64x131072_S4x64x131072_S4x64x64_2_2_1_1_0_0.rhsIdx_val_of_single rfl (ix3 g d e) c
  rw [← Equiv.sum_comp (contrEquiv1 Cert.ReferenceIdeal.dot_S4x64x131072_S4x64x131072_S4x64x64_2_2_1_1_0_0 131072 rfl rfl).symm]
  refine Finset.sum_congr rfl fun p _ => ?_
  have hp := contrEquiv1_symm_val Cert.ReferenceIdeal.dot_S4x64x131072_S4x64x131072_S4x64x64_2_2_1_1_0_0 131072 rfl rfl p
  have el : Cert.ReferenceIdeal.dot_S4x64x131072_S4x64x131072_S4x64x64_2_2_1_1_0_0.lhsIdx (ix3 g d e) ((contrEquiv1 Cert.ReferenceIdeal.dot_S4x64x131072_S4x64x131072_S4x64x64_2_2_1_1_0_0 131072 rfl rfl).symm p) = ix3 g d p := funext fun a => Fin.ext (by
    match a with
    | ⟨0, _⟩ => exact l0 _
    | ⟨1, _⟩ => exact l1 _
    | ⟨2, _⟩ => exact (l2 _).trans hp)
  have er : Cert.ReferenceIdeal.dot_S4x64x131072_S4x64x131072_S4x64x64_2_2_1_1_0_0.rhsIdx (ix3 g d e) ((contrEquiv1 Cert.ReferenceIdeal.dot_S4x64x131072_S4x64x131072_S4x64x64_2_2_1_1_0_0 131072 rfl rfl).symm p) = ix3 g e p := funext fun a => Fin.ext (by
    match a with
    | ⟨0, _⟩ => exact r0 _
    | ⟨1, _⟩ => exact r1 _
    | ⟨2, _⟩ => exact (r2 _).trans hp)
  rw [el, er]

/-- The whitening product of a group: row `d` of the matrix against the 64 channels at place `p`. -/
theorem whiten_apply (l : FVec Ideal Cert.ReferenceIdeal.S4x64x64 .f32) (r : FVec Ideal Cert.ReferenceIdeal.S4x64x131072 .f32) (g : Fin 4) (d : Fin 64) (p : Fin 131072) :
    Host.dotGeneral (F := Ideal) Cert.ReferenceIdeal.dot_S4x64x64_S4x64x131072_S4x64x131072_2_1_1_2_0_0 none l r (ix3 g d p)
      = ∑ e : Fin 64, l (ix3 g d e) * r (ix3 g e p) := by
  show FloatOps.dotGeneral _ none .single l r (ix3 g d p) = _
  rw [Ideal.dotGeneral_apply]
  have l0 : ∀ c, ((Cert.ReferenceIdeal.dot_S4x64x64_S4x64x131072_S4x64x131072_2_1_1_2_0_0.lhsIdx (ix3 g d p) c) 0).val = g.val := fun c => by
    unfold DotDims.lhsIdx
    rw [dif_pos (show (0 : Fin Cert.ReferenceIdeal.S4x64x64.rank) ∈ Cert.ReferenceIdeal.dot_S4x64x64_S4x64x131072_S4x64x131072_2_1_1_2_0_0.lhsBatch by decide)]
    rfl
  have l1 : ∀ c, ((Cert.ReferenceIdeal.dot_S4x64x64_S4x64x131072_S4x64x131072_2_1_1_2_0_0.lhsIdx (ix3 g d p) c) 1).val = d.val := fun c => by
    unfold DotDims.lhsIdx
    rw [dif_neg (show ¬(1 : Fin Cert.ReferenceIdeal.S4x64x64.rank) ∈ Cert.ReferenceIdeal.dot_S4x64x64_S4x64x131072_S4x64x131072_2_1_1_2_0_0.lhsBatch by decide),
      dif_pos (show (1 : Fin Cert.ReferenceIdeal.S4x64x64.rank) ∈ Cert.ReferenceIdeal.dot_S4x64x64_S4x64x131072_S4x64x131072_2_1_1_2_0_0.lhsNonContracting by decide)]
    rfl
  have l2 : ∀ c, ((Cert.ReferenceIdeal.dot_S4x64x64_S4x64x131072_S4x64x131072_2_1_1_2_0_0.lhsIdx (ix3 g d p) c) 2).val = (c ⟨0, by decide⟩).val := fun c =>
    Cert.ReferenceIdeal.dot_S4x64x64_S4x64x131072_S4x64x131072_2_1_1_2_0_0.lhsIdx_val_of_single rfl (ix3 g d p) c
  have r0 : ∀ c, ((Cert.ReferenceIdeal.dot_S4x64x64_S4x64x131072_S4x64x131072_2_1_1_2_0_0.rhsIdx (ix3 g d p) c) 0).val = g.val := fun c => by
    unfold DotDims.rhsIdx
    rw [dif_pos (show (0 : Fin Cert.ReferenceIdeal.S4x64x131072.rank) ∈ Cert.ReferenceIdeal.dot_S4x64x64_S4x64x131072_S4x64x131072_2_1_1_2_0_0.rhsBatch by decide)]
    rfl
  have r1 : ∀ c, ((Cert.ReferenceIdeal.dot_S4x64x64_S4x64x131072_S4x64x131072_2_1_1_2_0_0.rhsIdx (ix3 g d p) c) 1).val = (c ⟨0, by decide⟩).val := fun c =>
    Cert.ReferenceIdeal.dot_S4x64x64_S4x64x131072_S4x64x131072_2_1_1_2_0_0.rhsIdx_val_of_single rfl (ix3 g d p) c
  have r2 : ∀ c, ((Cert.ReferenceIdeal.dot_S4x64x64_S4x64x131072_S4x64x131072_2_1_1_2_0_0.rhsIdx (ix3 g d p) c) 2).val = p.val := fun c => by
    unfold DotDims.rhsIdx
    rw [dif_neg (show ¬(2 : Fin Cert.ReferenceIdeal.S4x64x131072.rank) ∈ Cert.ReferenceIdeal.dot_S4x64x64_S4x64x131072_S4x64x131072_2_1_1_2_0_0.rhsBatch by decide),
      dif_pos (show (2 : Fin Cert.ReferenceIdeal.S4x64x131072.rank) ∈ Cert.ReferenceIdeal.dot_S4x64x64_S4x64x131072_S4x64x131072_2_1_1_2_0_0.rhsNonContracting by decide)]
    rfl
  rw [← Equiv.sum_comp (contrEquiv1 Cert.ReferenceIdeal.dot_S4x64x64_S4x64x131072_S4x64x131072_2_1_1_2_0_0 64 rfl rfl).symm]
  refine Finset.sum_congr rfl fun e _ => ?_
  have he := contrEquiv1_symm_val Cert.ReferenceIdeal.dot_S4x64x64_S4x64x131072_S4x64x131072_2_1_1_2_0_0 64 rfl rfl e
  have el : Cert.ReferenceIdeal.dot_S4x64x64_S4x64x131072_S4x64x131072_2_1_1_2_0_0.lhsIdx (ix3 g d p) ((contrEquiv1 Cert.ReferenceIdeal.dot_S4x64x64_S4x64x131072_S4x64x131072_2_1_1_2_0_0 64 rfl rfl).symm e) = ix3 g d e := funext fun a => Fin.ext (by
    match a with
    | ⟨0, _⟩ => exact l0 _
    | ⟨1, _⟩ => exact l1 _
    | ⟨2, _⟩ => exact (l2 _).trans he)
  have er : Cert.ReferenceIdeal.dot_S4x64x64_S4x64x131072_S4x64x131072_2_1_1_2_0_0.rhsIdx (ix3 g d p) ((contrEquiv1 Cert.ReferenceIdeal.dot_S4x64x64_S4x64x131072_S4x64x131072_2_1_1_2_0_0 64 rfl rfl).symm e) = ix3 g e p := funext fun a => Fin.ext (by
    match a with
    | ⟨0, _⟩ => exact r0 _
    | ⟨1, _⟩ => exact (r1 _).trans he
    | ⟨2, _⟩ => exact r2 _)
  rw [el, er]

/-! ## The reference's pieces at an index -/

theorem rS1_apply (x : (⟨Cert.ReferenceIdeal.S4x64x131072, .f32⟩ : BufTy).Contents (Elt Ideal)) (g : Fin 4) (e : Fin 64) :
    rS1 (F := Ideal) x (ix2 g e) = ∑ p : Fin 131072, x (ix3 g e p) := by
  unfold rS1
  beta_reduce
  rw [hostReduceAdd_apply, hostReduceAdd_last]
  show Ideal.ofBits .f32 0x00000000#32 + _ = _
  rw [Ideal.ofBits_zero_f32, zero_add]

theorem rMean3_apply (s : (⟨Cert.ReferenceIdeal.S4x64, .f32⟩ : BufTy).Contents (Elt Ideal)) (g : Fin 4) (e : Fin 64) :
    rMean3 (F := Ideal) s (ix3 g e (0 : Fin 1)) = Ideal.div (s (ix2 g e)) M32 := by
  unfold rMean3
  rw [hostDivf_apply, broadcastInDim_apply _ _ _ (ix3 g e (0 : Fin 1)) (ix2 g e) (fun a => by match a with | ⟨0, _⟩ => rfl | ⟨1, _⟩ => rfl), broadcastInDim_scalar_apply]
  rfl

theorem rXc_apply (x : (⟨Cert.ReferenceIdeal.S4x64x131072, .f32⟩ : BufTy).Contents (Elt Ideal)) (mu : (⟨Cert.ReferenceIdeal.S4x64x1, .f32⟩ : BufTy).Contents (Elt Ideal)) (g : Fin 4) (e : Fin 64) (p : Fin 131072) :
    rXc (F := Ideal) x mu (ix3 g e p) = x (ix3 g e p) - mu (ix3 g e (0 : Fin 1)) := by
  unfold rXc
  rw [subf_apply, broadcastInDim_apply _ _ _ (ix3 g e p) (ix3 g e (0 : Fin 1)) (fun a => by match a with | ⟨0, _⟩ => rfl | ⟨1, _⟩ => rfl | ⟨2, _⟩ => rfl)]

theorem rSigma_apply (xc : (⟨Cert.ReferenceIdeal.S4x64x131072, .f32⟩ : BufTy).Contents (Elt Ideal)) (eye : (⟨Cert.ReferenceIdeal.S64x64, .f32⟩ : BufTy).Contents (Elt Ideal)) (g : Fin 4) (d e : Fin 64) :
    rSigma (F := Ideal) xc eye (ix3 g d e)
      = E32 * eye (ix2 d e) + Ideal.div (∑ p : Fin 131072, xc (ix3 g d p) * xc (ix3 g e p)) M32 := by
  unfold rSigma
  beta_reduce
  rw [addf_apply, broadcastInDim_apply _ _ _ (ix3 g d e) (ix3 (0 : Fin 1) d e) (fun a => by match a with | ⟨0, _⟩ => rfl | ⟨1, _⟩ => rfl | ⟨2, _⟩ => rfl), broadcastInDim_apply _ _ _ (ix3 (0 : Fin 1) d e) (ix2 d e) (fun a => by match a with | ⟨0, _⟩ => rfl | ⟨1, _⟩ => rfl), mulf_apply,
    broadcastInDim_scalar_apply, hostDivf_apply, broadcastInDim_scalar_apply, gram_apply]
  rfl

theorem rOut_apply (wm : (⟨Cert.ReferenceIdeal.S4x64x64, .f32⟩ : BufTy).Contents (Elt Ideal)) (xc : (⟨Cert.ReferenceIdeal.S4x64x131072, .f32⟩ : BufTy).Contents (Elt Ideal)) (a1 a2 : (⟨Cert.ReferenceIdeal.S1x256x1x1, .f32⟩ : BufTy).Contents (Elt Ideal))
    (b : Fin 128) (g : Fin 4) (d : Fin 64) (k : Fin 1024) :
    rOut (F := Ideal) wm xc a1 a2 (jx b (ch g d) k)
      = (∑ e : Fin 64, wm (ix3 g d e) * xc (ix3 g e (pos b k))) * a1 (ix4 (0 : Fin 1) (ch g d) (0 : Fin 1) (0 : Fin 1))
        + a2 (ix4 (0 : Fin 1) (ch g d) (0 : Fin 1) (0 : Fin 1)) := by
  unfold rOut
  beta_reduce
  rw [addf_apply, mulf_apply, param_bcast_apply, param_bcast_apply, ungrouped_apply, whiten_apply]

theorem rX_apply (a0 : (⟨Cert.ReferenceIdeal.S128x256x32x32, .f32⟩ : BufTy).Contents (Elt Ideal)) (b : Fin 128) (g : Fin 4) (d : Fin 64) (k : Fin 1024) :
    rX (F := Ideal) a0 (ix3 g d (pos b k)) = a0 (jx b (ch g d) k) := by
  unfold rX
  beta_reduce
  exact grouped_apply a0 _ _ b g d k

/-! ## The kernel program's host pieces at an index -/

theorem kMean_apply (s : (⟨Cert.KernelIdeal.S4x64, .f32⟩ : BufTy).Contents (Elt Ideal)) (g : Fin 4) (e : Fin 64) :
    kMean (F := Ideal) s (ix2 g e) = Ideal.div (s (ix2 g e)) M32 := by
  unfold kMean
  rw [hostDivf_apply, broadcastInDim_scalar_apply]
  rfl

theorem kEye1_apply (eye : (⟨Cert.KernelIdeal.S64x64, .f32⟩ : BufTy).Contents (Elt Ideal)) (d e : Fin 64) : kEye1 (F := Ideal) eye (ix3 (0 : Fin 1) d e) = eye (ix2 d e) := by
  unfold kEye1
  rw [broadcastInDim_apply _ _ _ (ix3 (0 : Fin 1) d e) (ix2 d e) (fun a => by match a with | ⟨0, _⟩ => rfl | ⟨1, _⟩ => rfl)]

theorem kSigma_apply (mu : (⟨Cert.KernelIdeal.S4x64, .f32⟩ : BufTy).Contents (Elt Ideal)) (eye1 : (⟨Cert.KernelIdeal.S1x64x64, .f32⟩ : BufTy).Contents (Elt Ideal)) (s2 : (⟨Cert.KernelIdeal.S4x64x64, .f32⟩ : BufTy).Contents (Elt Ideal)) (g : Fin 4) (d e : Fin 64) :
    kSigma (F := Ideal) mu eye1 s2 (ix3 g d e)
      = (E32 * eye1 (ix3 (0 : Fin 1) d e) + Ideal.div (s2 (ix3 g d e)) M32) - mu (ix2 g d) * mu (ix2 g e) := by
  unfold kSigma
  rw [subf_apply, addf_apply, mulf_apply, broadcastInDim_apply _ _ _ (ix3 g d e) (ix3 (0 : Fin 1) d e) (fun a => by match a with | ⟨0, _⟩ => rfl | ⟨1, _⟩ => rfl | ⟨2, _⟩ => rfl), mulf_apply, broadcastInDim_scalar_apply,
    hostDivf_apply, broadcastInDim_scalar_apply,
    broadcastInDim_apply _ _ _ (ix3 g d e) (ix3 g d (0 : Fin 1)) (fun a => by match a with | ⟨0, _⟩ => rfl | ⟨1, _⟩ => rfl | ⟨2, _⟩ => rfl), broadcastInDim_apply _ _ _ (ix3 g d (0 : Fin 1)) (ix2 g d) (fun a => by match a with | ⟨0, _⟩ => rfl | ⟨1, _⟩ => rfl),
    broadcastInDim_apply _ _ _ (ix3 g d e) (ix3 g (0 : Fin 1) e) (fun a => by match a with | ⟨0, _⟩ => rfl | ⟨1, _⟩ => rfl | ⟨2, _⟩ => rfl), broadcastInDim_apply _ _ _ (ix3 g (0 : Fin 1) e) (ix2 g e) (fun a => by match a with | ⟨0, _⟩ => rfl | ⟨1, _⟩ => rfl)]
  rfl

theorem kRow_apply (a : (⟨Cert.KernelIdeal.S1x256x1x1, .f32⟩ : BufTy).Contents (Elt Ideal)) (c : Fin 256) :
    kRow (F := Ideal) a (ix2 (0 : Fin 1) c) = a (ix4 (0 : Fin 1) c (0 : Fin 1) (0 : Fin 1)) := by
  unfold kRow
  exact param_row_apply a _ c

end Cert.Whiten

end
-- ==== Proof.TailEq.lean ====
/-
  From the covariance on, the two programs compute the whitening matrix by the same operations: the trace, the five
  steps of the iteration, the two scalings are the same functions in both; the start of the iteration is the identity
  in every group whether it is broadcast in one step or in two; and the reciprocal trace is the same whether the
  division happens before or after the trace is given its two unit axes.
-/
import proofs.«125822_j37185826849259_1_alg».proof.Proof.KerValue
import proofs.«125822_j37185826849259_1_alg».proof.Proof.RefValue
import Idealize.ShloMosaic.Lib.Pipeline.Value
import Idealize.ShloMosaic.Lib.IdealHost
import Idealize.ShloMosaic.Lib.ValueIdx

noncomputable section

namespace Cert.Whiten

open Idealize.ShloMosaic Idealize.ShloMosaic.ValueIdx
open Cert.KernelIdeal.Stages Cert.ReferenceIdeal.RefRun

variable {F : FTy → Type} [FloatOps F]

theorem eye_eq : (kEye (F := F)) = rEye := rfl
theorem trace_eq (S : (⟨Cert.KernelIdeal.S4x64x64, .f32⟩ : BufTy).Contents (Elt F)) : kTrace S = rTrace S := rfl
theorem ns_eq (P Sn : (⟨Cert.KernelIdeal.S4x64x64, .f32⟩ : BufTy).Contents (Elt F)) : kNs P Sn = rNs P Sn := rfl
theorem sn_eq (S : (⟨Cert.KernelIdeal.S4x64x64, .f32⟩ : BufTy).Contents (Elt F)) (r : (⟨Cert.KernelIdeal.S4x1x1, .f32⟩ : BufTy).Contents (Elt F)) : kSn S r = rSn S r := rfl
theorem wm_eq (P : (⟨Cert.KernelIdeal.S4x64x64, .f32⟩ : BufTy).Contents (Elt F)) (r : (⟨Cert.KernelIdeal.S4x1x1, .f32⟩ : BufTy).Contents (Elt F)) : kWm P r = rWm P r := rfl

/-- The identity broadcast to the four groups through a leading unit axis is the identity broadcast to them directly. -/
theorem p0_eq (eye : (⟨Cert.KernelIdeal.S64x64, .f32⟩ : BufTy).Contents (Elt F)) : kP0 (kEye1 eye) = rP0 eye := by
  funext j
  obtain ⟨g, d, e, rfl⟩ : ∃ (g : Fin 4) (d : Fin 64) (e : Fin 64), j = ix3 g d e := ⟨j 0, j 1, j 2, eq_ix3 j⟩
  unfold kP0 kEye1 rP0
  rw [broadcastInDim_apply _ _ _ (ix3 g d e) (ix3 (0 : Fin 1) d e) (fun a => by match a with | ⟨0, _⟩ => rfl | ⟨1, _⟩ => rfl | ⟨2, _⟩ => rfl)]
  rw [broadcastInDim_apply _ _ _ (ix3 (0 : Fin 1) d e) (ix2 d e) (fun a => by match a with | ⟨0, _⟩ => rfl | ⟨1, _⟩ => rfl)]
  rw [broadcastInDim_apply _ _ _ (ix3 g d e) (ix2 d e) (fun a => by match a with | ⟨0, _⟩ => rfl | ⟨1, _⟩ => rfl)]

/-- One over the trace, then the two unit axes, is the two unit axes, then one over the trace. -/
theorem r_eq (tr : (⟨Cert.KernelIdeal.S4, .f32⟩ : BufTy).Contents (Elt Ideal)) : kR (F := Ideal) tr = rR tr := by
  funext j
  obtain ⟨g, u, v, rfl⟩ : ∃ (g : Fin 4) (u : Fin 1) (v : Fin 1), j = ix3 g u v := ⟨j 0, j 1, j 2, eq_ix3 j⟩
  unfold kR rR
  rw [broadcastInDim_apply _ _ _ (ix3 g u v) (ix1 g) (fun a => by match a with | ⟨0, _⟩ => rfl)]
  rw [hostDivf_apply, hostDivf_apply, broadcastInDim_scalar_apply, broadcastInDim_scalar_apply]
  try rw [broadcastInDim_apply _ _ _ (ix3 g u v) (ix1 g) (fun a => by match a with | ⟨0, _⟩ => rfl)]
  try rfl

/-- The whitening matrix is the same function of the covariance in both programs. -/
theorem tail_eq (S : (⟨Cert.KernelIdeal.S4x64x64, .f32⟩ : BufTy).Contents (Elt Ideal)) : kerTail (F := Ideal) S = refTail S := by
  unfold kerTail refTail
  rw [p0_eq, eye_eq, r_eq, trace_eq]
  rfl

end Cert.Whiten

end
-- ==== Proof.Cov.lean ====
/-
  The one algebraic law between the two programs. For real numbers a(k), b(k) over a finite index set of M elements,
  the mean of the products less the product of the means is the mean of the products of the centred values:
      (∑ a b) / M − (∑ a / M) (∑ b / M) = (∑ (a − ∑ a / M) (b − ∑ b / M)) / M.
  It is stated here on the extended reals for families whose entries are real numbers, which is where finiteness of the
  input is used: on the extended reals neither side's products distribute over sums at an infinity. The regulariser added
  to both sides may be any extended real.
-/
import Idealize.ShloMosaic.PureOps.Ideal

noncomputable section

namespace Cert.Whiten

open Idealize.ShloMosaic

/-- The law over the reals. -/
theorem cov_real {ι : Type*} [Fintype ι] (a b : ι → ℝ) (M : ℝ) (hM : M = Fintype.card ι) (h0 : M ≠ 0) :
    (∑ k, a k * b k) / M - (∑ k, a k) / M * ((∑ k, b k) / M)
      = (∑ k, (a k - (∑ k, a k) / M) * (b k - (∑ k, b k) / M)) / M := by
  have e : ∑ k, (a k - (∑ k, a k) / M) * (b k - (∑ k, b k) / M)
      = (∑ k, a k * b k) - (∑ k, a k) * ((∑ k, b k) / M) - ((∑ k, a k) / M) * (∑ k, b k)
        + M * ((∑ k, a k) / M * ((∑ k, b k) / M)) := by
    simp only [sub_mul, mul_sub, Finset.sum_sub_distrib, ← Finset.sum_mul, ← Finset.mul_sum, Finset.sum_const,
      Finset.card_univ, nsmul_eq_mul, ← hM]
    ring
  rw [e]
  field_simp
  ring

/-- A finite sum of real numbers, taken on the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert i s hi ih => rw [Finset.sum_insert hi, Finset.sum_insert hi, ih, EReal.coe_add]

/-- The ideal quotient of a real by a nonzero real is the real quotient. -/
theorem div_coe_coe (x : ℝ) {M : ℝ} (h0 : M ≠ 0) : Ideal.div (x : EReal) (M : EReal) = ((x / M : ℝ) : EReal) := by
  rw [Ideal.div_coe h0, ← EReal.coe_mul, mul_one_div]

/-- Adding a real to any extended real and then taking a real away is adding the difference. -/
theorem add_coe_sub_coe (E : EReal) (a b : ℝ) : (E + (a : EReal)) - (b : EReal) = E + ((a - b : ℝ) : EReal) := by
  induction E using EReal.rec with
  | bot => simp
  | coe e => rw [← EReal.coe_add, ← EReal.coe_sub, ← EReal.coe_add]; congr 1; ring
  | top => rw [EReal.top_add_coe, EReal.top_sub_coe, EReal.top_add_coe]

/-- The law on the extended reals, for families of real entries `xd = ↑ad`, `xe = ↑ae` over `M` indices, with any
    regulariser `E`: second moments over `M` less the product of the means, against the centred products over `M`. -/
theorem cov_ereal {ι : Type*} [Fintype ι] (xd xe : ι → EReal) (ad ae : ι → ℝ) (hd : ∀ k, xd k = (ad k : EReal))
    (he : ∀ k, xe k = (ae k : EReal)) (M : ℝ) (hM : M = Fintype.card ι) (h0 : M ≠ 0) (E : EReal) :
    (E + Ideal.div (∑ k, xd k * xe k) (M : EReal)) - Ideal.div (∑ k, xd k) (M : EReal) * Ideal.div (∑ k, xe k) (M : EReal)
      = E + Ideal.div (∑ k, (xd k - Ideal.div (∑ k, xd k) (M : EReal)) * (xe k - Ideal.div (∑ k, xe k) (M : EReal))) (M : EReal) := by
  simp only [hd, he, ← EReal.coe_mul, coe_sum, div_coe_coe _ h0, ← EReal.coe_sub]
  rw [add_coe_sub_coe, cov_real ad ae M hM h0]

end Cert.Whiten

end
-- ==== Proof.Bridge.lean ====
/-
  Where the two programs meet. Both centre each channel by its mean over all 131072 places, and the means agree: a sum
  over the places, batch-major, is the sum over batches of the sums over positions. The reference's covariance is the
  Gram matrix of the centred activations over the number of places; the kernel program's is the second moments over the
  number of places less the product of the means. For activations whose entries are real numbers these are equal — the
  one use of the precondition — and from the covariance on both compute the whitening matrix alike.
-/
import proofs.«125822_j37185826849259_1_alg».proof.Proof.Read
import proofs.«125822_j37185826849259_1_alg».proof.Proof.TailEq
import proofs.«125822_j37185826849259_1_alg».proof.Proof.Cov
import proofs.«125822_j37185826849259_1_alg».proof.Proof.Consts

noncomputable section

namespace Cert.Whiten

open Idealize.ShloMosaic Idealize.ShloMosaic.ValueIdx Cert.PointDist
open Cert.KernelIdeal.Stages Cert.ReferenceIdeal.RefRun

theorem M32_eq : M32 = ((131072 : ℝ) : EReal) := ofBits_places

/-- A sum over the 131072 places of a channel, taken batch by batch. -/
theorem sum_places (f : Fin 131072 → EReal) : ∑ p, f p = ∑ q : Fin 128 × Fin 1024, f (pos q.1 q.2) :=
  (sum_tiles (by norm_num : 128 * 1024 = 131072) f).trans
    (Fintype.sum_prod_type' (fun b k => f (tileIdx (by norm_num : 128 * 1024 = 131072) b k))).symm

variable (a0 : T4.Idx → EReal)

/-- The sum of channel `d` of group `g` over all batches and positions. -/
def chanSum (g : Fin 4) (d : Fin 64) : EReal := ∑ q : Fin 128 × Fin 1024, a0 (jx q.1 (ch g d) q.2)
/-- Its mean. -/
def chanMean (g : Fin 4) (d : Fin 64) : EReal := Ideal.div (chanSum a0 g d) M32

/-! ## The reference -/

theorem ref_mean (g : Fin 4) (e : Fin 64) : rMean3 (F := Ideal) (rS1 (rX a0)) (ix3 g e (0 : Fin 1)) = chanMean a0 g e := by
  rw [rMean3_apply, rS1_apply, sum_places]
  unfold chanMean chanSum
  simp only [rX_apply]

theorem ref_xc (g : Fin 4) (e : Fin 64) (b : Fin 128) (k : Fin 1024) :
    refXc (F := Ideal) a0 (ix3 g e (pos b k)) = a0 (jx b (ch g e) k) - chanMean a0 g e := by
  unfold refXc
  rw [rXc_apply, rX_apply, ref_mean]

theorem ref_sigma (g : Fin 4) (d e : Fin 64) :
    rSigma (F := Ideal) (refXc a0) rEye (ix3 g d e)
      = E32 * rEye (F := Ideal) (ix2 d e)
        + Ideal.div (∑ q : Fin 128 × Fin 1024, (a0 (jx q.1 (ch g d) q.2) - chanMean a0 g d) * (a0 (jx q.1 (ch g e) q.2) - chanMean a0 g e)) M32 := by
  rw [rSigma_apply, sum_places]
  simp only [ref_xc]

/-! ## The kernel program's host side, from the first region's sums -/

variable (x3 : T3.Idx → EReal) (s1 : (⟨2, ![4, 64]⟩ : Shape).Idx → EReal) (s2 : (⟨3, ![4, 64, 64]⟩ : Shape).Idx → EReal)

theorem ker_mean (hx : ∀ b c k, x3 (ix3 b c k) = a0 (jx b c k))
    (h1 : ∀ g d, s1 (ix2 g d) = ∑ b : Fin 128, ∑ k : Fin 1024, x3 (ix3 b (ch g d) k)) (g : Fin 4) (e : Fin 64) :
    kMean (F := Ideal) s1 (ix2 g e) = chanMean a0 g e := by
  rw [kMean_apply, h1]
  unfold chanMean chanSum
  rw [Fintype.sum_prod_type' (fun b k => a0 (jx b (ch g e) k))]
  simp only [hx]

theorem ker_sigma (hx : ∀ b c k, x3 (ix3 b c k) = a0 (jx b c k))
    (h1 : ∀ g d, s1 (ix2 g d) = ∑ b : Fin 128, ∑ k : Fin 1024, x3 (ix3 b (ch g d) k))
    (h2 : ∀ g d e, s2 (ix3 g d e) = ∑ b : Fin 128, ∑ k : Fin 1024, x3 (ix3 b (ch g d) k) * x3 (ix3 b (ch g e) k))
    (g : Fin 4) (d e : Fin 64) :
    kSigma (F := Ideal) (kMean s1) (kEye1 kEye) s2 (ix3 g d e)
      = (E32 * kEye (F := Ideal) (ix2 d e)
          + Ideal.div (∑ q : Fin 128 × Fin 1024, a0 (jx q.1 (ch g d) q.2) * a0 (jx q.1 (ch g e) q.2)) M32)
        - chanMean a0 g d * chanMean a0 g e := by
  rw [kSigma_apply, kEye1_apply, ker_mean a0 x3 s1 hx h1, ker_mean a0 x3 s1 hx h1, h2,
    Fintype.sum_prod_type' (fun b k => a0 (jx b (ch g d) k) * a0 (jx b (ch g e) k))]
  simp only [hx]

/-- The two covariances are equal when every entry of the activations is a real number. -/
theorem sigma_eq (hfin : ∀ j, ∃ r : ℝ, a0 j = (r : EReal)) (hx : ∀ b c k, x3 (ix3 b c k) = a0 (jx b c k))
    (h1 : ∀ g d, s1 (ix2 g d) = ∑ b : Fin 128, ∑ k : Fin 1024, x3 (ix3 b (ch g d) k))
    (h2 : ∀ g d e, s2 (ix3 g d e) = ∑ b : Fin 128, ∑ k : Fin 1024, x3 (ix3 b (ch g d) k) * x3 (ix3 b (ch g e) k)) :
    kSigma (F := Ideal) (kMean s1) (kEye1 kEye) s2 = rSigma (refXc a0) rEye := by
  funext j
  obtain ⟨g, d, e, rfl⟩ : ∃ (g : Fin 4) (d : Fin 64) (e : Fin 64), j = ix3 g d e := ⟨j 0, j 1, j 2, eq_ix3 j⟩
  rw [ker_sigma a0 x3 s1 s2 hx h1 h2, ref_sigma, eye_eq]
  choose r hr using hfin
  unfold chanMean chanSum
  rw [M32_eq]
  exact cov_ereal (fun q : Fin 128 × Fin 1024 => a0 (jx q.1 (ch g d) q.2)) (fun q => a0 (jx q.1 (ch g e) q.2))
    (fun q => r (jx q.1 (ch g d) q.2)) (fun q => r (jx q.1 (ch g e) q.2)) (fun q => hr _) (fun q => hr _) 131072
    (by rw [Fintype.card_prod, Fintype.card_fin, Fintype.card_fin]; norm_num) (by norm_num) _

end Cert.Whiten

end
-- ==== Proof.StatsPay.lean ====
/-
  The two per-group updates of the statistics kernel, read at one index over the extended reals.

  Each channel group holds a slice `src` of shape [16, 64, 1024] (batch, channel in the group, position) and
  updates two accumulators:
  • the row of sums: entry d gains the sum of src over every batch and every position, a reduction over axes 0 and 2;
  • the slab of products: entry (d, e) gains, summed over the batches, the contraction over positions of channel d with
    channel e — a batched product into a zero accumulator followed by a reduction over the batch axis.
  Over the extended reals every float operation is the exact one, so each update is "old value plus a double sum".
  Only 0 + y = y is used of the arithmetic; no product is distributed over a sum.
-/
import proofs.«125822_j37185826849259_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stats

open Idealize.ShloMosaic Idealize.ShloMosaic.ValueIdx Cert.KernelIdeal Cert.KernelIdeal.Gen

/-- The indices of a [16, 64, 1024] array that drop to channel d when axes 0 and 2 are reduced are exactly the
    (b, d, k): the reduction at d is the double sum over batches b and positions k. -/
theorem reduce02_apply (h : S16x64x1024.Reduces [0, 2] S64) (src : S16x64x1024.Idx → EReal) (d : Fin 64) :
    Ideal.reduceAdd h src (ix1 d) = ∑ b : Fin 16, ∑ k : Fin 1024, src (ix3 b d k) := by
  unfold Ideal.reduceAdd
  rw [← Fintype.sum_prod_type']
  -- the one kept axis is the channel axis
  have hdrop : ∀ i : S16x64x1024.Idx, ((h.drop i) 0).val = (i 1).val := fun i => rfl
  have hleft : ∀ i ∈ Finset.univ.filter (fun i => h.drop i = ix1 d), ix3 (i 0) d (i 2) = i := by
    intro i hi
    have hj := (Finset.mem_filter.1 hi).2
    have h1 : (i 1).val = d.val := by
      have := congrArg (fun y : S64.Idx => (y 0).val) hj
      exact (hdrop i).symm.trans this
    funext c; apply Fin.ext
    match c with
    | ⟨0, _⟩ => rfl
    | ⟨1, _⟩ => exact h1.symm
    | ⟨2, _⟩ => rfl
  refine Finset.sum_nbij' (fun i => (i 0, i 2)) (fun p => ix3 p.1 d p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg src (hleft i hi).symm

/-- The float reduction over axes 0 and 2, read at the ideal values, is that double sum. -/
theorem multiReduction02_apply (src : FVec Ideal S16x64x1024 .f32) (acc : BitVec 32) (h : S16x64x1024.Reduces [0, 2] S64)
    (hφ : FKind.Formats .f32) (hacc : acc = FKind.add.neutral .f32 hφ) (d : Fin 64) :
    multiReduction (F := Ideal) .add [0, 2] S64 src acc h hφ hacc (ix1 d) = ∑ b : Fin 16, ∑ k : Fin 1024, src (ix3 b d k) :=
  reduce02_apply h src d

/-- THE ROW UPDATE at entry d: the old entry plus the sum of the slice's channel d over batches and positions. -/
theorem sumPay_apply (src : FVec Ideal S16x64x1024 .f32) (acc : FVec Ideal S1x64 .f32) (h1 : S1x64.ShapeCasts S64)
    (h2 : S64.ShapeCasts S1x64) (hr : S16x64x1024.Reduces [0, 2] S64) (hφ : FKind.Formats .f32)
    (hacc : (0x00000000#32 : BitVec 32) = FKind.add.neutral .f32 hφ) (d : Fin 64) :
    shapeCast S1x64 (addf (shapeCast S64 acc h1) (multiReduction (F := Ideal) .add [0, 2] S64 src 0x00000000#32 hr hφ hacc)) h2
        (ix2 (0 : Fin 1) d)
      = acc (ix2 (0 : Fin 1) d) + ∑ b : Fin 16, ∑ k : Fin 1024, src (ix3 b d k) := by
  refine (shapeCast_a_1a_apply _ h2 (0 : Fin 1) d).trans ?_
  refine (addf_apply _ _ (ix1 d)).trans ?_
  rw [shapeCast_1a_a_apply acc h1 d, multiReduction02_apply src _ hr hφ hacc d]

/-- The batched product's dimension record: batch axis 0 of both operands, channel axis 1 of each kept, position axis 2
    of both contracted. -/
abbrev D : DotDims S16x64x1024 S16x64x1024 S16x64x64 := dot_S16x64x1024_S16x64x1024_S16x64x64_2_2_1_1_0_0

/-- The batched product into the zero accumulator at (b, d, e): the contraction over positions of channel d with
    channel e of batch b. -/
theorem matmul_apply3 (l r : FVec Ideal S16x64x1024 .f32) (b : Fin 16) (d e : Fin 64) :
    matmul (F := Ideal) D none l r (constant (F := Ideal) S16x64x64 .f32 0x00000000#32) (ix3 b d e)
      = ∑ k : Fin 1024, l (ix3 b d k) * r (ix3 b e k) := by
  refine (Ideal.matmul_constant_zero_apply D none l r (ix3 b d e)).trans ?_
  have l0 : ∀ c, ((D.lhsIdx (ix3 b d e) c) 0).val = b.val := fun c => by
    unfold DotDims.lhsIdx
    rw [dif_pos (show (0 : Fin S16x64x1024.rank) ∈ D.lhsBatch by decide)]
    rfl
  have l1 : ∀ c, ((D.lhsIdx (ix3 b d e) c) 1).val = d.val := fun c => by
    unfold DotDims.lhsIdx
    rw [dif_neg (show ¬(1 : Fin S16x64x1024.rank) ∈ D.lhsBatch by decide), dif_pos (show (1 : Fin S16x64x1024.rank) ∈ D.lhsNonContracting by decide)]
    rfl
  have l2 : ∀ c, ((D.lhsIdx (ix3 b d e) c) 2).val = (c ⟨0, by decide⟩).val := fun c =>
    D.lhsIdx_val_of_single rfl (ix3 b d e) c
  have r0 : ∀ c, ((D.rhsIdx (ix3 b d e) c) 0).val = b.val := fun c => by
    unfold DotDims.rhsIdx
    rw [dif_pos (show (0 : Fin S16x64x1024.rank) ∈ D.rhsBatch by decide)]
    rfl
  have r1 : ∀ c, ((D.rhsIdx (ix3 b d e) c) 1).val = e.val := fun c => by
    unfold DotDims.rhsIdx
    rw [dif_neg (show ¬(1 : Fin S16x64x1024.rank) ∈ D.rhsBatch by decide), dif_pos (show (1 : Fin S16x64x1024.rank) ∈ D.rhsNonContracting by decide)]
    rfl
  have r2 : ∀ c, ((D.rhsIdx (ix3 b d e) c) 2).val = (c ⟨0, by decide⟩).val := fun c =>
    D.rhsIdx_val_of_single rfl (ix3 b d e) c
  rw [← Equiv.sum_comp (contrEquiv1 D 1024 rfl rfl).symm]
  refine Finset.sum_congr rfl fun k _ => ?_
  have hk := contrEquiv1_symm_val D 1024 rfl rfl k
  have el : D.lhsIdx (ix3 b d e) ((contrEquiv1 D 1024 rfl rfl).symm k) = ix3 b d k := funext fun a => Fin.ext (by
    match a with
    | ⟨0, _⟩ => exact l0 _
    | ⟨1, _⟩ => exact l1 _
    | ⟨2, _⟩ => exact (l2 _).trans hk)
  have er : D.rhsIdx (ix3 b d e) ((contrEquiv1 D 1024 rfl rfl).symm k) = ix3 b e k := funext fun a => Fin.ext (by
    match a with
    | ⟨0, _⟩ => exact r0 _
    | ⟨1, _⟩ => exact r1 _
    | ⟨2, _⟩ => exact (r2 _).trans hk)
  rw [el, er]

/-- THE SLAB UPDATE at entry (d, e): the old entry plus, summed over the batches, the contraction over positions of the
    slice's channel d with its channel e. -/
theorem covPay_apply (src : FVec Ideal S16x64x1024 .f32) (acc : FVec Ideal S1x64x64 .f32) (h1 : S1x64x64.ShapeCasts S64x64)
    (h2 : S64x64.ShapeCasts S1x64x64) (hr : S16x64x64.Reduces [0] S64x64) (hφ : FKind.Formats .f32)
    (hacc : (0x00000000#32 : BitVec 32) = FKind.add.neutral .f32 hφ) (d e : Fin 64) :
    shapeCast S1x64x64 (addf (shapeCast S64x64 acc h1)
        (multiReduction (F := Ideal) .add [0] S64x64
          (matmul (F := Ideal) D none src src (constant (F := Ideal) S16x64x64 .f32 0x00000000#32)) 0x00000000#32 hr hφ hacc)) h2
        (ix3 (0 : Fin 1) d e)
      = acc (ix3 (0 : Fin 1) d e) + ∑ b : Fin 16, ∑ k : Fin 1024, src (ix3 b d k) * src (ix3 b e k) := by
  refine (shapeCast_ab_1ab_apply _ h2 (0 : Fin 1) d e).trans ?_
  refine (addf_apply _ _ (ix2 d e)).trans ?_
  rw [shapeCast_1ab_ab_apply acc h1 d e]
  refine congrArg (acc (ix3 (0 : Fin 1) d e) + ·) ?_
  refine (Ideal.multiReduction_add_single _ _ hr hφ hacc (ix2 d e)).trans ?_
  refine Finset.sum_congr rfl fun b _ => ?_
  have hl : hr.lift (ix2 d e) b = ix3 b d e := funext fun a => Fin.ext (by
    match a with
    | ⟨0, _⟩ => rfl
    | ⟨1, _⟩ => rfl
    | ⟨2, _⟩ => rfl)
  rw [hl]
  exact matmul_apply3 src src b d e

end Cert.KernelIdeal.Stats

end
-- ==== Proof.StatsRows.lean ====
/-
  Where the stores and loads of the statistics kernel sit in their buffers.

  The row buffer is [4, 64], one row per channel group, and the slab buffer [4, 64, 64], one slab per group. The body
  writes row g (slab g) of a buffer through the unit-stride rectangle at offset (g, 0) of sizes (1, 64) (offset
  (g, 0, 0) of sizes (1, 64, 64)). Reading the contents a list of such writes leaves, at an entry of row g:
  • a write to another row does not touch it (skip);
  • a write to row g, last, leaves its payload there (hit).
  Likewise a load through such a rectangle reads the buffer at row g, and the load of a group's slice of the
  [16, 256, 1024] block through offset (0, 64·g, 0) of sizes (16, 64, 1024) reads channel g·64 + d at its entry d.
-/
import proofs.«125822_j37185826849259_1_alg».proof.Proof.Gen.KernelIdeal
import proofs.«125822_j37185826849259_1_alg».proof.Proof.Chan
import Idealize.ShloMosaic.Lib.ValueIdx
import Idealize.ShloMosaic.Lib.Pipeline.FrameBody
import Idealize.ShloMosaic.Lib.Pipeline.Value
import Idealize.ShloMosaic.Lib.WholeRead

noncomputable section

namespace Cert.KernelIdeal.Stats

open Idealize.ShloMosaic Idealize.ShloMosaic.ValueIdx Cert.KernelIdeal Cert.KernelIdeal.Gen Cert.Whiten

variable {Val : EltTy → Type}

/-! ## Rows of the [4, 64] buffer -/

/-- Entry d of the one-row rectangle at row n is entry (n, d) of the buffer. -/
theorem row_idx (n : Nat) (hn : n < 4) (inb : ∀ a, (![n, 0] : Fin 2 → Nat) a + (![1, 64] : Fin 2 → Nat) a ≤ S4x64.size a) (d : Fin 64) :
    (Rect.unit (s := S4x64) ![n, 0] ![1, 64] inb).toLoadRect.idx (ix2 (0 : Fin 1) d) = ix2 (⟨n, hn⟩ : Fin 4) d :=
  funext fun a => Fin.ext (by
    match a with
    | ⟨0, _⟩ => show n + 1 * 0 = n; omega
    | ⟨1, _⟩ => show 0 + 1 * d.val = d.val; omega)

/-- A write to row n, last, leaves its payload at the entries of row n. -/
theorem canon_row_hit [∀ e, Nonempty (Val e)] (n : Nat) (hn : n < 4)
    (inb : ∀ a, (![n, 0] : Fin 2 → Nat) a + (![1, 64] : Fin 2 → Nat) a ≤ S4x64.size a)
    (w : (Rect.unit (s := S4x64) ![n, 0] ![1, 64] inb).shape.Idx → Val .f32) (L : List (View.Piece Val S4x64 .f32)) (d : Fin 64) :
    View.canon ((⟨Rect.unit (s := S4x64) ![n, 0] ![1, 64] inb, w⟩ : View.Piece Val S4x64 .f32) :: L) (ix2 (⟨n, hn⟩ : Fin 4) d)
      = w (ix2 (0 : Fin 1) d) := by
  rw [← row_idx n hn inb d]
  exact View.canon_cons_emb (Rect.unit (s := S4x64) ![n, 0] ![1, 64] inb) w L (ix2 (0 : Fin 1) d)

/-- A write to row n does not touch the entries of another row g. -/
theorem canon_row_skip [∀ e, Nonempty (Val e)] (n : Nat)
    (inb : ∀ a, (![n, 0] : Fin 2 → Nat) a + (![1, 64] : Fin 2 → Nat) a ≤ S4x64.size a)
    (w : (Rect.unit (s := S4x64) ![n, 0] ![1, 64] inb).shape.Idx → Val .f32) (L : List (View.Piece Val S4x64 .f32))
    (g : Fin 4) (hne : g.val ≠ n) (d : Fin 64) :
    View.canon ((⟨Rect.unit (s := S4x64) ![n, 0] ![1, 64] inb, w⟩ : View.Piece Val S4x64 .f32) :: L) (ix2 g d)
      = View.canon L (ix2 g d) := by
  refine View.canon_cons_of_not_mem _ L ?_
  show ix2 g d ∉ (Rect.unit (s := S4x64) ![n, 0] ![1, 64] inb).set
  rw [Rect.mem_set_unit]
  intro h
  have h0 : n ≤ g.val ∧ g.val < n + 1 := h 0
  omega

/-! ## Slabs of the [4, 64, 64] buffer -/

/-- Entry (d, e) of the one-slab rectangle at slab n is entry (n, d, e) of the buffer. -/
theorem slab_idx (n : Nat) (hn : n < 4)
    (inb : ∀ a, (![n, 0, 0] : Fin 3 → Nat) a + (![1, 64, 64] : Fin 3 → Nat) a ≤ S4x64x64.size a) (d e : Fin 64) :
    (Rect.unit (s := S4x64x64) ![n, 0, 0] ![1, 64, 64] inb).toLoadRect.idx (ix3 (0 : Fin 1) d e) = ix3 (⟨n, hn⟩ : Fin 4) d e :=
  funext fun a => Fin.ext (by
    match a with
    | ⟨0, _⟩ => show n + 1 * 0 = n; omega
    | ⟨1, _⟩ => show 0 + 1 * d.val = d.val; omega
    | ⟨2, _⟩ => show 0 + 1 * e.val = e.val; omega)

/-- A write to slab n, last, leaves its payload at the entries of slab n. -/
theorem canon_slab_hit [∀ e, Nonempty (Val e)] (n : Nat) (hn : n < 4)
    (inb : ∀ a, (![n, 0, 0] : Fin 3 → Nat) a + (![1, 64, 64] : Fin 3 → Nat) a ≤ S4x64x64.size a)
    (w : (Rect.unit (s := S4x64x64) ![n, 0, 0] ![1, 64, 64] inb).shape.Idx → Val .f32) (L : List (View.Piece Val S4x64x64 .f32))
    (d e : Fin 64) :
    View.canon ((⟨Rect.unit (s := S4x64x64) ![n, 0, 0] ![1, 64, 64] inb, w⟩ : View.Piece Val S4x64x64 .f32) :: L)
        (ix3 (⟨n, hn⟩ : Fin 4) d e)
      = w (ix3 (0 : Fin 1) d e) := by
  rw [← slab_idx n hn inb d e]
  exact View.canon_cons_emb (Rect.unit (s := S4x64x64) ![n, 0, 0] ![1, 64, 64] inb) w L (ix3 (0 : Fin 1) d e)

/-- A write to slab n does not touch the entries of another slab g. -/
theorem canon_slab_skip [∀ e, Nonempty (Val e)] (n : Nat)
    (inb : ∀ a, (![n, 0, 0] : Fin 3 → Nat) a + (![1, 64, 64] : Fin 3 → Nat) a ≤ S4x64x64.size a)
    (w : (Rect.unit (s := S4x64x64) ![n, 0, 0] ![1, 64, 64] inb).shape.Idx → Val .f32) (L : List (View.Piece Val S4x64x64 .f32))
    (g : Fin 4) (hne : g.val ≠ n) (d e : Fin 64) :
    View.canon ((⟨Rect.unit (s := S4x64x64) ![n, 0, 0] ![1, 64, 64] inb, w⟩ : View.Piece Val S4x64x64 .f32) :: L) (ix3 g d e)
      = View.canon L (ix3 g d e) := by
  refine View.canon_cons_of_not_mem _ L ?_
  show ix3 g d e ∉ (Rect.unit (s := S4x64x64) ![n, 0, 0] ![1, 64, 64] inb).set
  rw [Rect.mem_set_unit]
  intro h
  have h0 : n ≤ g.val ∧ g.val < n + 1 := h 0
  omega

/-! ## A group's slice of the [16, 256, 1024] block -/

/-- Entry (b, d, k) of group g's slice — the rectangle at channel offset n = g·64 — is entry (b, g·64 + d, k) of the block. -/
theorem slice_idx (g : Fin 4) (n : Nat) (hn : n = g.val * 64)
    (inb : ∀ a, (![0, n, 0] : Fin 3 → Nat) a + (![16, 64, 1024] : Fin 3 → Nat) a ≤ S16x256x1024.size a)
    (b : Fin 16) (d : Fin 64) (k : Fin 1024) :
    (Rect.unit (s := S16x256x1024) ![0, n, 0] ![16, 64, 1024] inb).toLoadRect.idx (ix3 b d k) = ix3 b (ch g d) k :=
  funext fun a => Fin.ext (by
    match a with
    | ⟨0, _⟩ => show 0 + 1 * b.val = b.val; omega
    | ⟨1, _⟩ => show n + 1 * d.val = g.val * 64 + d.val; omega
    | ⟨2, _⟩ => show 0 + 1 * k.val = k.val; omega)

/-! ## Loads through a whole buffer held at contents that read X -/

variable {sig : RefSig} {κ : Kind} {sp : Space}

/-- The load of row n reads the buffer's row n. -/
theorem row_read (a : Memref sig κ sp S4x64 .f32) (h : a.IsWhole) (X : S4x64.Idx → Val .f32) (n : Nat) (hn : n < 4)
    (inb : ∀ a, (![n, 0] : Fin 2 → Nat) a + (![1, 64] : Fin 2 → Nat) a ≤ S4x64.size a) (d : Fin 64) :
    View.readAt Val a.view (Rect.unit (s := S4x64) ![n, 0] ![1, 64] inb).toLoadRect (h.unread X) (ix2 (0 : Fin 1) d)
      = X (ix2 (⟨n, hn⟩ : Fin 4) d) :=
  (h.readAt_unread X _ _).trans (congrArg X (row_idx n hn inb d))

/-- The load of slab n reads the buffer's slab n. -/
theorem slab_read (a : Memref sig κ sp S4x64x64 .f32) (h : a.IsWhole) (X : S4x64x64.Idx → Val .f32) (n : Nat) (hn : n < 4)
    (inb : ∀ a, (![n, 0, 0] : Fin 3 → Nat) a + (![1, 64, 64] : Fin 3 → Nat) a ≤ S4x64x64.size a) (d e : Fin 64) :
    View.readAt Val a.view (Rect.unit (s := S4x64x64) ![n, 0, 0] ![1, 64, 64] inb).toLoadRect (h.unread X) (ix3 (0 : Fin 1) d e)
      = X (ix3 (⟨n, hn⟩ : Fin 4) d e) :=
  (h.readAt_unread X _ _).trans (congrArg X (slab_idx n hn inb d e))

/-- The load of group g's slice, cast to its own shape, reads the block at the group's channels. -/
theorem slice_read (a : Memref sig κ sp S16x256x1024 .f32) (h : a.IsWhole) (X : S16x256x1024.Idx → Val .f32) (g : Fin 4)
    (n : Nat) (hn : n = g.val * 64)
    (inb : ∀ a, (![0, n, 0] : Fin 3 → Nat) a + (![16, 64, 1024] : Fin 3 → Nat) a ≤ S16x256x1024.size a)
    (hsc : S16x64x1024.ShapeCasts S16x64x1024) (b : Fin 16) (d : Fin 64) (k : Fin 1024) :
    shapeCast S16x64x1024
        (View.readAt Val a.view (Rect.unit (s := S16x256x1024) ![0, n, 0] ![16, 64, 1024] inb).toLoadRect (h.unread X)) hsc (ix3 b d k)
      = X (ix3 b (ch g d) k) := by
  refine (congrFun (shapeCast_self (s := S16x64x1024) _ hsc) (ix3 b d k)).trans ?_
  exact (h.readAt_unread X _ _).trans (congrArg X (slice_idx g n hn inb b d k))

end Cert.KernelIdeal.Stats

end
-- ==== Proof.StatsOut1.lean ====
/-
  What one grid point leaves in the row buffer (the per-group sums), entry by entry, over the extended reals.

  The body handles the four channel groups one after the other; for group g it loads the group's slice of the input
  block, loads row g of the buffer, and stores row g back with the slice's sums added. At the first point it first fills
  the whole buffer with zeros. So:
  • at a later point (case B), entry (g, d) is the carried entry plus the sum of channel g·64 + d of the block over the
    block's batches and positions: the four stores sit on four different rows, and row g's load reads the carried buffer;
  • at the first point (case A), row g's load reads back what the earlier stores left, which on row g is the zero fill
    (the earlier row stores sit on other rows), so the entry is 0 plus that sum, that is the sum.
-/
import proofs.«125822_j37185826849259_1_alg».proof.Proof.Gen.KernelIdeal.Frame
import proofs.«125822_j37185826849259_1_alg».proof.Proof.StatsPay
import proofs.«125822_j37185826849259_1_alg».proof.Proof.StatsRows
import Idealize.ShloMosaic.Lib.Pipeline.Value
import Idealize.ShloMosaic.Lib.Tactic

noncomputable section

open Idealize.ShloMosaic Idealize.ShloMosaic.TcCoe Idealize.SL.Sem

namespace Cert.KernelIdeal.Stats

open Cert.KernelIdeal Cert.KernelIdeal.Gen Idealize.ShloMosaic.ValueIdx Cert.Whiten

/-- An accumulator that reads 0 contributes nothing. -/
theorem add_of_zero {a s s' : EReal} (ha : a = 0) (hs : s = s') : a + s = s' := by rw [ha, hs, zero_add]

theorem hz2 : (![0, 0] : Fin 2 → Nat) = fun _ => 0 := funext fun a => by fin_cases a <;> rfl

/-- The zero fill of the row buffer reads 0 everywhere. -/
theorem zero_rows (inb : ∀ a, (![0, 0] : Fin 2 → Nat) a + S4x64.size a ≤ S4x64.size a) (g : Fin 4) (d : Fin 64) :
    View.canon [(⟨Rect.unit (s := S4x64) ![0, 0] S4x64.size inb, k0_pay3 (F := Ideal)⟩ : View.Piece (Elt Ideal) S4x64 .f32)] (ix2 g d)
      = (0 : EReal) := by
  rw [View.canon_unit_zero hz2]
  unfold k0_pay3
  exact Ideal.ofBits_zero_f32

/-- CASE B (a later point): entry (g, d) is the carried entry plus the block's sum of channel g·64 + d. -/
theorem out1_B (c : Dev nD) (i : grid0.Coords) (a1 : Memref sig .tc .vmem S16x256x1024 .f32) (h1 : a1.IsWhole)
    (a2 : Memref sig .tc .vmem S4x64 .f32) (h2 : a2.IsWhole) (a3 : Memref sig .tc .vmem S4x64x64 .f32) (h3 : a3.IsWhole)
    (hc : ¬cond0_0 i) (x : Vec Ideal S16x256x1024 .f32) (xo1 : Vec Ideal S4x64 .f32) (xo2 : Vec Ideal S4x64x64 .f32)
    (g : Fin 4) (d : Fin 64) :
    out0_B_1 (F := Ideal) c i a1 h1 a2 h2 a3 h3 hc x xo1 xo2 (ix2 g d)
      = xo1 (ix2 g d) + ∑ b : Fin 16, ∑ k : Fin 1024, x (ix3 b (ch g d) k) := by
  unfold out0_B_1
  rw [View.read_writes_eq_canon _ _ _ (cover0_B_1 c i a1 h1 a2 h2 a3 h3 hc x xo1 xo2)]
  unfold kernelRun0_B
  dsimp only
  sl_unfold_words
  match g with
  | ⟨0, hg⟩ =>
    refine (canon_row_skip 3 _ _ _ ⟨0, hg⟩ (by show (0 : ℕ) ≠ 3; omega) d).trans ?_
    refine (canon_row_skip 2 _ _ _ ⟨0, hg⟩ (by show (0 : ℕ) ≠ 2; omega) d).trans ?_
    refine (canon_row_skip 1 _ _ _ ⟨0, hg⟩ (by show (0 : ℕ) ≠ 1; omega) d).trans ?_
    refine (canon_row_hit 0 hg _ _ _ d).trans ?_
    unfold k0_pay6 k0_pay5
    refine (sumPay_apply _ _ _ _ _ _ _ d).trans ?_
    exact congrArg₂ (· + ·) (row_read a2 h2 xo1 0 hg _ d)
      (Finset.sum_congr rfl fun b _ => Finset.sum_congr rfl fun k _ => slice_read a1 h1 x ⟨0, hg⟩ 0 rfl _ _ b d k)
  | ⟨1, hg⟩ =>
    refine (canon_row_skip 3 _ _ _ ⟨1, hg⟩ (by show (1 : ℕ) ≠ 3; omega) d).trans ?_
    refine (canon_row_skip 2 _ _ _ ⟨1, hg⟩ (by show (1 : ℕ) ≠ 2; omega) d).trans ?_
    refine (canon_row_hit 1 hg _ _ _ d).trans ?_
    unfold k0_pay9 k0_pay8
    refine (sumPay_apply _ _ _ _ _ _ _ d).trans ?_
    exact congrArg₂ (· + ·) (row_read a2 h2 xo1 1 hg _ d)
      (Finset.sum_congr rfl fun b _ => Finset.sum_congr rfl fun k _ => slice_read a1 h1 x ⟨1, hg⟩ 64 rfl _ _ b d k)
  | ⟨2, hg⟩ =>
    refine (canon_row_skip 3 _ _ _ ⟨2, hg⟩ (by show (2 : ℕ) ≠ 3; omega) d).trans ?_
    refine (canon_row_hit 2 hg _ _ _ d).trans ?_
    unfold k0_pay12 k0_pay11
    refine (sumPay_apply _ _ _ _ _ _ _ d).trans ?_
    exact congrArg₂ (· + ·) (row_read a2 h2 xo1 2 hg _ d)
      (Finset.sum_congr rfl fun b _ => Finset.sum_congr rfl fun k _ => slice_read a1 h1 x ⟨2, hg⟩ 128 rfl _ _ b d k)
  | ⟨3, hg⟩ =>
    refine (canon_row_hit 3 hg _ _ _ d).trans ?_
    unfold k0_pay1 k0_pay14
    refine (sumPay_apply _ _ _ _ _ _ _ d).trans ?_
    exact congrArg₂ (· + ·) (row_read a2 h2 xo1 3 hg _ d)
      (Finset.sum_congr rfl fun b _ => Finset.sum_congr rfl fun k _ => slice_read a1 h1 x ⟨3, hg⟩ 192 rfl _ _ b d k)

/-- CASE A (the first point): entry (g, d) is the block's sum of channel g·64 + d. -/
theorem out1_A (c : Dev nD) (i : grid0.Coords) (a1 : Memref sig .tc .vmem S16x256x1024 .f32) (h1 : a1.IsWhole)
    (a2 : Memref sig .tc .vmem S4x64 .f32) (h2 : a2.IsWhole) (a3 : Memref sig .tc .vmem S4x64x64 .f32) (h3 : a3.IsWhole)
    (hc : cond0_0 i) (x : Vec Ideal S16x256x1024 .f32) (g : Fin 4) (d : Fin 64) :
    out0_A_1 (F := Ideal) c i a1 h1 a2 h2 a3 h3 hc x (ix2 g d)
      = ∑ b : Fin 16, ∑ k : Fin 1024, x (ix3 b (ch g d) k) := by
  unfold out0_A_1
  rw [View.read_writes_eq_canon _ _ _ (cover0_A_1 c i a1 h1 a2 h2 a3 h3 hc x)]
  unfold kernelRun0_A
  dsimp only
  sl_unfold_words
  match g with
  | ⟨0, hg⟩ =>
    refine (canon_row_skip 3 _ _ _ ⟨0, hg⟩ (by show (0 : ℕ) ≠ 3; omega) d).trans ?_
    refine (canon_row_skip 2 _ _ _ ⟨0, hg⟩ (by show (0 : ℕ) ≠ 2; omega) d).trans ?_
    refine (canon_row_skip 1 _ _ _ ⟨0, hg⟩ (by show (0 : ℕ) ≠ 1; omega) d).trans ?_
    refine (canon_row_hit 0 hg _ _ _ d).trans ?_
    unfold k0_pay6 k0_pay5
    refine (sumPay_apply _ _ _ _ _ _ _ d).trans ?_
    refine add_of_zero ?_
      (Finset.sum_congr rfl fun b _ => Finset.sum_congr rfl fun k _ => slice_read a1 h1 x ⟨0, hg⟩ 0 rfl _ _ b d k)
    refine (congrFun (View.readCov_eq_canon' _ _ _) _).trans ?_
    refine (congrArg (View.canon _) (row_idx 0 hg _ d)).trans ?_
    exact zero_rows _ ⟨0, hg⟩ d
  | ⟨1, hg⟩ =>
    refine (canon_row_skip 3 _ _ _ ⟨1, hg⟩ (by show (1 : ℕ) ≠ 3; omega) d).trans ?_
    refine (canon_row_skip 2 _ _ _ ⟨1, hg⟩ (by show (1 : ℕ) ≠ 2; omega) d).trans ?_
    refine (canon_row_hit 1 hg _ _ _ d).trans ?_
    unfold k0_pay9 k0_pay8
    refine (sumPay_apply _ _ _ _ _ _ _ d).trans ?_
    refine add_of_zero ?_
      (Finset.sum_congr rfl fun b _ => Finset.sum_congr rfl fun k _ => slice_read a1 h1 x ⟨1, hg⟩ 64 rfl _ _ b d k)
    refine (congrFun (View.readCov_eq_canon' _ _ _) _).trans ?_
    refine (congrArg (View.canon _) (row_idx 1 hg _ d)).trans ?_
    refine (canon_row_skip 0 _ _ _ ⟨1, hg⟩ (by show (1 : ℕ) ≠ 0; omega) d).trans ?_
    exact zero_rows _ ⟨1, hg⟩ d
  | ⟨2, hg⟩ =>
    refine (canon_row_skip 3 _ _ _ ⟨2, hg⟩ (by show (2 : ℕ) ≠ 3; omega) d).trans ?_
    refine (canon_row_hit 2 hg _ _ _ d).trans ?_
    unfold k0_pay12 k0_pay11
    refine (sumPay_apply _ _ _ _ _ _ _ d).trans ?_
    refine add_of_zero ?_
      (Finset.sum_congr rfl fun b _ => Finset.sum_congr rfl fun k _ => slice_read a1 h1 x ⟨2, hg⟩ 128 rfl _ _ b d k)
    refine (congrFun (View.readCov_eq_canon' _ _ _) _).trans ?_
    refine (congrArg (View.canon _) (row_idx 2 hg _ d)).trans ?_
    refine (canon_row_skip 1 _ _ _ ⟨2, hg⟩ (by show (2 : ℕ) ≠ 1; omega) d).trans ?_
    refine (canon_row_skip 0 _ _ _ ⟨2, hg⟩ (by show (2 : ℕ) ≠ 0; omega) d).trans ?_
    exact zero_rows _ ⟨2, hg⟩ d
  | ⟨3, hg⟩ =>
    refine (canon_row_hit 3 hg _ _ _ d).trans ?_
    unfold k0_pay1 k0_pay14
    refine (sumPay_apply _ _ _ _ _ _ _ d).trans ?_
    refine add_of_zero ?_
      (Finset.sum_congr rfl fun b _ => Finset.sum_congr rfl fun k _ => slice_read a1 h1 x ⟨3, hg⟩ 192 rfl _ _ b d k)
    refine (congrFun (View.readCov_eq_canon' _ _ _) _).trans ?_
    refine (congrArg (View.canon _) (row_idx 3 hg _ d)).trans ?_
    refine (canon_row_skip 2 _ _ _ ⟨3, hg⟩ (by show (3 : ℕ) ≠ 2; omega) d).trans ?_
    refine (canon_row_skip 1 _ _ _ ⟨3, hg⟩ (by show (3 : ℕ) ≠ 1; omega) d).trans ?_
    refine (canon_row_skip 0 _ _ _ ⟨3, hg⟩ (by show (3 : ℕ) ≠ 0; omega) d).trans ?_
    exact zero_rows _ ⟨3, hg⟩ d

end Cert.KernelIdeal.Stats

end
-- ==== Proof.StatsSum1.lean ====
/-
  The row of sums after the whole grid.

  The array x is [128, 256, 1024] (batch, channel, position); grid point t stages the block of batches 16t … 16t+15.
  By induction on the point, after point n the row buffer's entry (g, d) holds the sum, over the batches below
  16·(n+1) and all positions, of channel g·64 + d: the first point leaves its block's sum, every later point adds its
  block's sum to what the point before left. The buffer is written back once, after the last point, and its one block
  is the whole [4, 64] result array. Eight tiles of sixteen batches are the 128 batches.
-/
import proofs.«125822_j37185826849259_1_alg».proof.Proof.Gen.KernelIdeal.Frame
import proofs.«125822_j37185826849259_1_alg».proof.Proof.StatsOut1
import proofs.«125822_j37185826849259_1_alg».proof.Proof.LibSumSplit
import Idealize.ShloMosaic.Lib.Pipeline.Value

noncomputable section

open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic.ValueIdx Cert.Whiten Cert.PointDist

variable (V : (c : Dev nD) → (b : Ref sig .tc) → Buf (Elt Ideal) ((c : Thread nD τ).loc b))

/-- Batch r of the block staged at point t is batch 16·t + r of the array. -/
abbrev batchAt (t : Fin cfg0.N) (r : Fin 16) : Fin 128 :=
  tileIdx (a := 8) (b := 16) rfl ⟨t.val, lt_of_lt_of_eq t.isLt N_0⟩ r

/-- The input block at point t reads the array at the point's batches, every channel, every position. -/
theorem iblk_apply (c : Dev nD) (t : Fin cfg0.N) (r : Fin 16) (q : Fin 256) (k : Fin 1024) :
    (iblk0 (F := Ideal) V c 0 t : S16x256x1024.Idx → EReal) (ix3 r q k)
      = (V c main_v0 : S128x256x1024.Idx → EReal) (ix3 (batchAt t r) q k) := by
  have hi : ∀ t : Fin cfg0.N, win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0)
  unfold iblk0
  rw [View.read_apply]
  show V c main_v0 _ = V c main_v0 _
  congr 1
  funext a
  apply Fin.ext
  match a with
  | ⟨0, _⟩ => show win0_0.index t 0 * 16 + 1 * r.val = t.val * 16 + r.val; rw [(hi t).1]; omega
  | ⟨1, _⟩ => show win0_0.index t 1 * 256 + 1 * q.val = q.val; rw [(hi t).2.1]; omega
  | ⟨2, _⟩ => show win0_0.index t 2 * 1024 + 1 * k.val = k.val; rw [(hi t).2.2]; omega

/-- The sum of channel g·64 + d over the batches of tile t (zero past the grid). -/
def tileSum1 (c : Dev nD) (g : Fin 4) (d : Fin 64) (t : ℕ) : EReal :=
  if h : t < 8 then
    ∑ r : Fin 16, ∑ k : Fin 1024, (V c main_v0 : S128x256x1024.Idx → EReal) (ix3 (tileIdx (a := 8) (b := 16) rfl ⟨t, h⟩ r) (ch g d) k)
  else 0

/-- The block's sum at point t is tile t's. -/
theorem block_sum1 (c : Dev nD) (g : Fin 4) (d : Fin 64) (t : Fin cfg0.N) :
    (∑ r : Fin 16, ∑ k : Fin 1024, (iblk0 (F := Ideal) V c 0 t : S16x256x1024.Idx → EReal) (ix3 r (ch g d) k) : EReal)
      = tileSum1 V c g d t.val := by
  unfold tileSum1
  rw [dif_pos (lt_of_lt_of_eq t.isLt N_0)]
  exact Finset.sum_congr rfl fun r _ => Finset.sum_congr rfl fun k _ => iblk_apply V c t r (ch g d) k

/-- THE INVARIANT: after point n, entry (g, d) of the row buffer is the sum of the tiles up to n. -/
theorem outs1_eq (c : Dev nD) (g : Fin 4) (d : Fin 64) : ∀ (n : ℕ) (hn : n < cfg0.N),
    ((outsAt0 (F := Ideal) V c n hn).1 : S4x64.Idx → EReal) (ix2 g d) = ∑ t ∈ Finset.range (n + 1), tileSum1 V c g d t
  | 0, hn => by
    rw [outsAt0_A V c ⟨0, hn⟩ rfl]
    dsimp only
    refine (out1_A c (grid0.coords ⟨0, hn⟩) (ms0_0 ⟨0, hn⟩) (hs0_0 ⟨0, hn⟩) (ms0_1 ⟨0, hn⟩) (hs0_1 ⟨0, hn⟩) (ms0_2 ⟨0, hn⟩)
      (hs0_2 ⟨0, hn⟩) ((hcond0_0 ⟨0, hn⟩).mpr rfl) (iblk0 (F := Ideal) V c 0 ⟨0, hn⟩) g d).trans ?_
    rw [Finset.sum_range_one]
    exact block_sum1 V c g d ⟨0, hn⟩
  | n + 1, hn => by
    have hN : cfg0.N = 8 := N_0
    have hB : ¬(⟨n + 1, hn⟩ : Fin cfg0.N).val % 8 = 0 := by dsimp only; omega
    rw [outsAt0_B V c ⟨n + 1, hn⟩ hB]
    dsimp only
    refine (out1_B c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (fun h => hB ((hcond0_0 ⟨n + 1, hn⟩).mp h)) (iblk0 (F := Ideal) V c 0 ⟨n + 1, hn⟩)
      (outsAt0 (F := Ideal) V c n (Nat.lt_of_succ_lt hn)).1 (outsAt0 (F := Ideal) V c n (Nat.lt_of_succ_lt hn)).2 g d).trans ?_
    rw [Finset.sum_range_succ, block_sum1 V c g d ⟨n + 1, hn⟩, outs1_eq c g d n (Nat.lt_of_succ_lt hn)]

/-- The contents of the row buffer after the last point, as contents of the result array (its one block is the array). -/
abbrev rows (c : Dev nD) : Buf (Elt Ideal) ((c : Thread nD τ).loc main_v1_0) :=
  (outsAt0 (F := Ideal) V c 7 (by rw [show cfg0.N = 8 from N_0]; decide)).1

/-- The one write-back, at the last point, writes it: block (0, 0) of the [4, 64] array read through zero offsets is the array. -/
theorem flushed1_eq (c : Dev nD) (t : Fin cfg0.N) (hf : (cfg0.win 1).flush t = true) :
    (dat0 (F := Ideal) V c).flushed 1 t = ((cfg0.win 1).blk t).view.read (Elt Ideal) (rows V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 (F := Ideal) V c).after 1 t0_7) = _
  rw [after0_1]
  have hz' : (fun a => win0_1.index t0_7 a * main_v1_0.ty.shape.size a) = fun _ => 0 := funext fun a => by fin_cases a <;> decide
  exact (Memref.read_access_unit_zero (Elt Ideal) main_v1_0 hz' (fun a => by rw [congrFun hz' a]; simp) (rows V c)).symm

/-- So the result array ends holding the row buffer's last contents: the last point's block covers it. -/
theorem final1 (c : Dev nD) : (dat0 (F := Ideal) V c).arrAt 1 cfg0.N = rows V c :=
  (dat0 (F := Ideal) V c).arrAt_eq_of_cover 1 (rows V c) (flushed1_eq V c) fun i =>
    ⟨t0_7, (flush0_1 t0_7).mpr rfl, by
      show i ∈ ((View.whole main_v1_0).slice (win0_1.rect t0_7)).set
      rw [View.set_slice_whole, Rect.mem_set_unit]
      intro a
      have h0 : (i 0 : Nat) < 4 := (i 0).isLt
      have h1 : (i 1 : Nat) < 64 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 4 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 64 from by decide +kernel]; omega⟩

/-- THE ROW OF SUMS: after the region, entry (g, d) of the first result array is the sum of channel g·64 + d of x over
    all 128 batches and all 1024 positions. -/
theorem sum1_final (c : Dev nD) (g : Fin 4) (d : Fin 64) :
    ((dat0 (F := Ideal) V c).arrAt 1 cfg0.N : S4x64.Idx → EReal) (ix2 g d)
      = (∑ b : Fin 128, ∑ k : Fin 1024, (V c main_v0 : S128x256x1024.Idx → EReal) (ix3 b (ch g d) k) : EReal) := by
  rw [final1 V c]
  refine (outs1_eq V c g d 7 _).trans ?_
  rw [Finset.sum_range, sum_tiles (a := 8) (b := 16) rfl
    (fun b : Fin 128 => (∑ k : Fin 1024, (V c main_v0 : S128x256x1024.Idx → EReal) (ix3 b (ch g d) k) : EReal))]
  refine Finset.sum_congr rfl fun t _ => ?_
  unfold tileSum1
  rw [dif_pos t.isLt]

/-- The array x with its literal type: index (batch, channel, position), extended-real entries. -/
abbrev xs (c : Dev nD) : S128x256x1024.Idx → EReal := V c main_v0

/-- The same, with the array named. -/
theorem sum1_final_xs (c : Dev nD) (g : Fin 4) (d : Fin 64) :
    ((dat0 (F := Ideal) V c).arrAt 1 cfg0.N : S4x64.Idx → EReal) (ix2 g d)
      = ∑ b : Fin 128, ∑ k : Fin 1024, xs V c (ix3 b (ch g d) k) :=
  sum1_final V c g d

end Cert.KernelIdeal.Stats

end
-- ==== Proof.StatsOut2.lean ====
/-
  What one grid point leaves in the slab buffer (the per-group products), entry by entry, over the extended reals.

  For group g the body loads the group's slice of the input block, forms for every batch of the block the 64 × 64
  products of the slice's channels contracted over positions, sums them over the block's batches, loads slab g of the
  buffer and stores slab g back with that sum added. At the first point it first fills the whole buffer with zeros. So:
  • at a later point (case B), entry (g, d, e) is the carried entry plus the sum, over the block's batches and the
    positions, of channel g·64 + d times channel g·64 + e;
  • at the first point (case A), slab g's load reads back the zero fill (the earlier slab stores sit on other slabs), so
    the entry is 0 plus that sum, that is the sum.
-/
import proofs.«125822_j37185826849259_1_alg».proof.Proof.Gen.KernelIdeal.Frame
import proofs.«125822_j37185826849259_1_alg».proof.Proof.StatsPay
import proofs.«125822_j37185826849259_1_alg».proof.Proof.StatsRows
import Idealize.ShloMosaic.Lib.Pipeline.Value
import Idealize.ShloMosaic.Lib.Tactic

noncomputable section

open Idealize.ShloMosaic Idealize.ShloMosaic.TcCoe Idealize.SL.Sem

namespace Cert.KernelIdeal.Stats

open Cert.KernelIdeal Cert.KernelIdeal.Gen Idealize.ShloMosaic.ValueIdx Cert.Whiten

/-- An accumulator that reads 0 contributes nothing. -/
theorem add_of_zero' {a s s' : EReal} (ha : a = 0) (hs : s = s') : a + s = s' := by rw [ha, hs, zero_add]

theorem hz3 : (![0, 0, 0] : Fin 3 → Nat) = fun _ => 0 := funext fun a => by fin_cases a <;> rfl

/-- The zero fill of the slab buffer reads 0 everywhere. -/
theorem zero_slabs (inb : ∀ a, (![0, 0, 0] : Fin 3 → Nat) a + S4x64x64.size a ≤ S4x64x64.size a) (g : Fin 4) (d e : Fin 64) :
    View.canon [(⟨Rect.unit (s := S4x64x64) ![0, 0, 0] S4x64x64.size inb, k0_pay4 (F := Ideal)⟩ : View.Piece (Elt Ideal) S4x64x64 .f32)]
        (ix3 g d e)
      = (0 : EReal) := by
  rw [View.canon_unit_zero hz3]
  unfold k0_pay4
  exact Ideal.ofBits_zero_f32

/-- The products of group g's slice, channel d with channel e, are the block's products of channels g·64 + d and g·64 + e. -/
theorem slice_prod (a1 : Memref sig .tc .vmem S16x256x1024 .f32) (h1 : a1.IsWhole) (x : Vec Ideal S16x256x1024 .f32) (g : Fin 4)
    (n : Nat) (hn : n = g.val * 64)
    (inb : ∀ a, (![0, n, 0] : Fin 3 → Nat) a + (![16, 64, 1024] : Fin 3 → Nat) a ≤ S16x256x1024.size a)
    (hsc : S16x64x1024.ShapeCasts S16x64x1024) (d e : Fin 64) :
    (∑ b : Fin 16, ∑ k : Fin 1024,
        shapeCast S16x64x1024 (View.readAt (Elt Ideal) a1.view (Rect.unit (s := S16x256x1024) ![0, n, 0] ![16, 64, 1024] inb).toLoadRect (h1.unread x)) hsc (ix3 b d k)
          * shapeCast S16x64x1024 (View.readAt (Elt Ideal) a1.view (Rect.unit (s := S16x256x1024) ![0, n, 0] ![16, 64, 1024] inb).toLoadRect (h1.unread x)) hsc (ix3 b e k))
      = ∑ b : Fin 16, ∑ k : Fin 1024, (x (ix3 b (ch g d) k) : EReal) * x (ix3 b (ch g e) k) :=
  Finset.sum_congr rfl fun b _ => Finset.sum_congr rfl fun k _ =>
    congrArg₂ (· * ·) (slice_read a1 h1 x g n hn inb hsc b d k) (slice_read a1 h1 x g n hn inb hsc b e k)

/-- CASE B (a later point): entry (g, d, e) is the carried entry plus the block's products of channels g·64 + d and g·64 + e. -/
theorem out2_B (c : Dev nD) (i : grid0.Coords) (a1 : Memref sig .tc .vmem S16x256x1024 .f32) (h1 : a1.IsWhole)
    (a2 : Memref sig .tc .vmem S4x64 .f32) (h2 : a2.IsWhole) (a3 : Memref sig .tc .vmem S4x64x64 .f32) (h3 : a3.IsWhole)
    (hc : ¬cond0_0 i) (x : Vec Ideal S16x256x1024 .f32) (xo1 : Vec Ideal S4x64 .f32) (xo2 : Vec Ideal S4x64x64 .f32)
    (g : Fin 4) (d e : Fin 64) :
    out0_B_2 (F := Ideal) c i a1 h1 a2 h2 a3 h3 hc x xo1 xo2 (ix3 g d e)
      = xo2 (ix3 g d e) + ∑ b : Fin 16, ∑ k : Fin 1024, (x (ix3 b (ch g d) k) : EReal) * x (ix3 b (ch g e) k) := by
  unfold out0_B_2
  rw [View.read_writes_eq_canon _ _ _ (cover0_B_2 c i a1 h1 a2 h2 a3 h3 hc x xo1 xo2)]
  unfold kernelRun0_B
  dsimp only
  sl_unfold_words
  match g with
  | ⟨0, hg⟩ =>
    refine (canon_slab_skip 3 _ _ _ ⟨0, hg⟩ (by show (0 : ℕ) ≠ 3; omega) d e).trans ?_
    refine (canon_slab_skip 2 _ _ _ ⟨0, hg⟩ (by show (0 : ℕ) ≠ 2; omega) d e).trans ?_
    refine (canon_slab_skip 1 _ _ _ ⟨0, hg⟩ (by show (0 : ℕ) ≠ 1; omega) d e).trans ?_
    refine (canon_slab_hit 0 hg _ _ _ d e).trans ?_
    unfold k0_pay7 k0_pay5
    refine (covPay_apply _ _ _ _ _ _ _ d e).trans ?_
    exact congrArg₂ (· + ·) (slab_read a3 h3 xo2 0 hg _ d e) (slice_prod a1 h1 x ⟨0, hg⟩ 0 rfl _ _ d e)
  | ⟨1, hg⟩ =>
    refine (canon_slab_skip 3 _ _ _ ⟨1, hg⟩ (by show (1 : ℕ) ≠ 3; omega) d e).trans ?_
    refine (canon_slab_skip 2 _ _ _ ⟨1, hg⟩ (by show (1 : ℕ) ≠ 2; omega) d e).trans ?_
    refine (canon_slab_hit 1 hg _ _ _ d e).trans ?_
    unfold k0_pay10 k0_pay8
    refine (covPay_apply _ _ _ _ _ _ _ d e).trans ?_
    exact congrArg₂ (· + ·) (slab_read a3 h3 xo2 1 hg _ d e) (slice_prod a1 h1 x ⟨1, hg⟩ 64 rfl _ _ d e)
  | ⟨2, hg⟩ =>
    refine (canon_slab_skip 3 _ _ _ ⟨2, hg⟩ (by show (2 : ℕ) ≠ 3; omega) d e).trans ?_
    refine (canon_slab_hit 2 hg _ _ _ d e).trans ?_
    unfold k0_pay13 k0_pay11
    refine (covPay_apply _ _ _ _ _ _ _ d e).trans ?_
    exact congrArg₂ (· + ·) (slab_read a3 h3 xo2 2 hg _ d e) (slice_prod a1 h1 x ⟨2, hg⟩ 128 rfl _ _ d e)
  | ⟨3, hg⟩ =>
    refine (canon_slab_hit 3 hg _ _ _ d e).trans ?_
    unfold k0_pay2 k0_pay14
    refine (covPay_apply _ _ _ _ _ _ _ d e).trans ?_
    exact congrArg₂ (· + ·) (slab_read a3 h3 xo2 3 hg _ d e) (slice_prod a1 h1 x ⟨3, hg⟩ 192 rfl _ _ d e)

/-- CASE A (the first point): entry (g, d, e) is the block's products of channels g·64 + d and g·64 + e. -/
theorem out2_A (c : Dev nD) (i : grid0.Coords) (a1 : Memref sig .tc .vmem S16x256x1024 .f32) (h1 : a1.IsWhole)
    (a2 : Memref sig .tc .vmem S4x64 .f32) (h2 : a2.IsWhole) (a3 : Memref sig .tc .vmem S4x64x64 .f32) (h3 : a3.IsWhole)
    (hc : cond0_0 i) (x : Vec Ideal S16x256x1024 .f32) (g : Fin 4) (d e : Fin 64) :
    out0_A_2 (F := Ideal) c i a1 h1 a2 h2 a3 h3 hc x (ix3 g d e)
      = ∑ b : Fin 16, ∑ k : Fin 1024, (x (ix3 b (ch g d) k) : EReal) * x (ix3 b (ch g e) k) := by
  unfold out0_A_2
  rw [View.read_writes_eq_canon _ _ _ (cover0_A_2 c i a1 h1 a2 h2 a3 h3 hc x)]
  unfold kernelRun0_A
  dsimp only
  sl_unfold_words
  match g with
  | ⟨0, hg⟩ =>
    refine (canon_slab_skip 3 _ _ _ ⟨0, hg⟩ (by show (0 : ℕ) ≠ 3; omega) d e).trans ?_
    refine (canon_slab_skip 2 _ _ _ ⟨0, hg⟩ (by show (0 : ℕ) ≠ 2; omega) d e).trans ?_
    refine (canon_slab_skip 1 _ _ _ ⟨0, hg⟩ (by show (0 : ℕ) ≠ 1; omega) d e).trans ?_
    refine (canon_slab_hit 0 hg _ _ _ d e).trans ?_
    unfold k0_pay7 k0_pay5
    refine (covPay_apply _ _ _ _ _ _ _ d e).trans ?_
    refine add_of_zero' ?_ (slice_prod a1 h1 x ⟨0, hg⟩ 0 rfl _ _ d e)
    refine (congrFun (View.readCov_eq_canon' _ _ _) _).trans ?_
    refine (congrArg (View.canon _) (slab_idx 0 hg _ d e)).trans ?_
    exact zero_slabs _ ⟨0, hg⟩ d e
  | ⟨1, hg⟩ =>
    refine (canon_slab_skip 3 _ _ _ ⟨1, hg⟩ (by show (1 : ℕ) ≠ 3; omega) d e).trans ?_
    refine (canon_slab_skip 2 _ _ _ ⟨1, hg⟩ (by show (1 : ℕ) ≠ 2; omega) d e).trans ?_
    refine (canon_slab_hit 1 hg _ _ _ d e).trans ?_
    unfold k0_pay10 k0_pay8
    refine (covPay_apply _ _ _ _ _ _ _ d e).trans ?_
    refine add_of_zero' ?_ (slice_prod a1 h1 x ⟨1, hg⟩ 64 rfl _ _ d e)
    refine (congrFun (View.readCov_eq_canon' _ _ _) _).trans ?_
    refine (congrArg (View.canon _) (slab_idx 1 hg _ d e)).trans ?_
    refine (canon_slab_skip 0 _ _ _ ⟨1, hg⟩ (by show (1 : ℕ) ≠ 0; omega) d e).trans ?_
    exact zero_slabs _ ⟨1, hg⟩ d e
  | ⟨2, hg⟩ =>
    refine (canon_slab_skip 3 _ _ _ ⟨2, hg⟩ (by show (2 : ℕ) ≠ 3; omega) d e).trans ?_
    refine (canon_slab_hit 2 hg _ _ _ d e).trans ?_
    unfold k0_pay13 k0_pay11
    refine (covPay_apply _ _ _ _ _ _ _ d e).trans ?_
    refine add_of_zero' ?_ (slice_prod a1 h1 x ⟨2, hg⟩ 128 rfl _ _ d e)
    refine (congrFun (View.readCov_eq_canon' _ _ _) _).trans ?_
    refine (congrArg (View.canon _) (slab_idx 2 hg _ d e)).trans ?_
    refine (canon_slab_skip 1 _ _ _ ⟨2, hg⟩ (by show (2 : ℕ) ≠ 1; omega) d e).trans ?_
    refine (canon_slab_skip 0 _ _ _ ⟨2, hg⟩ (by show (2 : ℕ) ≠ 0; omega) d e).trans ?_
    exact zero_slabs _ ⟨2, hg⟩ d e
  | ⟨3, hg⟩ =>
    refine (canon_slab_hit 3 hg _ _ _ d e).trans ?_
    unfold k0_pay2 k0_pay14
    refine (covPay_apply _ _ _ _ _ _ _ d e).trans ?_
    refine add_of_zero' ?_ (slice_prod a1 h1 x ⟨3, hg⟩ 192 rfl _ _ d e)
    refine (congrFun (View.readCov_eq_canon' _ _ _) _).trans ?_
    refine (congrArg (View.canon _) (slab_idx 3 hg _ d e)).trans ?_
    refine (canon_slab_skip 2 _ _ _ ⟨3, hg⟩ (by show (3 : ℕ) ≠ 2; omega) d e).trans ?_
    refine (canon_slab_skip 1 _ _ _ ⟨3, hg⟩ (by show (3 : ℕ) ≠ 1; omega) d e).trans ?_
    refine (canon_slab_skip 0 _ _ _ ⟨3, hg⟩ (by show (3 : ℕ) ≠ 0; omega) d e).trans ?_
    exact zero_slabs _ ⟨3, hg⟩ d e

end Cert.KernelIdeal.Stats

end
-- ==== Proof.StatsSum2.lean ====
/-
  The slab of products after the whole grid.

  By induction on the point, after point n the slab buffer's entry (g, d, e) holds the sum, over the batches below
  16·(n+1) and all positions, of channel g·64 + d times channel g·64 + e of the array x: the first point leaves its
  block's products, every later point adds its block's products to what the point before left. The buffer is written
  back once, after the last point, and its one block is the whole [4, 64, 64] result array. Eight tiles of sixteen
  batches are the 128 batches. Sums are only regrouped; no product is distributed.
-/
import proofs.«125822_j37185826849259_1_alg».proof.Proof.Gen.KernelIdeal.Frame
import proofs.«125822_j37185826849259_1_alg».proof.Proof.StatsOut2
import proofs.«125822_j37185826849259_1_alg».proof.Proof.StatsSum1
import proofs.«125822_j37185826849259_1_alg».proof.Proof.LibSumSplit
import Idealize.ShloMosaic.Lib.Pipeline.Value

noncomputable section

open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic.ValueIdx Cert.Whiten Cert.PointDist

variable (V : (c : Dev nD) → (b : Ref sig .tc) → Buf (Elt Ideal) ((c : Thread nD τ).loc b))

/-- The products of channels g·64 + d and g·64 + e summed over the batches of tile t and the positions (zero past the grid). -/
def tileSum2 (c : Dev nD) (g : Fin 4) (d e : Fin 64) (t : ℕ) : EReal :=
  if h : t < 8 then
    ∑ r : Fin 16, ∑ k : Fin 1024,
      xs V c (ix3 (tileIdx (a := 8) (b := 16) rfl ⟨t, h⟩ r) (ch g d) k) * xs V c (ix3 (tileIdx (a := 8) (b := 16) rfl ⟨t, h⟩ r) (ch g e) k)
  else 0

/-- The block's products at point t are tile t's. -/
theorem block_sum2 (c : Dev nD) (g : Fin 4) (d e : Fin 64) (t : Fin cfg0.N) (X : S16x256x1024.Idx → EReal)
    (hX : X = iblk0 (F := Ideal) V c 0 t) :
    ∑ r : Fin 16, ∑ k : Fin 1024, X (ix3 r (ch g d) k) * X (ix3 r (ch g e) k) = tileSum2 V c g d e t.val := by
  subst hX
  unfold tileSum2
  rw [dif_pos (lt_of_lt_of_eq t.isLt N_0)]
  exact Finset.sum_congr rfl fun r _ => Finset.sum_congr rfl fun k _ =>
    congrArg₂ (· * ·) (iblk_apply V c t r (ch g d) k) (iblk_apply V c t r (ch g e) k)

/-- THE INVARIANT: after point n, entry (g, d, e) of the slab buffer is the sum of the tiles up to n. -/
theorem outs2_eq (c : Dev nD) (g : Fin 4) (d e : Fin 64) : ∀ (n : ℕ) (hn : n < cfg0.N),
    ((outsAt0 (F := Ideal) V c n hn).2 : S4x64x64.Idx → EReal) (ix3 g d e) = ∑ t ∈ Finset.range (n + 1), tileSum2 V c g d e t
  | 0, hn => by
    rw [outsAt0_A V c ⟨0, hn⟩ rfl]
    dsimp only
    refine (out2_A c (grid0.coords ⟨0, hn⟩) (ms0_0 ⟨0, hn⟩) (hs0_0 ⟨0, hn⟩) (ms0_1 ⟨0, hn⟩) (hs0_1 ⟨0, hn⟩) (ms0_2 ⟨0, hn⟩)
      (hs0_2 ⟨0, hn⟩) ((hcond0_0 ⟨0, hn⟩).mpr rfl) (iblk0 (F := Ideal) V c 0 ⟨0, hn⟩) g d e).trans ?_
    rw [Finset.sum_range_one]
    exact block_sum2 V c g d e ⟨0, hn⟩ _ rfl
  | n + 1, hn => by
    have hN : cfg0.N = 8 := N_0
    have hB : ¬(⟨n + 1, hn⟩ : Fin cfg0.N).val % 8 = 0 := by dsimp only; omega
    rw [outsAt0_B V c ⟨n + 1, hn⟩ hB]
    dsimp only
    refine (out2_B c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (fun h => hB ((hcond0_0 ⟨n + 1, hn⟩).mp h)) (iblk0 (F := Ideal) V c 0 ⟨n + 1, hn⟩)
      (outsAt0 (F := Ideal) V c n (Nat.lt_of_succ_lt hn)).1 (outsAt0 (F := Ideal) V c n (Nat.lt_of_succ_lt hn)).2 g d e).trans ?_
    rw [Finset.sum_range_succ]
    exact congrArg₂ (· + ·) (outs2_eq c g d e n (Nat.lt_of_succ_lt hn)) (block_sum2 V c g d e ⟨n + 1, hn⟩ _ rfl)

/-- The contents of the slab buffer after the last point, as contents of the result array (its one block is the array). -/
abbrev slabs (c : Dev nD) : Buf (Elt Ideal) ((c : Thread nD τ).loc main_v1_1) :=
  (outsAt0 (F := Ideal) V c 7 (by rw [show cfg0.N = 8 from N_0]; decide)).2

/-- The one write-back, at the last point, writes it: block (0, 0, 0) of the [4, 64, 64] array read through zero offsets is the array. -/
theorem flushed2_eq (c : Dev nD) (t : Fin cfg0.N) (hf : (cfg0.win 2).flush t = true) :
    (dat0 (F := Ideal) V c).flushed 2 t = ((cfg0.win 2).blk t).view.read (Elt Ideal) (slabs V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 (F := Ideal) V c).after 2 t0_7) = _
  rw [after0_2]
  have hz' : (fun a => win0_2.index t0_7 a * main_v1_1.ty.shape.size a) = fun _ => 0 := funext fun a => by fin_cases a <;> decide
  exact (Memref.read_access_unit_zero (Elt Ideal) main_v1_1 hz' (fun a => by rw [congrFun hz' a]; simp) (slabs V c)).symm

/-- So the result array ends holding the slab buffer's last contents: the last point's block covers it. -/
theorem final2 (c : Dev nD) : (dat0 (F := Ideal) V c).arrAt 2 cfg0.N = slabs V c :=
  (dat0 (F := Ideal) V c).arrAt_eq_of_cover 2 (slabs V c) (flushed2_eq V c) fun i =>
    ⟨t0_7, (flush0_2 t0_7).mpr rfl, by
      show i ∈ ((View.whole main_v1_1).slice (win0_2.rect t0_7)).set
      rw [View.set_slice_whole, Rect.mem_set_unit]
      intro a
      have h0 : (i 0 : Nat) < 4 := (i 0).isLt
      have h1 : (i 1 : Nat) < 64 := (i 1).isLt
      have h2 : (i 2 : Nat) < 64 := (i 2).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 4 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 64 from by decide +kernel]; omega
      | ⟨2, _⟩ => show win0_2.index t0_7 2 * win0_2.size 2 ≤ (i 2 : Nat) ∧ (i 2 : Nat) < win0_2.index t0_7 2 * win0_2.size 2 + win0_2.xsize (grid0.coords t0_7) 2
                  rw [show win0_2.index t0_7 2 * win0_2.size 2 = 0 from by decide +kernel, show win0_2.xsize (grid0.coords t0_7) 2 = 64 from by decide +kernel]; omega⟩

/-- THE SLAB OF PRODUCTS: after the region, entry (g, d, e) of the second result array is the sum, over all 128 batches and
    all 1024 positions, of channel g·64 + d of x times channel g·64 + e of x. -/
theorem sum2_final (c : Dev nD) (g : Fin 4) (d e : Fin 64) :
    ((dat0 (F := Ideal) V c).arrAt 2 cfg0.N : S4x64x64.Idx → EReal) (ix3 g d e)
      = ∑ b : Fin 128, ∑ k : Fin 1024, xs V c (ix3 b (ch g d) k) * xs V c (ix3 b (ch g e) k) := by
  rw [final2 V c]
  refine (outs2_eq V c g d e 7 _).trans ?_
  rw [Finset.sum_range, sum_tiles (a := 8) (b := 16) rfl
    (fun b : Fin 128 => ∑ k : Fin 1024, xs V c (ix3 b (ch g d) k) * xs V c (ix3 b (ch g e) k))]
  refine Finset.sum_congr rfl fun t _ => ?_
  unfold tileSum2
  rw [dif_pos t.isLt]

end Cert.KernelIdeal.Stats

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.ApplyPay.lean ====
/-
  The arithmetic of one stored tile, read entry by entry.

  A tile of the output block belongs to one group g of 64 channels and one batch row bb of the block. Its entry
  (d, k) is obtained from the 64 x 1024 slice of the activations of that group and row: subtract the group's
  mean per channel, multiply on the left by the group's 64 x 64 matrix, scale row d by the group's weight and add
  the group's bias. Every operation is read at an index: the three column broadcasts [64] -> [64,1] -> [64,1024]
  read their vector at the row, the slice and the unit-axis casts only rename coordinates, and the matrix product
  into a zero accumulator is the sum over the contracted channel.
-/
import proofs.«125822_j37185826849259_1_alg».proof.Proof.Gen.KernelIdeal.Skeleton
import proofs.«125822_j37185826849259_1_alg».proof.Proof.Chan
import proofs.«125822_j37185826849259_1_alg».proof.Proof.LibDotRows
import Idealize.ShloMosaic.Lib.Pipeline.Value
import Idealize.ShloMosaic.Lib.Pipeline.FrameBody
import Idealize.ShloMosaic.Lib.ValueIdx

noncomputable section

namespace Cert.KernelIdeal.Apply

open Cert.KernelIdeal Cert.KernelIdeal.Gen Idealize.ShloMosaic Idealize.ShloMosaic.ValueIdx Cert.Whiten Cert.Hand

/-- The whitened, scaled and shifted entry: batch row `bb`, channel `d` of group `g`, position `k`. -/
def val {n : ℕ} (x : (⟨3, ![n, 256, 1024]⟩ : Shape).Idx → EReal) (mu : S4x64.Idx → EReal) (wm : S4x64x64.Idx → EReal)
    (w2 b2 : S1x256.Idx → EReal) (bb : Fin n) (g : Fin 4) (d : Fin 64) (k : Fin 1024) : EReal :=
  (∑ e : Fin 64, wm (ix3 g d e) * (x (ix3 bb (ch g e) k) - mu (ix2 g e))) * w2 (ix2 0 (ch g d)) + b2 (ix2 0 (ch g d))

/-- A vector of 64 entries turned into a column and repeated along 1024 positions reads its entry at the row. -/
theorem col_apply (v : FVec Ideal S64 .f32) (h1 : S64.ShapeCasts S64x1) (h2 : S64x1.Broadcasts S64x1024) (d : Fin 64) (k : Fin 1024) :
    broadcastTo S64x1024 (shapeCast S64x1 v h1) h2 (ix2 d k) = v (ix1 d) := by
  refine (broadcastTo_apply _ h2 (ix2 d k) (ix2 d (0 : Fin 1)) ?_).trans (shapeCast_apply v h1 (ix2 d (0 : Fin 1)) (ix1 d) ?_)
  · intro a
    match a with
    | ⟨0, _⟩ => exact (if_neg (show ¬ ((64 : ℕ) = 1) by decide)).symm
    | ⟨1, _⟩ => exact (if_pos rfl).symm
  · rw [Shape.rowMajor_val_one, Shape.rowMajor_val_two]; show d.val = d.val * 1 + 0; omega

/-- The matrix product of a 64 x 64 matrix with a 64 x 1024 matrix into a zero accumulator, at an entry. -/
theorem mm_apply (l : FVec Ideal S64x64 .f32) (r : FVec Ideal S64x1024 .f32) (p : Fin 64) (q : Fin 1024) :
    matmul dot_S64x64_S64x1024_S64x1024_1_0_0_1_n_n none l r (constant S64x1024 .f32 0x00000000#32) (ix2 p q)
      = ∑ e : Fin 64, l (ix2 p e) * r (ix2 e q) := by
  refine (Ideal.matmul_constant_zero_apply dot_S64x64_S64x1024_S64x1024_1_0_0_1_n_n none l r (ix2 p q)).trans ?_
  dot_rows dot_S64x64_S64x1024_S64x1024_1_0_0_1_n_n S64x64 S64x1024 64

/-- An index of a [1, 64, 1024] tile is (0, d, k). -/
theorem idx_unit (x : S1x64x1024.Idx) : ∃ (d : Fin 64) (k : Fin 1024), x = ix3 (0 : Fin 1) d k :=
  ⟨x 1, x 2, (eq_ix3 x).trans (congrArg (fun z : Fin 1 => ix3 z (x 1) (x 2))
    (Fin.ext (by have h : (x 0).val < 1 := (x 0).isLt; show (x 0).val = 0; omega)))⟩

/-- Row `bb` of an [8, 64, 1024] value, cut out as a [1, 64, 1024] slice and viewed as a 64 x 1024 matrix. -/
theorem row_apply (v : FVec Ideal S8x64x1024 .f32) (bb : Fin 8) (o : Fin 3 → ℕ) (ho : o = ![bb.val, 0, 0])
    (hs : S8x64x1024.Slices o S1x64x1024) (h1 : S1x64x1024.ShapeCasts S64x1024) (e : Fin 64) (k : Fin 1024) :
    shapeCast S64x1024 (extractStridedSlice S1x64x1024 o v hs) h1 (ix2 e k) = v (ix3 bb e k) := by
  subst ho
  refine (shapeCast_apply _ h1 (ix2 e k) (ix3 (0 : Fin 1) e k) ?_).trans
    (extractStridedSlice_apply _ v hs (ix3 (0 : Fin 1) e k) (ix3 bb e k) ?_)
  · rw [Shape.rowMajor_val_three, Shape.rowMajor_val_two]
    show (0 * 64 + e.val) * 1024 + k.val = e.val * 1024 + k.val
    omega
  · intro a
    match a with
    | ⟨0, _⟩ => show bb.val = bb.val + 0; omega
    | ⟨1, _⟩ => show e.val = 0 + e.val; omega
    | ⟨2, _⟩ => show k.val = 0 + k.val; omega

/-- One tile's value from the loaded blocks, entry by entry: the slice of row `bb` of the activations minus the
    mean per channel, multiplied on the left by the 64 x 64 matrix, row `d` scaled and shifted. -/
theorem pay_apply (v0 : FVec Ideal S8x64x1024 .f32) (v2 : FVec Ideal S1x64 .f32) (v4 : FVec Ideal S1x64x64 .f32)
    (v6 v8 : FVec Ideal S1x64 .f32) (bb : Fin 8) (o : Fin 3 → ℕ) (ho : o = ![bb.val, 0, 0])
    (hs : S8x64x1024.Slices o S1x64x1024) (hc0 : S8x64x1024.ShapeCasts S8x64x1024) (hc2 : S1x64.ShapeCasts S64)
    (hc4 : S1x64x64.ShapeCasts S64x64) (h1 : S1x64x1024.ShapeCasts S64x1024) (h2 : S64.ShapeCasts S64x1)
    (h3 : S64x1.Broadcasts S64x1024) (h4 : S64x1024.ShapeCasts S1x64x1024) (d : Fin 64) (k : Fin 1024) :
    shapeCast S1x64x1024
        (addf
          (mulf
            (matmul dot_S64x64_S64x1024_S64x1024_1_0_0_1_n_n none (shapeCast S64x64 v4 hc4)
              (subf (shapeCast S64x1024 (extractStridedSlice S1x64x1024 o (shapeCast S8x64x1024 v0 hc0) hs) h1)
                (broadcastTo S64x1024 (shapeCast S64x1 (shapeCast S64 v2 hc2) h2) h3))
              (constant S64x1024 .f32 0x00000000#32))
            (broadcastTo S64x1024 (shapeCast S64x1 (shapeCast S64 v6 hc2) h2) h3))
          (broadcastTo S64x1024 (shapeCast S64x1 (shapeCast S64 v8 hc2) h2) h3))
        h4 (ix3 (0 : Fin 1) d k)
      = (∑ e : Fin 64, v4 (ix3 (0 : Fin 1) d e) * (v0 (ix3 bb e k) - v2 (ix2 (0 : Fin 1) e))) * v6 (ix2 (0 : Fin 1) d)
          + v8 (ix2 (0 : Fin 1) d) := by
  have hvec : ∀ (v : FVec Ideal S1x64 .f32) (e : Fin 64), shapeCast S64 v hc2 (ix1 e) = v (ix2 (0 : Fin 1) e) := fun v e =>
    shapeCast_apply v hc2 (ix1 e) (ix2 (0 : Fin 1) e) (by
      rw [Shape.rowMajor_val_two, Shape.rowMajor_val_one]; show 0 * 64 + e.val = e.val; omega)
  have hmat : ∀ e : Fin 64, shapeCast S64x64 v4 hc4 (ix2 d e) = v4 (ix3 (0 : Fin 1) d e) := fun e =>
    shapeCast_apply v4 hc4 (ix2 d e) (ix3 (0 : Fin 1) d e) (by
      rw [Shape.rowMajor_val_three, Shape.rowMajor_val_two]; show (0 * 64 + d.val) * 64 + e.val = d.val * 64 + e.val; omega)
  refine (shapeCast_apply _ h4 (ix3 (0 : Fin 1) d k) (ix2 d k) (by
    rw [Shape.rowMajor_val_three, Shape.rowMajor_val_two]
    show d.val * 1024 + k.val = (0 * 64 + d.val) * 1024 + k.val
    omega)).trans ?_
  refine congrArg₂ (· + ·) (congrArg₂ (· * ·) ?_ ((col_apply _ h2 h3 d k).trans (hvec v6 d))) ((col_apply _ h2 h3 d k).trans (hvec v8 d))
  refine (mm_apply _ _ d k).trans (Finset.sum_congr rfl fun e _ => congrArg₂ (· * ·) (hmat e) ?_)
  refine congrArg₂ (· - ·) ?_ ((col_apply _ h2 h3 e k).trans (hvec v2 e))
  rw [shapeCast_self v0 hc0]
  exact row_apply v0 bb o ho hs h1 e k

/-- The group of a channel, -/
def grp (c : Fin 256) : Fin 4 := ⟨c.val / 64, by have := c.isLt; omega⟩
/-- and its entry within the group. -/
def ent (c : Fin 256) : Fin 64 := ⟨c.val % 64, Nat.mod_lt _ (by decide)⟩

theorem grp_ch (g : Fin 4) (d : Fin 64) : grp (ch g d) = g :=
  Fin.ext (by show (g.val * 64 + d.val) / 64 = g.val; have := d.isLt; omega)
theorem ent_ch (g : Fin 4) (d : Fin 64) : ent (ch g d) = d :=
  Fin.ext (by show (g.val * 64 + d.val) % 64 = d.val; have := d.isLt; omega)

/-- The whole result as ONE function of the five operands, index by index, for any number `n` of batch rows:
    the block a grid point stages (8 rows) and the whole array (128 rows) are both of this form. -/
def whole {n : ℕ} (x : (⟨3, ![n, 256, 1024]⟩ : Shape).Idx → EReal) (mu : S4x64.Idx → EReal) (wm : S4x64x64.Idx → EReal)
    (w2 b2 : S1x256.Idx → EReal) : (⟨3, ![n, 256, 1024]⟩ : Shape).Idx → EReal :=
  fun y => val x mu wm w2 b2 (y 0) (grp (y 1)) (ent (y 1)) (y 2)

theorem whole_ix3 {n : ℕ} (x : (⟨3, ![n, 256, 1024]⟩ : Shape).Idx → EReal) (mu : S4x64.Idx → EReal) (wm : S4x64x64.Idx → EReal)
    (w2 b2 : S1x256.Idx → EReal) (b : Fin n) (g : Fin 4) (d : Fin 64) (k : Fin 1024) :
    whole x mu wm w2 b2 (ix3 b (ch g d) k) = val x mu wm w2 b2 b g d k := by
  show val x mu wm w2 b2 b (grp (ch g d)) (ent (ch g d)) k = _
  rw [grp_ch, ent_ch]

/-- The array index under entry `j` of a unit-stride rectangle at offsets `o`, coordinate by coordinate. -/
theorem unit_idx3 {n0 n1 n2 m0 m1 m2 : ℕ} (o : Fin 3 → ℕ) (inb : ∀ a, o a + (![m0, m1, m2] : Fin 3 → ℕ) a ≤ (![n0, n1, n2] : Fin 3 → ℕ) a)
    (j0 : Fin m0) (j1 : Fin m1) (j2 : Fin m2) (i0 : Fin n0) (i1 : Fin n1) (i2 : Fin n2)
    (h0 : i0.val = o 0 + j0.val) (h1 : i1.val = o 1 + j1.val) (h2 : i2.val = o 2 + j2.val) :
    (Rect.unit (s := ⟨3, ![n0, n1, n2]⟩) o ![m0, m1, m2] inb).idx (ix3 j0 j1 j2) = ix3 i0 i1 i2 :=
  funext fun a => Fin.ext (by
    match a with
    | ⟨0, _⟩ => show o 0 + 1 * j0.val = i0.val; omega
    | ⟨1, _⟩ => show o 1 + 1 * j1.val = i1.val; omega
    | ⟨2, _⟩ => show o 2 + 1 * j2.val = i2.val; omega)

theorem unit_idx2 {n0 n1 m0 m1 : ℕ} (o : Fin 2 → ℕ) (inb : ∀ a, o a + (![m0, m1] : Fin 2 → ℕ) a ≤ (![n0, n1] : Fin 2 → ℕ) a)
    (j0 : Fin m0) (j1 : Fin m1) (i0 : Fin n0) (i1 : Fin n1)
    (h0 : i0.val = o 0 + j0.val) (h1 : i1.val = o 1 + j1.val) :
    (Rect.unit (s := ⟨2, ![n0, n1]⟩) o ![m0, m1] inb).idx (ix2 j0 j1) = ix2 i0 i1 :=
  funext fun a => Fin.ext (by
    match a with
    | ⟨0, _⟩ => show o 0 + 1 * j0.val = i0.val; omega
    | ⟨1, _⟩ => show o 1 + 1 * j1.val = i1.val; omega)

/-- The loads the body makes of each staged block, at their vector types. -/
abbrev ldX (x0 : Vec Ideal S8x256x1024 .f32) (oX : Fin 3 → ℕ) (inbX : ∀ a, oX a + S8x64x1024.size a ≤ S8x256x1024.size a) :
    FVec Ideal S8x64x1024 .f32 := View.ld x0 (Rect.unit (s := S8x256x1024) oX S8x64x1024.size inbX)
abbrev ldM (x1 : Vec Ideal S4x64 .f32) (oM : Fin 2 → ℕ) (inbM : ∀ a, oM a + S1x64.size a ≤ S4x64.size a) :
    FVec Ideal S1x64 .f32 := View.ld x1 (Rect.unit (s := S4x64) oM S1x64.size inbM)
abbrev ldW (x2 : Vec Ideal S4x64x64 .f32) (oW : Fin 3 → ℕ) (inbW : ∀ a, oW a + S1x64x64.size a ≤ S4x64x64.size a) :
    FVec Ideal S1x64x64 .f32 := View.ld x2 (Rect.unit (s := S4x64x64) oW S1x64x64.size inbW)
abbrev ldS (x3 : Vec Ideal S1x256 .f32) (oS : Fin 2 → ℕ) (inbS : ∀ a, oS a + S1x64.size a ≤ S1x256.size a) :
    FVec Ideal S1x64 .f32 := View.ld x3 (Rect.unit (s := S1x256) oS S1x64.size inbS)

/-- THE TILE OF GROUP `gi` AND ROW `bb`: the value stored through the rectangle at (bb, gi·64, 0), computed from the
    loads of the group's activations (rows 0..7, channels gi·64.., all positions), its means, its matrix, its weights
    and its biases, is the block function `whole` of the five staged blocks under that rectangle. -/
theorem piece_ok (x0 : Vec Ideal S8x256x1024 .f32) (x1 : Vec Ideal S4x64 .f32) (x2 : Vec Ideal S4x64x64 .f32)
    (x3 x4 : Vec Ideal S1x256 .f32) (gi : Fin 4) (bb : Fin 8)
    (oX : Fin 3 → ℕ) (inbX : ∀ a, oX a + S8x64x1024.size a ≤ S8x256x1024.size a) (hX : oX = ![0, gi.val * 64, 0])
    (oM : Fin 2 → ℕ) (inbM : ∀ a, oM a + S1x64.size a ≤ S4x64.size a) (hM : oM = ![gi.val, 0])
    (oW : Fin 3 → ℕ) (inbW : ∀ a, oW a + S1x64x64.size a ≤ S4x64x64.size a) (hW : oW = ![gi.val, 0, 0])
    (oS : Fin 2 → ℕ) (inbS : ∀ a, oS a + S1x64.size a ≤ S1x256.size a) (hS : oS = ![0, gi.val * 64])
    (oR : Fin 3 → ℕ) (inbR : ∀ a, oR a + S1x64x1024.size a ≤ S8x256x1024.size a) (hR : oR = ![bb.val, gi.val * 64, 0])
    (o : Fin 3 → ℕ) (ho : o = ![bb.val, 0, 0])
    (hs : S8x64x1024.Slices o S1x64x1024) (hc0 : S8x64x1024.ShapeCasts S8x64x1024) (hc2 : S1x64.ShapeCasts S64)
    (hc4 : S1x64x64.ShapeCasts S64x64) (h1 : S1x64x1024.ShapeCasts S64x1024) (h2 : S64.ShapeCasts S64x1)
    (h3 : S64x1.Broadcasts S64x1024) (h4 : S64x1024.ShapeCasts S1x64x1024) (x : S1x64x1024.Idx) :
    shapeCast S1x64x1024
        (addf (F := Ideal)
          (mulf (F := Ideal)
            (matmul (F := Ideal) dot_S64x64_S64x1024_S64x1024_1_0_0_1_n_n none
              (shapeCast S64x64 (ldW x2 oW inbW) hc4)
              (subf (F := Ideal) (shapeCast S64x1024 (extractStridedSlice S1x64x1024 o
                  (shapeCast S8x64x1024 (ldX x0 oX inbX) hc0) hs) h1)
                (broadcastTo S64x1024 (shapeCast S64x1 (shapeCast S64 (ldM x1 oM inbM) hc2) h2) h3))
              (constant (F := Ideal) S64x1024 .f32 0x00000000#32))
            (broadcastTo S64x1024 (shapeCast S64x1 (shapeCast S64 (ldS x3 oS inbS) hc2) h2) h3))
          (broadcastTo S64x1024 (shapeCast S64x1 (shapeCast S64 (ldS x4 oS inbS) hc2) h2) h3))
        h4 x
      = whole x0 x1 x2 x3 x4 ((Rect.unit (s := S8x256x1024) oR S1x64x1024.size inbR).emb x) := by
  obtain ⟨d, k, rfl⟩ := idx_unit x
  subst hX hM hW hS hR
  have eR : (Rect.unit (s := S8x256x1024) ![bb.val, gi.val * 64, 0] S1x64x1024.size inbR).emb (ix3 (0 : Fin 1) d k) = ix3 bb (ch gi d) k :=
    unit_idx3 _ inbR (0 : Fin 1) d k bb (ch gi d) k (by show bb.val = bb.val + 0; omega) (by show gi.val * 64 + d.val = gi.val * 64 + d.val; rfl) (by show k.val = 0 + k.val; omega)
  rw [eR, whole_ix3]
  refine (pay_apply _ _ _ _ _ bb o ho hs hc0 hc2 hc4 h1 h2 h3 h4 d k).trans ?_
  have eX : ∀ e : Fin 64, (Rect.unit (s := S8x256x1024) ![0, gi.val * 64, 0] S8x64x1024.size inbX).idx (ix3 bb e k) = ix3 bb (ch gi e) k := fun e =>
    unit_idx3 _ inbX bb e k bb (ch gi e) k (by show bb.val = 0 + bb.val; omega) (by show gi.val * 64 + e.val = gi.val * 64 + e.val; rfl) (by show k.val = 0 + k.val; omega)
  have eM : ∀ e : Fin 64, (Rect.unit (s := S4x64) ![gi.val, 0] S1x64.size inbM).idx (ix2 (0 : Fin 1) e) = ix2 gi e := fun e =>
    unit_idx2 _ inbM (0 : Fin 1) e gi e (by show gi.val = gi.val + 0; omega) (by show e.val = 0 + e.val; omega)
  have eW : ∀ e : Fin 64, (Rect.unit (s := S4x64x64) ![gi.val, 0, 0] S1x64x64.size inbW).idx (ix3 (0 : Fin 1) d e) = ix3 gi d e := fun e =>
    unit_idx3 _ inbW (0 : Fin 1) d e gi d e (by show gi.val = gi.val + 0; omega) (by show d.val = 0 + d.val; omega) (by show e.val = 0 + e.val; omega)
  have eS : (Rect.unit (s := S1x256) ![0, gi.val * 64] S1x64.size inbS).idx (ix2 (0 : Fin 1) d) = ix2 (0 : Fin 1) (ch gi d) :=
    unit_idx2 _ inbS (0 : Fin 1) d (0 : Fin 1) (ch gi d) (by show 0 = 0 + 0; rfl) (by show gi.val * 64 + d.val = gi.val * 64 + d.val; rfl)
  exact congrArg₂ (· + ·) (congrArg₂ (· * ·) (Finset.sum_congr rfl fun e _ => congrArg₂ (· * ·) (congrArg x2 (eW e))
    (congrArg₂ (· - ·) (congrArg x0 (eX e)) (congrArg x1 (eM e)))) (congrArg x3 eS)) (congrArg x4 eS)

end Cert.KernelIdeal.Apply

end
-- ==== Proof.ApplyPieces.lean ====
/-
  The output block as one function of the five staged blocks.

  The body writes the [8, 256, 1024] output block by 32 stores, one per group of 64 channels and batch row of the
  block; the 32 rectangles tile the block. Each stored tile is the block function `whole` under its rectangle, so the
  block the body leaves is `whole` of the staged blocks at every index.
-/
import proofs.«125822_j37185826849259_1_alg».proof.Proof.Gen.KernelIdeal.Frame
import proofs.«125822_j37185826849259_1_alg».proof.Proof.ApplyPay

noncomputable section

namespace Cert.KernelIdeal.Apply

open Cert.KernelIdeal Cert.KernelIdeal.Gen Idealize.ShloMosaic Idealize.ShloMosaic.ValueIdx Cert.Whiten

/-- What the body leaves in the output window's buffer, at every index of the block. -/
theorem out1_5_apply (x0 : Vec Ideal S8x256x1024 .f32) (x1 : Vec Ideal S4x64 .f32) (x2 : Vec Ideal S4x64x64 .f32)
    (x3 x4 : Vec Ideal S1x256 .f32) (y : S8x256x1024.Idx) :
    out1_5 (F := Ideal) x0 x1 x2 x3 x4 y = whole x0 x1 x2 x3 x4 y := by
  unfold out1_5
  refine View.canon_apply_of_pieces (Val := Elt Ideal) (S := S8x256x1024) (e := .f32) (whole x0 x1 x2 x3 x4) _ ?_ y (cover1_5 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x; refine piece_ok x0 x1 x2 x3 x4 3 7 _ _ ?_ _ _ ?_ _ _ ?_ _ _ ?_ _ ?_ ?_ _ ?_ _ _ _ _ _ _ _ _ x <;> first | rfl | decide
  · intro x; refine piece_ok x0 x1 x2 x3 x4 3 6 _ _ ?_ _ _ ?_ _ _ ?_ _ _ ?_ _ ?_ ?_ _ ?_ _ _ _ _ _ _ _ _ x <;> first | rfl | decide
  · intro x; refine piece_ok x0 x1 x2 x3 x4 3 5 _ _ ?_ _ _ ?_ _ _ ?_ _ _ ?_ _ ?_ ?_ _ ?_ _ _ _ _ _ _ _ _ x <;> first | rfl | decide
  · intro x; refine piece_ok x0 x1 x2 x3 x4 3 4 _ _ ?_ _ _ ?_ _ _ ?_ _ _ ?_ _ ?_ ?_ _ ?_ _ _ _ _ _ _ _ _ x <;> first | rfl | decide
  · intro x; refine piece_ok x0 x1 x2 x3 x4 3 3 _ _ ?_ _ _ ?_ _ _ ?_ _ _ ?_ _ ?_ ?_ _ ?_ _ _ _ _ _ _ _ _ x <;> first | rfl | decide
  · intro x; refine piece_ok x0 x1 x2 x3 x4 3 2 _ _ ?_ _ _ ?_ _ _ ?_ _ _ ?_ _ ?_ ?_ _ ?_ _ _ _ _ _ _ _ _ x <;> first | rfl | decide
  · intro x; refine piece_ok x0 x1 x2 x3 x4 3 1 _ _ ?_ _ _ ?_ _ _ ?_ _ _ ?_ _ ?_ ?_ _ ?_ _ _ _ _ _ _ _ _ x <;> first | rfl | decide
  · intro x; refine piece_ok x0 x1 x2 x3 x4 3 0 _ _ ?_ _ _ ?_ _ _ ?_ _ _ ?_ _ ?_ ?_ _ ?_ _ _ _ _ _ _ _ _ x <;> first | rfl | decide
  · intro x; refine piece_ok x0 x1 x2 x3 x4 2 7 _ _ ?_ _ _ ?_ _ _ ?_ _ _ ?_ _ ?_ ?_ _ ?_ _ _ _ _ _ _ _ _ x <;> first | rfl | decide
  · intro x; refine piece_ok x0 x1 x2 x3 x4 2 6 _ _ ?_ _ _ ?_ _ _ ?_ _ _ ?_ _ ?_ ?_ _ ?_ _ _ _ _ _ _ _ _ x <;> first | rfl | decide
  · intro x; refine piece_ok x0 x1 x2 x3 x4 2 5 _ _ ?_ _ _ ?_ _ _ ?_ _ _ ?_ _ ?_ ?_ _ ?_ _ _ _ _ _ _ _ _ x <;> first | rfl | decide
  · intro x; refine piece_ok x0 x1 x2 x3 x4 2 4 _ _ ?_ _ _ ?_ _ _ ?_ _ _ ?_ _ ?_ ?_ _ ?_ _ _ _ _ _ _ _ _ x <;> first | rfl | decide
  · intro x; refine piece_ok x0 x1 x2 x3 x4 2 3 _ _ ?_ _ _ ?_ _ _ ?_ _ _ ?_ _ ?_ ?_ _ ?_ _ _ _ _ _ _ _ _ x <;> first | rfl | decide
  · intro x; refine piece_ok x0 x1 x2 x3 x4 2 2 _ _ ?_ _ _ ?_ _ _ ?_ _ _ ?_ _ ?_ ?_ _ ?_ _ _ _ _ _ _ _ _ x <;> first | rfl | decide
  · intro x; refine piece_ok x0 x1 x2 x3 x4 2 1 _ _ ?_ _ _ ?_ _ _ ?_ _ _ ?_ _ ?_ ?_ _ ?_ _ _ _ _ _ _ _ _ x <;> first | rfl | decide
  · intro x; refine piece_ok x0 x1 x2 x3 x4 2 0 _ _ ?_ _ _ ?_ _ _ ?_ _ _ ?_ _ ?_ ?_ _ ?_ _ _ _ _ _ _ _ _ x <;> first | rfl | decide
  · intro x; refine piece_ok x0 x1 x2 x3 x4 1 7 _ _ ?_ _ _ ?_ _ _ ?_ _ _ ?_ _ ?_ ?_ _ ?_ _ _ _ _ _ _ _ _ x <;> first | rfl | decide
  · intro x; refine piece_ok x0 x1 x2 x3 x4 1 6 _ _ ?_ _ _ ?_ _ _ ?_ _ _ ?_ _ ?_ ?_ _ ?_ _ _ _ _ _ _ _ _ x <;> first | rfl | decide
  · intro x; refine piece_ok x0 x1 x2 x3 x4 1 5 _ _ ?_ _ _ ?_ _ _ ?_ _ _ ?_ _ ?_ ?_ _ ?_ _ _ _ _ _ _ _ _ x <;> first | rfl | decide
  · intro x; refine piece_ok x0 x1 x2 x3 x4 1 4 _ _ ?_ _ _ ?_ _ _ ?_ _ _ ?_ _ ?_ ?_ _ ?_ _ _ _ _ _ _ _ _ x <;> first | rfl | decide
  · intro x; refine piece_ok x0 x1 x2 x3 x4 1 3 _ _ ?_ _ _ ?_ _ _ ?_ _ _ ?_ _ ?_ ?_ _ ?_ _ _ _ _ _ _ _ _ x <;> first | rfl | decide
  · intro x; refine piece_ok x0 x1 x2 x3 x4 1 2 _ _ ?_ _ _ ?_ _ _ ?_ _ _ ?_ _ ?_ ?_ _ ?_ _ _ _ _ _ _ _ _ x <;> first | rfl | decide
  · intro x; refine piece_ok x0 x1 x2 x3 x4 1 1 _ _ ?_ _ _ ?_ _ _ ?_ _ _ ?_ _ ?_ ?_ _ ?_ _ _ _ _ _ _ _ _ x <;> first | rfl | decide
  · intro x; refine piece_ok x0 x1 x2 x3 x4 1 0 _ _ ?_ _ _ ?_ _ _ ?_ _ _ ?_ _ ?_ ?_ _ ?_ _ _ _ _ _ _ _ _ x <;> first | rfl | decide
  · intro x; refine piece_ok x0 x1 x2 x3 x4 0 7 _ _ ?_ _ _ ?_ _ _ ?_ _ _ ?_ _ ?_ ?_ _ ?_ _ _ _ _ _ _ _ _ x <;> first | rfl | decide
  · intro x; refine piece_ok x0 x1 x2 x3 x4 0 6 _ _ ?_ _ _ ?_ _ _ ?_ _ _ ?_ _ ?_ ?_ _ ?_ _ _ _ _ _ _ _ _ x <;> first | rfl | decide
  · intro x; refine piece_ok x0 x1 x2 x3 x4 0 5 _ _ ?_ _ _ ?_ _ _ ?_ _ _ ?_ _ ?_ ?_ _ ?_ _ _ _ _ _ _ _ _ x <;> first | rfl | decide
  · intro x; refine piece_ok x0 x1 x2 x3 x4 0 4 _ _ ?_ _ _ ?_ _ _ ?_ _ _ ?_ _ ?_ ?_ _ ?_ _ _ _ _ _ _ _ _ x <;> first | rfl | decide
  · intro x; refine piece_ok x0 x1 x2 x3 x4 0 3 _ _ ?_ _ _ ?_ _ _ ?_ _ _ ?_ _ ?_ ?_ _ ?_ _ _ _ _ _ _ _ _ x <;> first | rfl | decide
  · intro x; refine piece_ok x0 x1 x2 x3 x4 0 2 _ _ ?_ _ _ ?_ _ _ ?_ _ _ ?_ _ ?_ ?_ _ ?_ _ _ _ _ _ _ _ _ x <;> first | rfl | decide
  · intro x; refine piece_ok x0 x1 x2 x3 x4 0 1 _ _ ?_ _ _ ?_ _ _ ?_ _ _ ?_ _ ?_ ?_ _ ?_ _ _ _ _ _ _ _ _ x <;> first | rfl | decide
  · intro x; refine piece_ok x0 x1 x2 x3 x4 0 0 _ _ ?_ _ _ ?_ _ _ ?_ _ _ ?_ _ ?_ ?_ _ ?_ _ _ _ _ _ _ _ _ x <;> first | rfl | decide

end Cert.KernelIdeal.Apply

end
-- ==== Proof.ApplyBlocks.lean ====
/-
  The staged blocks, read off the arrays.

  Grid point t stages batch rows 8t .. 8t+7 of the activations (all channels, all positions) and the whole of the
  other four operands: the printed index maps are decided over the 16 points, and a block's coordinate is the
  block index times the block size plus the coordinate inside the block.
-/
import proofs.«125822_j37185826849259_1_alg».proof.Proof.Gen.KernelIdeal.Frame
import Idealize.ShloMosaic.Lib.Pipeline.Value
import Idealize.ShloMosaic.Lib.ValueIdx

noncomputable section

namespace Cert.KernelIdeal.Apply

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The printed index maps, decided over the 16 grid points: the activations' and the output's block index is the
    point on the batch axis and zero elsewhere; the other four windows stay at block zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- Batch row `bb` of the block of point `t`. -/
def row (t : Fin cfg1.N) (bb : Fin 8) : Fin 128 :=
  ⟨t.val * 8 + bb.val, by have h := t.isLt; have hN : cfg1.N = 16 := N_1; have := bb.isLt; omega⟩

/-- The activations' block at point `t` is rows 8t .. 8t+7 of the array. -/
theorem blk0_apply (c : Dev nD) (t : Fin cfg1.N) (bb : Fin 8) (cc : Fin 256) (k : Fin 1024) :
    (iblk1 V c 0 t : Vec Ideal S8x256x1024 .f32) (ix3 bb cc k) = (V c main_v0 : S128x256x1024.Idx → EReal) (ix3 (row t bb) cc k) := by
  obtain ⟨e0, e1, e2, -⟩ := idx_facts t
  unfold iblk1
  rw [View.read_apply]
  show V c main_v0 _ = V c main_v0 _
  congr 1
  funext a
  apply Fin.ext
  match a with
  | ⟨0, _⟩ => show win1_0.index t (0 : Fin 3) * 8 + 1 * bb.val = t.val * 8 + bb.val; rw [e0]; omega
  | ⟨1, _⟩ => show win1_0.index t (1 : Fin 3) * 256 + 1 * cc.val = cc.val; rw [e1]; omega
  | ⟨2, _⟩ => show win1_0.index t (2 : Fin 3) * 1024 + 1 * k.val = k.val; rw [e2]; omega

/-- The other four windows stage their whole arrays at every point. -/
theorem blk1_eq (c : Dev nD) (t : Fin cfg1.N) : (iblk1 V c 1 t : Vec Ideal S4x64 .f32) = (V c main_v3 : S4x64.Idx → EReal) := by
  obtain ⟨-, -, -, e0, e1, -⟩ := idx_facts t
  funext y
  unfold iblk1
  rw [View.read_apply]
  show V c main_v3 _ = V c main_v3 _
  congr 1
  funext a
  apply Fin.ext
  match a with
  | ⟨0, _⟩ => show win1_1.index t (0 : Fin 2) * 4 + 1 * (y 0).val = (y 0).val; rw [e0]; omega
  | ⟨1, _⟩ => show win1_1.index t (1 : Fin 2) * 64 + 1 * (y 1).val = (y 1).val; rw [e1]; omega

theorem blk2_eq (c : Dev nD) (t : Fin cfg1.N) : (iblk1 V c 2 t : Vec Ideal S4x64x64 .f32) = (V c main_v72 : S4x64x64.Idx → EReal) := by
  obtain ⟨-, -, -, -, -, e0, e1, e2, -⟩ := idx_facts t
  funext y
  unfold iblk1
  rw [View.read_apply]
  show V c main_v72 _ = V c main_v72 _
  congr 1
  funext a
  apply Fin.ext
  match a with
  | ⟨0, _⟩ => show win1_2.index t (0 : Fin 3) * 4 + 1 * (y 0).val = (y 0).val; rw [e0]; omega
  | ⟨1, _⟩ => show win1_2.index t (1 : Fin 3) * 64 + 1 * (y 1).val = (y 1).val; rw [e1]; omega
  | ⟨2, _⟩ => show win1_2.index t (2 : Fin 3) * 64 + 1 * (y 2).val = (y 2).val; rw [e2]; omega

theorem blk3_eq (c : Dev nD) (t : Fin cfg1.N) : (iblk1 V c 3 t : Vec Ideal S1x256 .f32) = (V c main_v73 : S1x256.Idx → EReal) := by
  obtain ⟨-, -, -, -, -, -, -, -, e0, e1, -⟩ := idx_facts t
  funext y
  unfold iblk1
  rw [View.read_apply]
  show V c main_v73 _ = V c main_v73 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem blk4_eq (c : Dev nD) (t : Fin cfg1.N) : (iblk1 V c 4 t : Vec Ideal S1x256 .f32) = (V c main_v74 : S1x256.Idx → EReal) := by
  obtain ⟨-, -, -, -, -, -, -, -, -, -, e0, e1, -⟩ := idx_facts t
  funext y
  unfold iblk1
  rw [View.read_apply]
  show V c main_v74 _ = V c main_v74 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

end Cert.KernelIdeal.Apply

end
-- ==== Proof.Apply.lean ====
/-
  From the blocks to the whole output array.

  The block the body leaves at grid point t is the block function of the staged blocks, and that is rows 8t .. 8t+7
  of the same function of the whole arrays: the activations' block is those rows of the array and the other four
  blocks are the arrays themselves. Every point writes its block back, and batch row b lies in the block of point
  b / 8, so the blocks cover the output array, which ends as that function of the arrays the region found.
-/
import proofs.«125822_j37185826849259_1_alg».proof.Proof.Gen.KernelIdeal.Frame
import proofs.«125822_j37185826849259_1_alg».proof.Proof.ApplyPieces
import proofs.«125822_j37185826849259_1_alg».proof.Proof.ApplyBlocks
import Idealize.ShloMosaic.Lib.Pipeline.Value

noncomputable section

namespace Cert.KernelIdeal.Apply

open Cert.KernelIdeal Cert.KernelIdeal.Gen Idealize.ShloMosaic Idealize.ShloMosaic.ValueIdx Cert.Whiten
open Idealize.ShloMosaic.TcCoe
open Idealize.ShloMosaic.Pipeline (Dat)

variable (V : (c : Dev nD) → (b : Ref sig .tc) → Buf (Elt Ideal) ((c : Thread nD τ).loc b))

/-- The five arrays as the region finds them, at their index types. -/
abbrev aX (c : Dev nD) : S128x256x1024.Idx → EReal := V c main_v0
abbrev aM (c : Dev nD) : S4x64.Idx → EReal := V c main_v3
abbrev aW (c : Dev nD) : S4x64x64.Idx → EReal := V c main_v72
abbrev aS (c : Dev nD) : S1x256.Idx → EReal := V c main_v73
abbrev aB (c : Dev nD) : S1x256.Idx → EReal := V c main_v74

/-- WHAT POINT `t` WRITES BACK is block `t` of the whole-array function of the arrays the region found. -/
theorem flushed_eq (c : Dev nD) (t : Fin cfg1.N) :
    (dat1 (F := Ideal) V c).flushed 5 t
      = ((cfg1.win 5).blk t).view.read (Elt Ideal) (whole (n := 128) (aX V c) (aM V c) (aW V c) (aS V c) (aB V c)) := by
  show (cfg1.win 5).cut (grid1.coords t) ((dat1 V c).after 5 t) = _
  rw [after1_5]
  obtain ⟨-, -, -, -, -, -, -, -, -, -, -, -, e0, e1, e2⟩ := idx_facts t
  funext j
  obtain ⟨bb, cc, k, rfl⟩ : ∃ (bb : Fin 8) (cc : Fin 256) (k : Fin 1024), j = ix3 bb cc k := ⟨j 0, j 1, j 2, eq_ix3 j⟩
  have hemb : ((cfg1.win 5).blk t).view.emb (ix3 bb cc k) = (ix3 (row t bb) cc k : S128x256x1024.Idx) := funext fun a => Fin.ext (by
    match a with
    | ⟨0, _⟩ => show win1_5.index t (0 : Fin 3) * 8 + 1 * bb.val = t.val * 8 + bb.val; rw [e0]; omega
    | ⟨1, _⟩ => show win1_5.index t (1 : Fin 3) * 256 + 1 * cc.val = cc.val; rw [e1]; omega
    | ⟨2, _⟩ => show win1_5.index t (2 : Fin 3) * 1024 + 1 * k.val = k.val; rw [e2]; omega)
  show out1_5 (iblk1 V c 0 t) (iblk1 V c 1 t) (iblk1 V c 2 t) (iblk1 V c 3 t) (iblk1 V c 4 t) (ix3 bb cc k)
    = whole (n := 128) (aX V c) (aM V c) (aW V c) (aS V c) (aB V c) (((cfg1.win 5).blk t).view.emb (ix3 bb cc k))
  rw [hemb]
  refine (out1_5_apply (iblk1 V c 0 t) (iblk1 V c 1 t) (iblk1 V c 2 t) (iblk1 V c 3 t) (iblk1 V c 4 t) (ix3 bb cc k)).trans ?_
  rw [blk1_eq V c t, blk2_eq V c t, blk3_eq V c t, blk4_eq V c t]
  show val (n := 8) (iblk1 V c 0 t) (aM V c) (aW V c) (aS V c) (aB V c) bb (grp cc) (ent cc) k
    = val (n := 128) (aX V c) (aM V c) (aW V c) (aS V c) (aB V c) (row t bb) (grp cc) (ent cc) k
  unfold val
  exact congrArg₂ (· + ·) (congrArg₂ (· * ·) (Finset.sum_congr rfl fun e _ => congrArg₂ (· * ·) rfl
    (congrArg₂ (· - ·) (blk0_apply V c t bb (ch (grp cc) e) k) rfl)) rfl) rfl

/-- An index of the array is in point `t`'s output block iff each coordinate is in the block's range on its axis. -/
theorem mem_blk (t : Fin cfg1.N) (i : S128x256x1024.Idx) :
    i ∈ ((cfg1.win 5).blk t).view.set ↔ ∀ a : Fin 3, win1_5.index t a * S8x256x1024.size a ≤ (i a).val ∧ (i a).val < win1_5.index t a * S8x256x1024.size a + S8x256x1024.size a := by
  show i ∈ ((View.whole main_v75).slice (win1_5.rect t)).set ↔ _
  rw [View.set_slice_whole, Rect.mem_set_unit]
  exact Iff.rfl

/-- Every index of the output array is in the block of the point its batch row falls in. -/
theorem cover (i : S128x256x1024.Idx) : ∃ t : Fin cfg1.N, (cfg1.win 5).flush t = true ∧ i ∈ ((cfg1.win 5).blk t).view.set := by
  have hi0 : (i 0).val < 128 := (i 0).isLt
  have hi1 : (i 1).val < 256 := (i 1).isLt
  have hi2 : (i 2).val < 1024 := (i 2).isLt
  have hN : cfg1.N = 16 := N_1
  have ht : (i 0).val / 8 < cfg1.N := by rw [hN]; omega
  obtain ⟨-, -, -, -, -, -, -, -, -, -, -, -, e0, e1, e2⟩ := idx_facts ⟨(i 0).val / 8, ht⟩
  refine ⟨⟨(i 0).val / 8, ht⟩, flush1_5 _, ?_⟩
  rw [mem_blk]
  intro a
  match a with
  | ⟨0, _⟩ =>
    show win1_5.index ⟨(i 0).val / 8, ht⟩ (0 : Fin 3) * 8 ≤ (i 0).val ∧ (i 0).val < win1_5.index ⟨(i 0).val / 8, ht⟩ (0 : Fin 3) * 8 + 8
    rw [e0]; show (i 0).val / 8 * 8 ≤ (i 0).val ∧ (i 0).val < (i 0).val / 8 * 8 + 8; omega
  | ⟨1, _⟩ =>
    show win1_5.index ⟨(i 0).val / 8, ht⟩ (1 : Fin 3) * 256 ≤ (i 1).val ∧ (i 1).val < win1_5.index ⟨(i 0).val / 8, ht⟩ (1 : Fin 3) * 256 + 256
    rw [e1]; omega
  | ⟨2, _⟩ =>
    show win1_5.index ⟨(i 0).val / 8, ht⟩ (2 : Fin 3) * 1024 ≤ (i 2).val ∧ (i 2).val < win1_5.index ⟨(i 0).val / 8, ht⟩ (2 : Fin 3) * 1024 + 1024
    rw [e2]; omega

/-- THE OUTPUT ARRAY after the region: the whole-array function of the arrays the region found. -/
theorem arr_final (c : Dev nD) :
    ((dat1 (F := Ideal) V c).arrAt 5 cfg1.N : S128x256x1024.Idx → EReal) = whole (n := 128) (aX V c) (aM V c) (aW V c) (aS V c) (aB V c) :=
  (dat1 (F := Ideal) V c).arrAt_eq_of_cover 5 (whole (n := 128) (aX V c) (aM V c) (aW V c) (aS V c) (aB V c)) (fun t _ => flushed_eq V c t) cover

/-- The output of the region, entry by entry: batch row `b`, channel `d` of group `g`, position `k`. -/
theorem out_final (c : Dev nD) (b : Fin 128) (g : Fin 4) (d : Fin 64) (k : Fin 1024) :
    ((dat1 (F := Ideal) V c).arrAt 5 cfg1.N : S128x256x1024.Idx → EReal) (ix3 b (ch g d) k)
      = (∑ e : Fin 64, aW V c (ix3 g d e) * (aX V c (ix3 b (ch g e) k) - aM V c (ix2 g e)))
          * aS V c (ix2 0 (ch g d)) + aB V c (ix2 0 (ch g d)) :=
  (congrFun (arr_final V c) (ix3 b (ch g d) k)).trans (whole_ix3 (n := 128) (aX V c) (aM V c) (aW V c) (aS V c) (aB V c) b g d k)

end Cert.KernelIdeal.Apply

end
-- ==== Proof.Assemble.lean ====
/-
  The two results are equal. The kernel program's result is its second region's output with the spatial axis split; that
  output at (batch b, channel g·64+d, position k) is row d of the group's whitening matrix against the centred
  channels at that place, times the weight, plus the bias. The reference's result at the same entry is the same
  formula: the whitening matrices are equal (the covariances are, for real activations, and the rest of the computation
  is common), the centred entries are the same entries of the activations less the same means, and the weight and the
  bias are read at the same channel.
-/
import proofs.«125822_j37185826849259_1_alg».proof.Proof.Bridge
import proofs.«125822_j37185826849259_1_alg».proof.Proof.StatsSum1
import proofs.«125822_j37185826849259_1_alg».proof.Proof.StatsSum2
import proofs.«125822_j37185826849259_1_alg».proof.Proof.Apply

noncomputable section

namespace Cert.Whiten

open Idealize.ShloMosaic Idealize.ShloMosaic.TcCoe Idealize.ShloMosaic.ValueIdx Idealize.SL.Sem
open Cert.KernelIdeal Cert.KernelIdeal.Gen Cert.KernelIdeal.Stages Cert.ReferenceIdeal.RefRun

variable (m : (ℓ : Loc nD τ sig) → Buf (Elt Ideal) ℓ) (ρ : Dev nD → PrngReg) (c : Dev nD)

/-- The three arguments as launched, the activations as the regions read them, and the first region's two sums, at
    their index types. -/
abbrev A0 : T4.Idx → EReal := m ((c : Thread nD τ).loc main_arg0)
abbrev A1 : P4.Idx → EReal := m ((c : Thread nD τ).loc main_arg1)
abbrev A2 : P4.Idx → EReal := m ((c : Thread nD τ).loc main_arg2)
abbrev xK : T3.Idx → EReal := W1 m ρ c (main_v0 : DevRef τ sig)
abbrev s1K : (⟨2, ![4, 64]⟩ : Shape).Idx → EReal := W2 m ρ c (main_v1_0 : DevRef τ sig)
abbrev s2K : (⟨3, ![4, 64, 64]⟩ : Shape).Idx → EReal := W2 m ρ c (main_v1_1 : DevRef τ sig)

theorem x_apply (b : Fin 128) (ch' : Fin 256) (k : Fin 1024) : xK m ρ c (ix3 b ch' k) = A0 m c (jx b ch' k) := by
  unfold xK
  rw [W1_x]
  exact merged_apply _ _ b ch' k

theorem s1_apply (g : Fin 4) (d : Fin 64) :
    s1K m ρ c (ix2 g d) = ∑ b : Fin 128, ∑ k : Fin 1024, xK m ρ c (ix3 b (ch g d) k) := by
  unfold s1K
  rw [W2_s1]
  exact Cert.KernelIdeal.Stats.sum1_final (V1 m ρ) c g d

theorem s2_apply (g : Fin 4) (d e : Fin 64) :
    s2K m ρ c (ix3 g d e) = ∑ b : Fin 128, ∑ k : Fin 1024, xK m ρ c (ix3 b (ch g d) k) * xK m ρ c (ix3 b (ch g e) k) := by
  unfold s2K
  rw [W2_s2]
  exact Cert.KernelIdeal.Stats.sum2_final (V1 m ρ) c g d e

/-- The whitening matrix the second region reads is the reference's, for real activations. -/
theorem wm_eq_ref (hfin : ∀ j, ∃ r : ℝ, A0 m c j = (r : EReal)) :
    (W5 m ρ c (main_v72 : DevRef τ sig) : (⟨3, ![4, 64, 64]⟩ : Shape).Idx → EReal)
      = refTail (F := Ideal) (rSigma (refXc (A0 m c)) rEye) := by
  rw [W5_v72, tail_eq]
  exact congrArg refTail (sigma_eq (A0 m c) (xK m ρ c) (s1K m ρ c) (s2K m ρ c) hfin (x_apply m ρ c) (s1_apply m ρ c) (s2_apply m ρ c))

/-- The kernel program's result is the reference's function of the launch contents of the arguments, when every entry
    of the activations is a real number. -/
theorem result_eq (hfin : ∀ j, ∃ r : ℝ, A0 m c j = (r : EReal)) :
    (W7 m ρ c (main_v76 : DevRef τ sig) : T4.Idx → EReal) = refResult (F := Ideal) (A0 m c) (A1 m c) (A2 m c) := by
  funext j
  obtain ⟨b, g, d, k, rfl⟩ := exists_jx j
  rw [W7_result, split_apply]
  refine (Cert.KernelIdeal.Apply.out_final (V5 m ρ) c b g d k).trans ?_
  unfold refResult
  rw [rOut_apply]
  have eW : Cert.KernelIdeal.Apply.aW (V5 m ρ) c = refTail (F := Ideal) (rSigma (refXc (A0 m c)) rEye) := wm_eq_ref m ρ c hfin
  have eX : Cert.KernelIdeal.Apply.aX (V5 m ρ) c = xK m ρ c := (W5_v0 m ρ c).trans (W2_x m ρ c)
  have eM : Cert.KernelIdeal.Apply.aM (V5 m ρ) c = kMean (F := Ideal) (s1K m ρ c) := W5_v3 m ρ c
  have eS : Cert.KernelIdeal.Apply.aS (V5 m ρ) c = kRow (F := Ideal) (A1 m c) := (W5_v73 m ρ c).trans (congrArg kRow (W2_arg1 m ρ c))
  have eB : Cert.KernelIdeal.Apply.aB (V5 m ρ) c = kRow (F := Ideal) (A2 m c) := (W5_v74 m ρ c).trans (congrArg kRow (W2_arg2 m ρ c))
  rw [eW, eX, eM, eS, eB, kRow_apply, kRow_apply]
  have hterm : ∀ e : Fin 64, xK m ρ c (ix3 b (ch g e) k) - kMean (F := Ideal) (s1K m ρ c) (ix2 g e)
      = refXc (F := Ideal) (A0 m c) (ix3 g e (pos b k)) := fun e => by
    rw [ref_xc]
    exact congrArg₂ (· - ·) (x_apply m ρ c b (ch g e) k) (ker_mean (A0 m c) (xK m ρ c) (s1K m ρ c) (x_apply m ρ c) (s1_apply m ρ c) g e)
  simp only [hterm]

end Cert.Whiten

end
-- ==== Proof.lean ====
/-
  Group whitening by a Newton–Schulz iteration, computed two ways, and the proof that the two results are equal on the
  extended reals whenever the inputs are finite.

  The activations X are a [128, 256, 32, 32] array; its 256 channels form 4 groups of 64, and each channel has
  131072 = 128 · 32 · 32 places (batch, row, column). For each group both programs form the 64 × 64 covariance Σ of
  its channels over the places, regularised by ε on the diagonal, divide it by its trace, run five steps
  P ← 3/2 · P − 1/2 · P³ · Σ/tr Σ from the identity, scale the iterate by (1 / tr Σ)^(1/2) to get the whitening matrix
  W, and return W applied to the centred channels at every place, times a per-channel weight, plus a per-channel bias.

  They differ in how Σ is reached. The reference centres first: Σ = ε I + (1/M) ∑ (x_d − μ_d)(x_e − μ_e), μ the mean over
  the M places. The kernel program accumulates, batch tile by batch tile, the plain sums ∑ x_d and ∑ x_d x_e, and
  forms Σ = ε I + (1/M) ∑ x_d x_e − μ_d μ_e afterwards; its second region then applies W to X − μ block by block.
  The two covariances are equal when the x are real numbers — on the extended reals the expansion of the centred
  product fails at an infinity — which is the one place the precondition is used (Cov.lean, Bridge.lean). Everything
  from Σ to W is the same chain of operations in both programs and is carried as one function (TailEq.lean); the sums
  over places differ only in order and grouping, which addition on the extended reals does not see; and the two
  layouts of X are re-indexings of one array (Layout.lean).

  The three frames: the kernel program's, at words and idealized, are the frames of its two regions and the host
  operations around them; the reference's is its run with the result dropped. The idealization rewrote nothing, so
  there is nothing to preserve.
-/
import proofs.«125822_j37185826849259_1_alg».proof.Defs
import proofs.«125822_j37185826849259_1_alg».proof.Proof.Gen.Kernel
import proofs.«125822_j37185826849259_1_alg».proof.Proof.Gen.Kernel.Frame
import proofs.«125822_j37185826849259_1_alg».proof.Proof.Gen.KernelIdeal
import proofs.«125822_j37185826849259_1_alg».proof.Proof.Gen.KernelIdeal.Frame
import proofs.«125822_j37185826849259_1_alg».proof.Proof.Gen.ReferenceIdeal
import proofs.«125822_j37185826849259_1_alg».proof.Proof.Gen.Pre_finite_inputs
import proofs.«125822_j37185826849259_1_alg».proof.Proof.KerRun
import proofs.«125822_j37185826849259_1_alg».proof.Proof.RefValue
import proofs.«125822_j37185826849259_1_alg».proof.Proof.Finite
import proofs.«125822_j37185826849259_1_alg».proof.Proof.Assemble

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the same result array: the kernel program's run names its result, the reference's run ends
    at its function of the arguments, and for finite activations the two are equal. -/
theorem algebraic : Cert.algebraic_KernelIdeal_ReferenceIdeal := by
  intro m ρ m' ρ' hpre hagree
  refine ⟨fun c => Cert.KernelIdeal.Gen.W7 m ρ c (Proc.devRef .tc Cert.KernelIdeal.main_v76), Cert.KernelIdeal.Run.run_named m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Whiten.result_eq m ρ c (fun j => Cert.Whiten.real_of_pre _ _ _ (hpre c) j)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
